-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x6x64x128x128 : Shape := ⟨5, ![4, 6, 64, 128, 128]⟩
abbrev S_ : Shape := ⟨0, ![]⟩

class Facts : Prop where
  bcast_S_S4x6x64x128x128 : S_.BroadcastsInDim S4x6x64x128x128 (![] : Fin 0 → Fin S4x6x64x128x128.rank)
  reducesTo_S4x6x64x128x128_S_d0_1_2_3_4 : S4x6x64x128x128.ReducesTo [0, 1, 2, 3, 4] S_
  h_S_ : 0 < S_.numel

variable [Facts]

def fn {F : FTy → Type} [FloatOps F] (main_arg0 : FVec F S4x6x64x128x128 .f32) : IVec S_ 1 :=
  let main_v0 : FVec F S4x6x64x128x128 .f32 := Host.absf main_arg0
  let main_cst : FVec F S_ .f32 := constant S_ .f32 0x7F800000#32
  let main_v1 : FVec F S4x6x64x128x128 .f32 := broadcastInDim S4x6x64x128x128 ![] bcast_S_S4x6x64x128x128 main_cst
  let main_v2 : IVec S4x6x64x128x128 1 := cmpf .olt main_v0 main_v1
  let main_c : IVec S_ 1 := constantI S_ 1 1#1
  let main_v3 : IVec S_ 1 := (fun x v => Host.reduce IntOp.andi x v reducesTo_S4x6x64x128x128_S_d0_1_2_3_4 h_S_) main_v2 main_c
  main_v3
-- ==== Kernel.lean ====
abbrev S4x6x64x128x128 : Shape := ⟨5, ![4, 6, 64, 128, 128]⟩
abbrev S4x1x64x128x128 : Shape := ⟨5, ![4, 1, 64, 128, 128]⟩
abbrev S4x64x128x128 : Shape := ⟨4, ![4, 64, 128, 128]⟩
abbrev S4x64x2x128 : Shape := ⟨4, ![4, 64, 2, 128]⟩
abbrev S4x64x128x2 : Shape := ⟨4, ![4, 64, 128, 2]⟩
abbrev S4x1x64x2x128 : Shape := ⟨5, ![4, 1, 64, 2, 128]⟩
abbrev S4x6x64x2x128 : Shape := ⟨5, ![4, 6, 64, 2, 128]⟩
abbrev S4x1x64x128x2 : Shape := ⟨5, ![4, 1, 64, 128, 2]⟩
abbrev S4x6x64x128x2 : Shape := ⟨5, ![4, 6, 64, 128, 2]⟩
abbrev S4x6x64x2x1 : Shape := ⟨5, ![4, 6, 64, 2, 1]⟩
abbrev S1x4x1x6x1x64x1x2x1x1 : Shape := ⟨10, ![1, 4, 1, 6, 1, 64, 1, 2, 1, 1]⟩
abbrev S1x4x1x6x1x64x1x2x2x1 : Shape := ⟨10, ![1, 4, 1, 6, 1, 64, 1, 2, 2, 1]⟩
abbrev S4x6x64x2x2 : Shape := ⟨5, ![4, 6, 64, 2, 2]⟩
abbrev S4x6x64x2x132 : Shape := ⟨5, ![4, 6, 64, 2, 132]⟩
abbrev S4x6x64x132x132 : Shape := ⟨5, ![4, 6, 64, 132, 132]⟩
abbrev S1x1x64x128x128 : Shape := ⟨5, ![1, 1, 64, 128, 128]⟩
abbrev S1x1x64x2x132 : Shape := ⟨5, ![1, 1, 64, 2, 132]⟩
abbrev S1x1x64x2x128 : Shape := ⟨5, ![1, 1, 64, 2, 128]⟩
abbrev S1x1x64x132x132 : Shape := ⟨5, ![1, 1, 64, 132, 132]⟩
abbrev S64x2x132 : Shape := ⟨3, ![64, 2, 132]⟩
abbrev S64x128x128 : Shape := ⟨3, ![64, 128, 128]⟩
abbrev S64x2x128 : Shape := ⟨3, ![64, 2, 128]⟩
abbrev S64x128x2 : Shape := ⟨3, ![64, 128, 2]⟩
abbrev S1x1x64x128x2 : Shape := ⟨5, ![1, 1, 64, 128, 2]⟩

abbrev nBuf : Space → Nat
  | .hbm => 102
  | .vmem => 12
  | .smem => 0
  | _ => 0

abbrev bufTy : (tb : Table) → Fin (tcTables nBuf tb) → BufTy
  | .hbm, ⟨0, _⟩ => ⟨S4x6x64x128x128, .f32⟩
  | .hbm, ⟨1, _⟩ => ⟨S4x1x64x128x128, .f32⟩
  | .hbm, ⟨2, _⟩ => ⟨S4x64x128x128, .f32⟩
  | .hbm, ⟨3, _⟩ => ⟨S4x1x64x128x128, .f32⟩
  | .hbm, ⟨4, _⟩ => ⟨S4x64x128x128, .f32⟩
  | .hbm, ⟨5, _⟩ => ⟨S4x1x64x128x128, .f32⟩
  | .hbm, ⟨6, _⟩ => ⟨S4x64x128x128, .f32⟩
  | .hbm, ⟨7, _⟩ => ⟨S4x1x64x128x128, .f32⟩
  | .hbm, ⟨8, _⟩ => ⟨S4x64x128x128, .f32⟩
  | .hbm, ⟨9, _⟩ => ⟨S4x1x64x128x128, .f32⟩
  | .hbm, ⟨10, _⟩ => ⟨S4x64x128x128, .f32⟩
  | .hbm, ⟨11, _⟩ => ⟨S4x1x64x128x128, .f32⟩
  | .hbm, ⟨12, _⟩ => ⟨S4x64x128x128, .f32⟩
  | .hbm, ⟨13, _⟩ => ⟨S4x64x2x128, .f32⟩
  | .hbm, ⟨14, _⟩ => ⟨S4x64x2x128, .f32⟩
  | .hbm, ⟨15, _⟩ => ⟨S4x64x2x128, .f32⟩
  | .hbm, ⟨16, _⟩ => ⟨S4x64x2x128, .f32⟩
  | .hbm, ⟨17, _⟩ => ⟨S4x64x128x2, .f32⟩
  | .hbm, ⟨18, _⟩ => ⟨S4x64x2x128, .f32⟩
  | .hbm, ⟨19, _⟩ => ⟨S4x64x128x2, .f32⟩
  | .hbm, ⟨20, _⟩ => ⟨S4x64x2x128, .f32⟩
  | .hbm, ⟨21, _⟩ => ⟨S4x64x2x128, .f32⟩
  | .hbm, ⟨22, _⟩ => ⟨S4x64x2x128, .f32⟩
  | .hbm, ⟨23, _⟩ => ⟨S4x64x2x128, .f32⟩
  | .hbm, ⟨24, _⟩ => ⟨S4x1x64x2x128, .f32⟩
  | .hbm, ⟨25, _⟩ => ⟨S4x1x64x2x128, .f32⟩
  | .hbm, ⟨26, _⟩ => ⟨S4x1x64x2x128, .f32⟩
  | .hbm, ⟨27, _⟩ => ⟨S4x1x64x2x128, .f32⟩
  | .hbm, ⟨28, _⟩ => ⟨S4x1x64x2x128, .f32⟩
  | .hbm, ⟨29, _⟩ => ⟨S4x1x64x2x128, .f32⟩
  | .hbm, ⟨30, _⟩ => ⟨S4x6x64x2x128, .f32⟩
  | .hbm, ⟨31, _⟩ => ⟨S4x64x2x128, .f32⟩
  | .hbm, ⟨32, _⟩ => ⟨S4x64x2x128, .f32⟩
  | .hbm, ⟨33, _⟩ => ⟨S4x64x2x128, .f32⟩
  | .hbm, ⟨34, _⟩ => ⟨S4x64x2x128, .f32⟩
  | .hbm, ⟨35, _⟩ => ⟨S4x64x2x128, .f32⟩
  | .hbm, ⟨36, _⟩ => ⟨S4x64x128x2, .f32⟩
  | .hbm, ⟨37, _⟩ => ⟨S4x64x2x128, .f32⟩
  | .hbm, ⟨38, _⟩ => ⟨S4x64x2x128, .f32⟩
  | .hbm, ⟨39, _⟩ => ⟨S4x64x128x2, .f32⟩
  | .hbm, ⟨40, _⟩ => ⟨S4x64x2x128, .f32⟩
  | .hbm, ⟨41, _⟩ => ⟨S4x64x2x128, .f32⟩
  | .hbm, ⟨42, _⟩ => ⟨S4x1x64x2x128, .f32⟩
  | .hbm, ⟨43, _⟩ => ⟨S4x1x64x2x128, .f32⟩
  | .hbm, ⟨44, _⟩ => ⟨S4x1x64x2x128, .f32⟩
  | .hbm, ⟨45, _⟩ => ⟨S4x1x64x2x128, .f32⟩
  | .hbm, ⟨46, _⟩ => ⟨S4x1x64x2x128, .f32⟩
  | .hbm, ⟨47, _⟩ => ⟨S4x1x64x2x128, .f32⟩
  | .hbm, ⟨48, _⟩ => ⟨S4x6x64x2x128, .f32⟩
  | .hbm, ⟨49, _⟩ => ⟨S4x64x128x2, .f32⟩
  | .hbm, ⟨50, _⟩ => ⟨S4x64x2x128, .f32⟩
  | .hbm, ⟨51, _⟩ => ⟨S4x64x128x2, .f32⟩
  | .hbm, ⟨52, _⟩ => ⟨S4x64x128x2, .f32⟩
  | .hbm, ⟨53, _⟩ => ⟨S4x64x128x2, .f32⟩
  | .hbm, ⟨54, _⟩ => ⟨S4x64x128x2, .f32⟩
  | .hbm, ⟨55, _⟩ => ⟨S4x64x128x2, .f32⟩
  | .hbm, ⟨56, _⟩ => ⟨S4x64x2x128, .f32⟩
  | .hbm, ⟨57, _⟩ => ⟨S4x64x128x2, .f32⟩
  | .hbm, ⟨58, _⟩ => ⟨S4x1x64x128x2, .f32⟩
  | .hbm, ⟨59, _⟩ => ⟨S4x1x64x128x2, .f32⟩
  | .hbm, ⟨60, _⟩ => ⟨S4x1x64x128x2, .f32⟩
  | .hbm, ⟨61, _⟩ => ⟨S4x1x64x128x2, .f32⟩
  | .hbm, ⟨62, _⟩ => ⟨S4x1x64x128x2, .f32⟩
  | .hbm, ⟨63, _⟩ => ⟨S4x1x64x128x2, .f32⟩
  | .hbm, ⟨64, _⟩ => ⟨S4x6x64x128x2, .f32⟩
  | .hbm, ⟨65, _⟩ => ⟨S4x64x128x2, .f32⟩
  | .hbm, ⟨66, _⟩ => ⟨S4x64x2x128, .f32⟩
  | .hbm, ⟨67, _⟩ => ⟨S4x64x128x2, .f32⟩
  | .hbm, ⟨68, _⟩ => ⟨S4x64x128x2, .f32⟩
  | .hbm, ⟨69, _⟩ => ⟨S4x64x128x2, .f32⟩
  | .hbm, ⟨70, _⟩ => ⟨S4x64x128x2, .f32⟩
  | .hbm, ⟨71, _⟩ => ⟨S4x64x2x128, .f32⟩
  | .hbm, ⟨72, _⟩ => ⟨S4x64x128x2, .f32⟩
  | .hbm, ⟨73, _⟩ => ⟨S4x64x128x2, .f32⟩
  | .hbm, ⟨74, _⟩ => ⟨S4x1x64x128x2, .f32⟩
  | .hbm, ⟨75, _⟩ => ⟨S4x1x64x128x2, .f32⟩
  | .hbm, ⟨76, _⟩ => ⟨S4x1x64x128x2, .f32⟩
  | .hbm, ⟨77, _⟩ => ⟨S4x1x64x128x2, .f32⟩
  | .hbm, ⟨78, _⟩ => ⟨S4x1x64x128x2, .f32⟩
  | .hbm, ⟨79, _⟩ => ⟨S4x1x64x128x2, .f32⟩
  | .hbm, ⟨80, _⟩ => ⟨S4x6x64x128x2, .f32⟩
  | .hbm, ⟨81, _⟩ => ⟨S4x6x64x2x1, .f32⟩
  | .hbm, ⟨82, _⟩ => ⟨S1x4x1x6x1x64x1x2x1x1, .f32⟩
  | .hbm, ⟨83, _⟩ => ⟨S1x4x1x6x1x64x1x2x2x1, .f32⟩
  | .hbm, ⟨84, _⟩ => ⟨S4x6x64x2x2, .f32⟩
  | .hbm, ⟨85, _⟩ => ⟨S4x6x64x2x1, .f32⟩
  | .hbm, ⟨86, _⟩ => ⟨S1x4x1x6x1x64x1x2x1x1, .f32⟩
  | .hbm, ⟨87, _⟩ => ⟨S1x4x1x6x1x64x1x2x2x1, .f32⟩
  | .hbm, ⟨88, _⟩ => ⟨S4x6x64x2x2, .f32⟩
  | .hbm, ⟨89, _⟩ => ⟨S4x6x64x2x1, .f32⟩
  | .hbm, ⟨90, _⟩ => ⟨S1x4x1x6x1x64x1x2x1x1, .f32⟩
  | .hbm, ⟨91, _⟩ => ⟨S1x4x1x6x1x64x1x2x2x1, .f32⟩
  | .hbm, ⟨92, _⟩ => ⟨S4x6x64x2x2, .f32⟩
  | .hbm, ⟨93, _⟩ => ⟨S4x6x64x2x1, .f32⟩
  | .hbm, ⟨94, _⟩ => ⟨S1x4x1x6x1x64x1x2x1x1, .f32⟩
  | .hbm, ⟨95, _⟩ => ⟨S1x4x1x6x1x64x1x2x2x1, .f32⟩
  | .hbm, ⟨96, _⟩ => ⟨S4x6x64x2x2, .f32⟩
  | .hbm, ⟨97, _⟩ => ⟨S4x6x64x2x132, .f32⟩
  | .hbm, ⟨98, _⟩ => ⟨S4x6x64x2x132, .f32⟩
  | .hbm, ⟨99, _⟩ => ⟨S4x6x64x2x128, .f32⟩
  | .hbm, ⟨100, _⟩ => ⟨S4x6x64x2x128, .f32⟩
  | .hbm, ⟨101, _⟩ => ⟨S4x6x64x132x132, .f32⟩
  | .local _ .vmem, ⟨0, _⟩ => ⟨S1x1x64x128x128, .f32⟩
  | .local _ .vmem, ⟨1, _⟩ => ⟨S1x1x64x128x128, .f32⟩
  | .local _ .vmem, ⟨2, _⟩ => ⟨S1x1x64x2x132, .f32⟩
  | .local _ .vmem, ⟨3, _⟩ => ⟨S1x1x64x2x132, .f32⟩
  | .local _ .vmem, ⟨4, _⟩ => ⟨S1x1x64x2x132, .f32⟩
  | .local _ .vmem, ⟨5, _⟩ => ⟨S1x1x64x2x132, .f32⟩
  | .local _ .vmem, ⟨6, _⟩ => ⟨S1x1x64x2x128, .f32⟩
  | .local _ .vmem, ⟨7, _⟩ => ⟨S1x1x64x2x128, .f32⟩
  | .local _ .vmem, ⟨8, _⟩ => ⟨S1x1x64x2x128, .f32⟩
  | .local _ .vmem, ⟨9, _⟩ => ⟨S1x1x64x2x128, .f32⟩
  | .local _ .vmem, ⟨10, _⟩ => ⟨S1x1x64x132x132, .f32⟩
  | .local _ .vmem, ⟨11, _⟩ => ⟨S1x1x64x132x132, .f32⟩
  | _, _ => ⟨S4x6x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x2x132 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x2x132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x132x132 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S4x6x64x128x128_S4x1x64x128x128_0_0_0_0_0 : S4x6x64x128x128.Slices ![0, 0, 0, 0, 0] S4x1x64x128x128
  shapeCasts_S4x1x64x128x128_S4x64x128x128 : S4x1x64x128x128.ShapeCasts S4x64x128x128
  slices_S4x6x64x128x128_S4x1x64x128x128_0_1_0_0_0 : S4x6x64x128x128.Slices ![0, 1, 0, 0, 0] S4x1x64x128x128
  slices_S4x6x64x128x128_S4x1x64x128x128_0_2_0_0_0 : S4x6x64x128x128.Slices ![0, 2, 0, 0, 0] S4x1x64x128x128
  slices_S4x6x64x128x128_S4x1x64x128x128_0_3_0_0_0 : S4x6x64x128x128.Slices ![0, 3, 0, 0, 0] S4x1x64x128x128
  slices_S4x6x64x128x128_S4x1x64x128x128_0_4_0_0_0 : S4x6x64x128x128.Slices ![0, 4, 0, 0, 0] S4x1x64x128x128
  slices_S4x6x64x128x128_S4x1x64x128x128_0_5_0_0_0 : S4x6x64x128x128.Slices ![0, 5, 0, 0, 0] S4x1x64x128x128
  slices_S4x64x128x128_S4x64x2x128_0_0_0_0 : S4x64x128x128.Slices ![0, 0, 0, 0] S4x64x2x128
  slices_S4x64x128x128_S4x64x2x128_0_0_126_0 : S4x64x128x128.Slices ![0, 0, 126, 0] S4x64x2x128
  slices_S4x64x128x128_S4x64x128x2_0_0_0_0 : S4x64x128x128.Slices ![0, 0, 0, 0] S4x64x128x2
  transposes_S4x64x128x2_S4x64x2x128_0_1_3_2 : S4x64x128x2.Transposes [0, 1, 3, 2] S4x64x2x128
  slices_S4x64x128x128_S4x64x128x2_0_0_0_126 : S4x64x128x128.Slices ![0, 0, 0, 126] S4x64x128x2
  bcast_S4x64x2x128_S4x1x64x2x128_0_2_3_4 : S4x64x2x128.BroadcastsInDim S4x1x64x2x128 (![0, 2, 3, 4] : Fin 4 → Fin S4x1x64x2x128.rank)
  concatenates_S4x1x64x2x128_S4x1x64x2x128_S4x1x64x2x128_S4x1x64x2x128_S4x1x64x2x128_S4x1x64x2x128_S4x6x64x2x128_d1 : Shape.Concatenates [S4x1x64x2x128, S4x1x64x2x128, S4x1x64x2x128, S4x1x64x2x128, S4x1x64x2x128, S4x1x64x2x128] S4x6x64x2x128 1
  transposes_S4x64x2x128_S4x64x128x2_0_1_3_2 : S4x64x2x128.Transposes [0, 1, 3, 2] S4x64x128x2
  bcast_S4x64x128x2_S4x1x64x128x2_0_2_3_4 : S4x64x128x2.BroadcastsInDim S4x1x64x128x2 (![0, 2, 3, 4] : Fin 4 → Fin S4x1x64x128x2.rank)
  concatenates_S4x1x64x128x2_S4x1x64x128x2_S4x1x64x128x2_S4x1x64x128x2_S4x1x64x128x2_S4x1x64x128x2_S4x6x64x128x2_d1 : Shape.Concatenates [S4x1x64x128x2, S4x1x64x128x2, S4x1x64x128x2, S4x1x64x128x2, S4x1x64x128x2, S4x1x64x128x2] S4x6x64x128x2 1
  slices_S4x6x64x2x128_S4x6x64x2x1_0_0_0_0_0 : S4x6x64x2x128.Slices ![0, 0, 0, 0, 0] S4x6x64x2x1
  shapeCasts_S4x6x64x2x1_S1x4x1x6x1x64x1x2x1x1 : S4x6x64x2x1.ShapeCasts S1x4x1x6x1x64x1x2x1x1
  bcast_S1x4x1x6x1x64x1x2x1x1_S1x4x1x6x1x64x1x2x2x1_0_1_2_3_4_5_6_7_8_9 : S1x4x1x6x1x64x1x2x1x1.BroadcastsInDim S1x4x1x6x1x64x1x2x2x1 (![0, 1, 2, 3, 4, 5, 6, 7, 8, 9] : Fin 10 → Fin S1x4x1x6x1x64x1x2x2x1.rank)
  shapeCasts_S1x4x1x6x1x64x1x2x2x1_S4x6x64x2x2 : S1x4x1x6x1x64x1x2x2x1.ShapeCasts S4x6x64x2x2
  slices_S4x6x64x2x128_S4x6x64x2x1_0_0_0_0_127 : S4x6x64x2x128.Slices ![0, 0, 0, 0, 127] S4x6x64x2x1
  concatenates_S4x6x64x2x2_S4x6x64x2x128_S4x6x64x2x2_S4x6x64x2x132_d4 : Shape.Concatenates [S4x6x64x2x2, S4x6x64x2x128, S4x6x64x2x2] S4x6x64x2x132 4
  transposes_S4x6x64x128x2_S4x6x64x2x128_0_1_2_4_3 : S4x6x64x128x2.Transposes [0, 1, 2, 4, 3] S4x6x64x2x128
  inb_S1x1x64x2x132_S1x1x64x2x132_0_0_0_0_0 : ∀ a, (![0, 0, 0, 0, 0] : Fin 5 → Nat) a + S1x1x64x2x132.size a ≤ S1x1x64x2x132.size a
  h_S1x1x64x2x132 : 0 < S1x1x64x2x132.numel
  shapeCasts_S1x1x64x2x132_S64x2x132 : S1x1x64x2x132.ShapeCasts S64x2x132
  inb_S1x1x64x132x132_S1x1x64x2x132_0_0_0_0_0 : ∀ a, (![0, 0, 0, 0, 0] : Fin 5 → Nat) a + S1x1x64x2x132.size a ≤ S1x1x64x132x132.size a
  shapeCasts_S64x2x132_S1x1x64x2x132 : S64x2x132.ShapeCasts S1x1x64x2x132
  inb_S1x1x64x132x132_S1x1x64x2x132_0_0_0_130_0 : ∀ a, (![0, 0, 0, 130, 0] : Fin 5 → Nat) a + S1x1x64x2x132.size a ≤ S1x1x64x132x132.size a
  inb_S1x1x64x128x128_S1x1x64x128x128_0_0_0_0_0 : ∀ a, (![0, 0, 0, 0, 0] : Fin 5 → Nat) a + S1x1x64x128x128.size a ≤ S1x1x64x128x128.size a
  h_S1x1x64x128x128 : 0 < S1x1x64x128x128.numel
  shapeCasts_S1x1x64x128x128_S64x128x128 : S1x1x64x128x128.ShapeCasts S64x128x128
  inb_S1x1x64x132x132_S1x1x64x128x128_0_0_0_2_2 : ∀ a, (![0, 0, 0, 2, 2] : Fin 5 → Nat) a + S1x1x64x128x128.size a ≤ S1x1x64x132x132.size a
  shapeCasts_S64x128x128_S1x1x64x128x128 : S64x128x128.ShapeCasts S1x1x64x128x128
  inb_S1x1x64x2x128_S1x1x64x2x128_0_0_0_0_0 : ∀ a, (![0, 0, 0, 0, 0] : Fin 5 → Nat) a + S1x1x64x2x128.size a ≤ S1x1x64x2x128.size a
  h_S1x1x64x2x128 : 0 < S1x1x64x2x128.numel
  shapeCasts_S1x1x64x2x128_S64x2x128 : S1x1x64x2x128.ShapeCasts S64x2x128
  transposes_S64x2x128_p0_2_1_S64x128x2 : S64x2x128.Transposes [0, 2, 1] S64x128x2
  inb_S1x1x64x132x132_S1x1x64x128x2_0_0_0_2_0 : ∀ a, (![0, 0, 0, 2, 0] : Fin 5 → Nat) a + S1x1x64x128x2.size a ≤ S1x1x64x132x132.size a
  h_S1x1x64x128x2 : 0 < S1x1x64x128x2.numel
  shapeCasts_S1x1x64x128x2_S64x128x2 : S1x1x64x128x2.ShapeCasts S64x128x2
  shapeCasts_S64x128x2_S1x1x64x128x2 : S64x128x2.ShapeCasts S1x1x64x128x2
  inb_S1x1x64x132x132_S1x1x64x128x2_0_0_0_2_130 : ∀ a, (![0, 0, 0, 2, 130] : Fin 5 → Nat) a + S1x1x64x128x2.size a ≤ S1x1x64x132x132.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x128x128.size a ≤ S4x6x64x128x128.size a
  hwx0_0 : ∀ i : grid0.Coords, EltTy.bits .f32 = 32 ∨ (Rect.block (s := S4x6x64x128x128) S1x1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2x132.size a ≤ S4x6x64x2x132.size a
  hwx0_1 : ∀ i : grid0.Coords, EltTy.bits .f32 = 32 ∨ (Rect.block (s := S4x6x64x2x132) S1x1x64x2x132.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x2x132.size a ≤ S4x6x64x2x132.size a
  hwx0_2 : ∀ i : grid0.Coords, EltTy.bits .f32 = 32 ∨ (Rect.block (s := S4x6x64x2x132) S1x1x64x2x132.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x2x128.size a ≤ S4x6x64x2x128.size a
  hwx0_3 : ∀ i : grid0.Coords, EltTy.bits .f32 = 32 ∨ (Rect.block (s := S4x6x64x2x128) S1x1x64x2x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x2x128.size a ≤ S4x6x64x2x128.size a
  hwx0_4 : ∀ i : grid0.Coords, EltTy.bits .f32 = 32 ∨ (Rect.block (s := S4x6x64x2x128) S1x1x64x2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64x132x132.size a ≤ S4x6x64x132x132.size a
  hwx0_5 : ∀ i : grid0.Coords, EltTy.bits .f32 = 32 ∨ (Rect.block (s := S4x6x64x132x132) S1x1x64x132x132.size (cc0_transform_5 i) (hinb0_5 i)).WholeWords (EltTy.packing .f32)

variable [Facts₀]

abbrev win0_0 : Pipeline.Window sig grid0 :=
  Pipeline.Window.ofSpec (Memref.whole main_arg0) S1x1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v96) S1x1x64x2x132.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v97) S1x1x64x2x132.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v98) S1x1x64x2x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v99) S1x1x64x2x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v100) S1x1x64x132x132.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x6x64x128x128 : Shape := ⟨5, ![4, 6, 64, 128, 128]⟩
abbrev S4x1x64x128x128 : Shape := ⟨5, ![4, 1, 64, 128, 128]⟩
abbrev S4x64x128x128 : Shape := ⟨4, ![4, 64, 128, 128]⟩
abbrev S4x64x2x128 : Shape := ⟨4, ![4, 64, 2, 128]⟩
abbrev S4x64x128x2 : Shape := ⟨4, ![4, 64, 128, 2]⟩
abbrev S4x1x64x2x128 : Shape := ⟨5, ![4, 1, 64, 2, 128]⟩
abbrev S4x6x64x2x128 : Shape := ⟨5, ![4, 6, 64, 2, 128]⟩
abbrev S4x1x64x128x2 : Shape := ⟨5, ![4, 1, 64, 128, 2]⟩
abbrev S4x6x64x128x2 : Shape := ⟨5, ![4, 6, 64, 128, 2]⟩
abbrev S4x6x64x2x1 : Shape := ⟨5, ![4, 6, 64, 2, 1]⟩
abbrev S1x4x1x6x1x64x1x2x1x1 : Shape := ⟨10, ![1, 4, 1, 6, 1, 64, 1, 2, 1, 1]⟩
abbrev S1x4x1x6x1x64x1x2x2x1 : Shape := ⟨10, ![1, 4, 1, 6, 1, 64, 1, 2, 2, 1]⟩
abbrev S4x6x64x2x2 : Shape := ⟨5, ![4, 6, 64, 2, 2]⟩
abbrev S4x6x64x132x128 : Shape := ⟨5, ![4, 6, 64, 132, 128]⟩
abbrev S4x6x64x132x2 : Shape := ⟨5, ![4, 6, 64, 132, 2]⟩
abbrev S4x6x64x132x132 : Shape := ⟨5, ![4, 6, 64, 132, 132]⟩

abbrev nBuf : Space → Nat
  | .hbm => 101
  | .vmem => 0
  | .smem => 0
  | _ => 0

abbrev bufTy : (tb : Table) → Fin (tcTables nBuf tb) → BufTy
  | .hbm, ⟨0, _⟩ => ⟨S4x6x64x128x128, .f32⟩
  | .hbm, ⟨1, _⟩ => ⟨S4x1x64x128x128, .f32⟩
  | .hbm, ⟨2, _⟩ => ⟨S4x64x128x128, .f32⟩
  | .hbm, ⟨3, _⟩ => ⟨S4x1x64x128x128, .f32⟩
  | .hbm, ⟨4, _⟩ => ⟨S4x64x128x128, .f32⟩
  | .hbm, ⟨5, _⟩ => ⟨S4x1x64x128x128, .f32⟩
  | .hbm, ⟨6, _⟩ => ⟨S4x64x128x128, .f32⟩
  | .hbm, ⟨7, _⟩ => ⟨S4x1x64x128x128, .f32⟩
  | .hbm, ⟨8, _⟩ => ⟨S4x64x128x128, .f32⟩
  | .hbm, ⟨9, _⟩ => ⟨S4x1x64x128x128, .f32⟩
  | .hbm, ⟨10, _⟩ => ⟨S4x64x128x128, .f32⟩
  | .hbm, ⟨11, _⟩ => ⟨S4x1x64x128x128, .f32⟩
  | .hbm, ⟨12, _⟩ => ⟨S4x64x128x128, .f32⟩
  | .hbm, ⟨13, _⟩ => ⟨S4x64x2x128, .f32⟩
  | .hbm, ⟨14, _⟩ => ⟨S4x64x2x128, .f32⟩
  | .hbm, ⟨15, _⟩ => ⟨S4x64x2x128, .f32⟩
  | .hbm, ⟨16, _⟩ => ⟨S4x64x2x128, .f32⟩
  | .hbm, ⟨17, _⟩ => ⟨S4x64x128x2, .f32⟩
  | .hbm, ⟨18, _⟩ => ⟨S4x64x2x128, .f32⟩
  | .hbm, ⟨19, _⟩ => ⟨S4x64x128x2, .f32⟩
  | .hbm, ⟨20, _⟩ => ⟨S4x64x2x128, .f32⟩
  | .hbm, ⟨21, _⟩ => ⟨S4x64x2x128, .f32⟩
  | .hbm, ⟨22, _⟩ => ⟨S4x64x2x128, .f32⟩
  | .hbm, ⟨23, _⟩ => ⟨S4x64x2x128, .f32⟩
  | .hbm, ⟨24, _⟩ => ⟨S4x1x64x2x128, .f32⟩
  | .hbm, ⟨25, _⟩ => ⟨S4x1x64x2x128, .f32⟩
  | .hbm, ⟨26, _⟩ => ⟨S4x1x64x2x128, .f32⟩
  | .hbm, ⟨27, _⟩ => ⟨S4x1x64x2x128, .f32⟩
  | .hbm, ⟨28, _⟩ => ⟨S4x1x64x2x128, .f32⟩
  | .hbm, ⟨29, _⟩ => ⟨S4x1x64x2x128, .f32⟩
  | .hbm, ⟨30, _⟩ => ⟨S4x6x64x2x128, .f32⟩
  | .hbm, ⟨31, _⟩ => ⟨S4x64x2x128, .f32⟩
  | .hbm, ⟨32, _⟩ => ⟨S4x64x2x128, .f32⟩
  | .hbm, ⟨33, _⟩ => ⟨S4x64x2x128, .f32⟩
  | .hbm, ⟨34, _⟩ => ⟨S4x64x2x128, .f32⟩
  | .hbm, ⟨35, _⟩ => ⟨S4x64x2x128, .f32⟩
  | .hbm, ⟨36, _⟩ => ⟨S4x64x128x2, .f32⟩
  | .hbm, ⟨37, _⟩ => ⟨S4x64x2x128, .f32⟩
  | .hbm, ⟨38, _⟩ => ⟨S4x64x2x128, .f32⟩
  | .hbm, ⟨39, _⟩ => ⟨S4x64x128x2, .f32⟩
  | .hbm, ⟨40, _⟩ => ⟨S4x64x2x128, .f32⟩
  | .hbm, ⟨41, _⟩ => ⟨S4x64x2x128, .f32⟩
  | .hbm, ⟨42, _⟩ => ⟨S4x1x64x2x128, .f32⟩
  | .hbm, ⟨43, _⟩ => ⟨S4x1x64x2x128, .f32⟩
  | .hbm, ⟨44, _⟩ => ⟨S4x1x64x2x128, .f32⟩
  | .hbm, ⟨45, _⟩ => ⟨S4x1x64x2x128, .f32⟩
  | .hbm, ⟨46, _⟩ => ⟨S4x1x64x2x128, .f32⟩
  | .hbm, ⟨47, _⟩ => ⟨S4x1x64x2x128, .f32⟩
  | .hbm, ⟨48, _⟩ => ⟨S4x6x64x2x128, .f32⟩
  | .hbm, ⟨49, _⟩ => ⟨S4x64x128x2, .f32⟩
  | .hbm, ⟨50, _⟩ => ⟨S4x64x2x128, .f32⟩
  | .hbm, ⟨51, _⟩ => ⟨S4x64x128x2, .f32⟩
  | .hbm, ⟨52, _⟩ => ⟨S4x64x128x2, .f32⟩
  | .hbm, ⟨53, _⟩ => ⟨S4x64x128x2, .f32⟩
  | .hbm, ⟨54, _⟩ => ⟨S4x64x128x2, .f32⟩
  | .hbm, ⟨55, _⟩ => ⟨S4x64x128x2, .f32⟩
  | .hbm, ⟨56, _⟩ => ⟨S4x64x2x128, .f32⟩
  | .hbm, ⟨57, _⟩ => ⟨S4x64x128x2, .f32⟩
  | .hbm, ⟨58, _⟩ => ⟨S4x1x64x128x2, .f32⟩
  | .hbm, ⟨59, _⟩ => ⟨S4x1x64x128x2, .f32⟩
  | .hbm, ⟨60, _⟩ => ⟨S4x1x64x128x2, .f32⟩
  | .hbm, ⟨61, _⟩ => ⟨S4x1x64x128x2, .f32⟩
  | .hbm, ⟨62, _⟩ => ⟨S4x1x64x128x2, .f32⟩
  | .hbm, ⟨63, _⟩ => ⟨S4x1x64x128x2, .f32⟩
  | .hbm, ⟨64, _⟩ => ⟨S4x6x64x128x2, .f32⟩
  | .hbm, ⟨65, _⟩ => ⟨S4x64x128x2, .f32⟩
  | .hbm, ⟨66, _⟩ => ⟨S4x64x2x128, .f32⟩
  | .hbm, ⟨67, _⟩ => ⟨S4x64x128x2, .f32⟩
  | .hbm, ⟨68, _⟩ => ⟨S4x64x128x2, .f32⟩
  | .hbm, ⟨69, _⟩ => ⟨S4x64x128x2, .f32⟩
  | .hbm, ⟨70, _⟩ => ⟨S4x64x128x2, .f32⟩
  | .hbm, ⟨71, _⟩ => ⟨S4x64x2x128, .f32⟩
  | .hbm, ⟨72, _⟩ => ⟨S4x64x128x2, .f32⟩
  | .hbm, ⟨73, _⟩ => ⟨S4x64x128x2, .f32⟩
  | .hbm, ⟨74, _⟩ => ⟨S4x1x64x128x2, .f32⟩
  | .hbm, ⟨75, _⟩ => ⟨S4x1x64x128x2, .f32⟩
  | .hbm, ⟨76, _⟩ => ⟨S4x1x64x128x2, .f32⟩
  | .hbm, ⟨77, _⟩ => ⟨S4x1x64x128x2, .f32⟩
  | .hbm, ⟨78, _⟩ => ⟨S4x1x64x128x2, .f32⟩
  | .hbm, ⟨79, _⟩ => ⟨S4x1x64x128x2, .f32⟩
  | .hbm, ⟨80, _⟩ => ⟨S4x6x64x128x2, .f32⟩
  | .hbm, ⟨81, _⟩ => ⟨S4x6x64x2x1, .f32⟩
  | .hbm, ⟨82, _⟩ => ⟨S1x4x1x6x1x64x1x2x1x1, .f32⟩
  | .hbm, ⟨83, _⟩ => ⟨S1x4x1x6x1x64x1x2x2x1, .f32⟩
  | .hbm, ⟨84, _⟩ => ⟨S4x6x64x2x2, .f32⟩
  | .hbm, ⟨85, _⟩ => ⟨S4x6x64x2x1, .f32⟩
  | .hbm, ⟨86, _⟩ => ⟨S1x4x1x6x1x64x1x2x1x1, .f32⟩
  | .hbm, ⟨87, _⟩ => ⟨S1x4x1x6x1x64x1x2x2x1, .f32⟩
  | .hbm, ⟨88, _⟩ => ⟨S4x6x64x2x2, .f32⟩
  | .hbm, ⟨89, _⟩ => ⟨S4x6x64x2x1, .f32⟩
  | .hbm, ⟨90, _⟩ => ⟨S1x4x1x6x1x64x1x2x1x1, .f32⟩
  | .hbm, ⟨91, _⟩ => ⟨S1x4x1x6x1x64x1x2x2x1, .f32⟩
  | .hbm, ⟨92, _⟩ => ⟨S4x6x64x2x2, .f32⟩
  | .hbm, ⟨93, _⟩ => ⟨S4x6x64x2x1, .f32⟩
  | .hbm, ⟨94, _⟩ => ⟨S1x4x1x6x1x64x1x2x1x1, .f32⟩
  | .hbm, ⟨95, _⟩ => ⟨S1x4x1x6x1x64x1x2x2x1, .f32⟩
  | .hbm, ⟨96, _⟩ => ⟨S4x6x64x2x2, .f32⟩
  | .hbm, ⟨97, _⟩ => ⟨S4x6x64x132x128, .f32⟩
  | .hbm, ⟨98, _⟩ => ⟨S4x6x64x132x2, .f32⟩
  | .hbm, ⟨99, _⟩ => ⟨S4x6x64x132x2, .f32⟩
  | .hbm, ⟨100, _⟩ => ⟨S4x6x64x132x132, .f32⟩
  | _, _ => ⟨S4x6x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩

abbrev nD : Nat := 1
abbrev τ : Topo := Topo.v7x

variable {F : FTy → Type} [FloatOps F]

class Facts₀ : Prop where
  slices_S4x6x64x128x128_S4x1x64x128x128_0_0_0_0_0 : S4x6x64x128x128.Slices ![0, 0, 0, 0, 0] S4x1x64x128x128
  shapeCasts_S4x1x64x128x128_S4x64x128x128 : S4x1x64x128x128.ShapeCasts S4x64x128x128
  slices_S4x6x64x128x128_S4x1x64x128x128_0_1_0_0_0 : S4x6x64x128x128.Slices ![0, 1, 0, 0, 0] S4x1x64x128x128
  slices_S4x6x64x128x128_S4x1x64x128x128_0_2_0_0_0 : S4x6x64x128x128.Slices ![0, 2, 0, 0, 0] S4x1x64x128x128
  slices_S4x6x64x128x128_S4x1x64x128x128_0_3_0_0_0 : S4x6x64x128x128.Slices ![0, 3, 0, 0, 0] S4x1x64x128x128
  slices_S4x6x64x128x128_S4x1x64x128x128_0_4_0_0_0 : S4x6x64x128x128.Slices ![0, 4, 0, 0, 0] S4x1x64x128x128
  slices_S4x6x64x128x128_S4x1x64x128x128_0_5_0_0_0 : S4x6x64x128x128.Slices ![0, 5, 0, 0, 0] S4x1x64x128x128
  slices_S4x64x128x128_S4x64x2x128_0_0_0_0 : S4x64x128x128.Slices ![0, 0, 0, 0] S4x64x2x128
  slices_S4x64x128x128_S4x64x2x128_0_0_126_0 : S4x64x128x128.Slices ![0, 0, 126, 0] S4x64x2x128
  slices_S4x64x128x128_S4x64x128x2_0_0_0_0 : S4x64x128x128.Slices ![0, 0, 0, 0] S4x64x128x2
  transposes_S4x64x128x2_S4x64x2x128_0_1_3_2 : S4x64x128x2.Transposes [0, 1, 3, 2] S4x64x2x128
  slices_S4x64x128x128_S4x64x128x2_0_0_0_126 : S4x64x128x128.Slices ![0, 0, 0, 126] S4x64x128x2
  bcast_S4x64x2x128_S4x1x64x2x128_0_2_3_4 : S4x64x2x128.BroadcastsInDim S4x1x64x2x128 (![0, 2, 3, 4] : Fin 4 → Fin S4x1x64x2x128.rank)
  concatenates_S4x1x64x2x128_S4x1x64x2x128_S4x1x64x2x128_S4x1x64x2x128_S4x1x64x2x128_S4x1x64x2x128_S4x6x64x2x128_d1 : Shape.Concatenates [S4x1x64x2x128, S4x1x64x2x128, S4x1x64x2x128, S4x1x64x2x128, S4x1x64x2x128, S4x1x64x2x128] S4x6x64x2x128 1
  transposes_S4x64x2x128_S4x64x128x2_0_1_3_2 : S4x64x2x128.Transposes [0, 1, 3, 2] S4x64x128x2
  bcast_S4x64x128x2_S4x1x64x128x2_0_2_3_4 : S4x64x128x2.BroadcastsInDim S4x1x64x128x2 (![0, 2, 3, 4] : Fin 4 → Fin S4x1x64x128x2.rank)
  concatenates_S4x1x64x128x2_S4x1x64x128x2_S4x1x64x128x2_S4x1x64x128x2_S4x1x64x128x2_S4x1x64x128x2_S4x6x64x128x2_d1 : Shape.Concatenates [S4x1x64x128x2, S4x1x64x128x2, S4x1x64x128x2, S4x1x64x128x2, S4x1x64x128x2, S4x1x64x128x2] S4x6x64x128x2 1
  slices_S4x6x64x2x128_S4x6x64x2x1_0_0_0_0_0 : S4x6x64x2x128.Slices ![0, 0, 0, 0, 0] S4x6x64x2x1
  shapeCasts_S4x6x64x2x1_S1x4x1x6x1x64x1x2x1x1 : S4x6x64x2x1.ShapeCasts S1x4x1x6x1x64x1x2x1x1
  bcast_S1x4x1x6x1x64x1x2x1x1_S1x4x1x6x1x64x1x2x2x1_0_1_2_3_4_5_6_7_8_9 : S1x4x1x6x1x64x1x2x1x1.BroadcastsInDim S1x4x1x6x1x64x1x2x2x1 (![0, 1, 2, 3, 4, 5, 6, 7, 8, 9] : Fin 10 → Fin S1x4x1x6x1x64x1x2x2x1.rank)
  shapeCasts_S1x4x1x6x1x64x1x2x2x1_S4x6x64x2x2 : S1x4x1x6x1x64x1x2x2x1.ShapeCasts S4x6x64x2x2
  slices_S4x6x64x2x128_S4x6x64x2x1_0_0_0_0_127 : S4x6x64x2x128.Slices ![0, 0, 0, 0, 127] S4x6x64x2x1
  concatenates_S4x6x64x2x128_S4x6x64x128x128_S4x6x64x2x128_S4x6x64x132x128_d3 : Shape.Concatenates [S4x6x64x2x128, S4x6x64x128x128, S4x6x64x2x128] S4x6x64x132x128 3
  concatenates_S4x6x64x2x2_S4x6x64x128x2_S4x6x64x2x2_S4x6x64x132x2_d3 : Shape.Concatenates [S4x6x64x2x2, S4x6x64x128x2, S4x6x64x2x2] S4x6x64x132x2 3
  concatenates_S4x6x64x132x2_S4x6x64x132x128_S4x6x64x132x2_S4x6x64x132x132_d4 : Shape.Concatenates [S4x6x64x132x2, S4x6x64x132x128, S4x6x64x132x2] S4x6x64x132x132 4

variable [Facts₀]

class Facts : Prop extends Facts₀ where

variable [Facts]
-- ==== Proof.RefRun.lean ====
/-
  The reference program, run: its hundred host operations in order, and every buffer after them.

  The reference has no kernel launch. Its body is the list `ops` of its operations (the statements of the printed
  program, one entry each); run from any memory every buffer ends at the fold of the operations over the launch
  contents (`StableHlo.after`), and no operation writes the argument.
-/
import proofs.«155738_j69243462746691_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ StableHlo.unary main_arg0 main_v0 ((extractStridedSlice S4x1x64x128x128 ![0, 0, 0, 0, 0] · slices_S4x6x64x128x128_S4x1x64x128x128_0_0_0_0_0) : (⟨S4x6x64x128x128, .f32⟩ : BufTy).Contents (Elt F) → (⟨S4x1x64x128x128, .f32⟩ : BufTy).Contents (Elt F)),
    StableHlo.reshape main_v0 main_v1 rfl shapeCasts_S4x1x64x128x128_S4x64x128x128,
    StableHlo.unary main_arg0 main_v2 ((extractStridedSlice S4x1x64x128x128 ![0, 1, 0, 0, 0] · slices_S4x6x64x128x128_S4x1x64x128x128_0_1_0_0_0) : (⟨S4x6x64x128x128, .f32⟩ : BufTy).Contents (Elt F) → (⟨S4x1x64x128x128, .f32⟩ : BufTy).Contents (Elt F)),
    StableHlo.reshape main_v2 main_v3 rfl shapeCasts_S4x1x64x128x128_S4x64x128x128,
    StableHlo.unary main_arg0 main_v4 ((extractStridedSlice S4x1x64x128x128 ![0, 2, 0, 0, 0] · slices_S4x6x64x128x128_S4x1x64x128x128_0_2_0_0_0) : (⟨S4x6x64x128x128, .f32⟩ : BufTy).Contents (Elt F) → (⟨S4x1x64x128x128, .f32⟩ : BufTy).Contents (Elt F)),
    StableHlo.reshape main_v4 main_v5 rfl shapeCasts_S4x1x64x128x128_S4x64x128x128,
    StableHlo.unary main_arg0 main_v6 ((extractStridedSlice S4x1x64x128x128 ![0, 3, 0, 0, 0] · slices_S4x6x64x128x128_S4x1x64x128x128_0_3_0_0_0) : (⟨S4x6x64x128x128, .f32⟩ : BufTy).Contents (Elt F) → (⟨S4x1x64x128x128, .f32⟩ : BufTy).Contents (Elt F)),
    StableHlo.reshape main_v6 main_v7 rfl shapeCasts_S4x1x64x128x128_S4x64x128x128,
    StableHlo.unary main_arg0 main_v8 ((extractStridedSlice S4x1x64x128x128 ![0, 4, 0, 0, 0] · slices_S4x6x64x128x128_S4x1x64x128x128_0_4_0_0_0) : (⟨S4x6x64x128x128, .f32⟩ : BufTy).Contents (Elt F) → (⟨S4x1x64x128x128, .f32⟩ : BufTy).Contents (Elt F)),
    StableHlo.reshape main_v8 main_v9 rfl shapeCasts_S4x1x64x128x128_S4x64x128x128,
    StableHlo.unary main_arg0 main_v10 ((extractStridedSlice S4x1x64x128x128 ![0, 5, 0, 0, 0] · slices_S4x6x64x128x128_S4x1x64x128x128_0_5_0_0_0) : (⟨S4x6x64x128x128, .f32⟩ : BufTy).Contents (Elt F) → (⟨S4x1x64x128x128, .f32⟩ : BufTy).Contents (Elt F)),
    StableHlo.reshape main_v10 main_v11 rfl shapeCasts_S4x1x64x128x128_S4x64x128x128,
    StableHlo.unary main_v11 main_v12 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v12 main_v13 (Host.reverse [2] : (⟨S4x64x2x128, .f32⟩ : BufTy).Contents (Elt F) → (⟨S4x64x2x128, .f32⟩ : BufTy).Contents (Elt F)),
    StableHlo.unary main_v5 main_v14 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v11 main_v15 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v11 main_v16 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v16 main_v17 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v11 main_v18 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v18 main_v19 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v19 main_v20 (Host.reverse [2] : (⟨S4x64x2x128, .f32⟩ : BufTy).Contents (Elt F) → (⟨S4x64x2x128, .f32⟩ : BufTy).Contents (Elt F)),
    StableHlo.unary main_v1 main_v21 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v21 main_v22 (Host.reverse [2] : (⟨S4x64x2x128, .f32⟩ : BufTy).Contents (Elt F) → (⟨S4x64x2x128, .f32⟩ : BufTy).Contents (Elt F)),
    StableHlo.unary main_v13 main_v23 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v14 main_v24 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v15 main_v25 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v17 main_v26 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v20 main_v27 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v22 main_v28 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.nary ![main_v23, main_v24, main_v25, main_v26, main_v27, main_v28] main_v29 (fun u => concatenate S4x6x64x2x128 1 [⟨S4x1x64x2x128, u 0⟩, ⟨S4x1x64x2x128, u 1⟩, ⟨S4x1x64x2x128, u 2⟩, ⟨S4x1x64x2x128, u 3⟩, ⟨S4x1x64x2x128, u 4⟩, ⟨S4x1x64x2x128, u 5⟩] concatenates_S4x1x64x2x128_S4x1x64x2x128_S4x1x64x2x128_S4x1x64x2x128_S4x1x64x2x128_S4x1x64x2x128_S4x6x64x2x128_d1),
    StableHlo.unary main_v3 main_v30 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v30 main_v31 (Host.reverse [2] : (⟨S4x64x2x128, .f32⟩ : BufTy).Contents (Elt F) → (⟨S4x64x2x128, .f32⟩ : BufTy).Contents (Elt F)),
    StableHlo.unary main_v1 main_v32 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v32 main_v33 (Host.reverse [2] : (⟨S4x64x2x128, .f32⟩ : BufTy).Contents (Elt F) → (⟨S4x64x2x128, .f32⟩ : BufTy).Contents (Elt F)),
    StableHlo.unary main_v3 main_v34 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v3 main_v35 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v35 main_v36 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v36 main_v37 (Host.reverse [2] : (⟨S4x64x2x128, .f32⟩ : BufTy).Contents (Elt F) → (⟨S4x64x2x128, .f32⟩ : BufTy).Contents (Elt F)),
    StableHlo.unary main_v3 main_v38 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v38 main_v39 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v5 main_v40 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v31 main_v41 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v33 main_v42 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v34 main_v43 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v37 main_v44 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v39 main_v45 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v40 main_v46 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.nary ![main_v41, main_v42, main_v43, main_v44, main_v45, main_v46] main_v47 (fun u => concatenate S4x6x64x2x128 1 [⟨S4x1x64x2x128, u 0⟩, ⟨S4x1x64x2x128, u 1⟩, ⟨S4x1x64x2x128, u 2⟩, ⟨S4x1x64x2x128, u 3⟩, ⟨S4x1x64x2x128, u 4⟩, ⟨S4x1x64x2x128, u 5⟩] concatenates_S4x1x64x2x128_S4x1x64x2x128_S4x1x64x2x128_S4x1x64x2x128_S4x1x64x2x128_S4x1x64x2x128_S4x6x64x2x128_d1),
    StableHlo.unary main_v9 main_v48 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v7 main_v49 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v49 main_v50 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v50 main_v51 (Host.reverse [3] : (⟨S4x64x128x2, .f32⟩ : BufTy).Contents (Elt F) → (⟨S4x64x128x2, .f32⟩ : BufTy).Contents (Elt F)),
    StableHlo.unary main_v7 main_v52 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v1 main_v53 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v5 main_v54 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v7 main_v55 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v55 main_v56 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v48 main_v57 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v51 main_v58 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v52 main_v59 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v53 main_v60 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v54 main_v61 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v56 main_v62 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.nary ![main_v57, main_v58, main_v59, main_v60, main_v61, main_v62] main_v63 (fun u => concatenate S4x6x64x128x2 1 [⟨S4x1x64x128x2, u 0⟩, ⟨S4x1x64x128x2, u 1⟩, ⟨S4x1x64x128x2, u 2⟩, ⟨S4x1x64x128x2, u 3⟩, ⟨S4x1x64x128x2, u 4⟩, ⟨S4x1x64x128x2, u 5⟩] concatenates_S4x1x64x128x2_S4x1x64x128x2_S4x1x64x128x2_S4x1x64x128x2_S4x1x64x128x2_S4x1x64x128x2_S4x6x64x128x2_d1),
    StableHlo.unary main_v7 main_v64 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v9 main_v65 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v65 main_v66 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v9 main_v67 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v5 main_v68 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v1 main_v69 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v9 main_v70 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v70 main_v71 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v71 main_v72 (Host.reverse [3] : (⟨S4x64x128x2, .f32⟩ : BufTy).Contents (Elt F) → (⟨S4x64x128x2, .f32⟩ : BufTy).Contents (Elt F)),
    StableHlo.unary main_v64 main_v73 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v66 main_v74 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v67 main_v75 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v68 main_v76 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v69 main_v77 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v72 main_v78 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.nary ![main_v73, main_v74, main_v75, main_v76, main_v77, main_v78] main_v79 (fun u => concatenate S4x6x64x128x2 1 [⟨S4x1x64x128x2, u 0⟩, ⟨S4x1x64x128x2, u 1⟩, ⟨S4x1x64x128x2, u 2⟩, ⟨S4x1x64x128x2, u 3⟩, ⟨S4x1x64x128x2, u 4⟩, ⟨S4x1x64x128x2, u 5⟩] concatenates_S4x1x64x128x2_S4x1x64x128x2_S4x1x64x128x2_S4x1x64x128x2_S4x1x64x128x2_S4x1x64x128x2_S4x6x64x128x2_d1),
    StableHlo.unary main_v29 main_v80 ((extractStridedSlice S4x6x64x2x1 ![0, 0, 0, 0, 0] · slices_S4x6x64x2x128_S4x6x64x2x1_0_0_0_0_0) : (⟨S4x6x64x2x128, .f32⟩ : BufTy).Contents (Elt F) → (⟨S4x6x64x2x1, .f32⟩ : BufTy).Contents (Elt F)),
    StableHlo.reshape main_v80 main_v81 rfl shapeCasts_S4x6x64x2x1_S1x4x1x6x1x64x1x2x1x1,
    StableHlo.unary main_v81 main_v82 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v82 main_v83 rfl shapeCasts_S1x4x1x6x1x64x1x2x2x1_S4x6x64x2x2,
    StableHlo.unary main_v29 main_v84 ((extractStridedSlice S4x6x64x2x1 ![0, 0, 0, 0, 127] · slices_S4x6x64x2x128_S4x6x64x2x1_0_0_0_0_127) : (⟨S4x6x64x2x128, .f32⟩ : BufTy).Contents (Elt F) → (⟨S4x6x64x2x1, .f32⟩ : BufTy).Contents (Elt F)),
    StableHlo.reshape main_v84 main_v85 rfl shapeCasts_S4x6x64x2x1_S1x4x1x6x1x64x1x2x1x1,
    StableHlo.unary main_v85 main_v86 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v86 main_v87 rfl shapeCasts_S1x4x1x6x1x64x1x2x2x1_S4x6x64x2x2,
    StableHlo.unary main_v47 main_v88 ((extractStridedSlice S4x6x64x2x1 ![0, 0, 0, 0, 0] · slices_S4x6x64x2x128_S4x6x64x2x1_0_0_0_0_0) : (⟨S4x6x64x2x128, .f32⟩ : BufTy).Contents (Elt F) → (⟨S4x6x64x2x1, .f32⟩ : BufTy).Contents (Elt F)),
    StableHlo.reshape main_v88 main_v89 rfl shapeCasts_S4x6x64x2x1_S1x4x1x6x1x64x1x2x1x1,
    StableHlo.unary main_v89 main_v90 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v90 main_v91 rfl shapeCasts_S1x4x1x6x1x64x1x2x2x1_S4x6x64x2x2,
    StableHlo.unary main_v47 main_v92 ((extractStridedSlice S4x6x64x2x1 ![0, 0, 0, 0, 127] · slices_S4x6x64x2x128_S4x6x64x2x1_0_0_0_0_127) : (⟨S4x6x64x2x128, .f32⟩ : BufTy).Contents (Elt F) → (⟨S4x6x64x2x1, .f32⟩ : BufTy).Contents (Elt F)),
    StableHlo.reshape main_v92 main_v93 rfl shapeCasts_S4x6x64x2x1_S1x4x1x6x1x64x1x2x1x1,
    StableHlo.unary main_v93 main_v94 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v94 main_v95 rfl shapeCasts_S1x4x1x6x1x64x1x2x2x1_S4x6x64x2x2,
    StableHlo.nary ![main_v29, main_arg0, main_v47] main_v96 (fun u => concatenate S4x6x64x132x128 3 [⟨S4x6x64x2x128, u 0⟩, ⟨S4x6x64x128x128, u 1⟩, ⟨S4x6x64x2x128, u 2⟩] concatenates_S4x6x64x2x128_S4x6x64x128x128_S4x6x64x2x128_S4x6x64x132x128_d3),
    StableHlo.nary ![main_v83, main_v63, main_v91] main_v97 (fun u => concatenate S4x6x64x132x2 3 [⟨S4x6x64x2x2, u 0⟩, ⟨S4x6x64x128x2, u 1⟩, ⟨S4x6x64x2x2, u 2⟩] concatenates_S4x6x64x2x2_S4x6x64x128x2_S4x6x64x2x2_S4x6x64x132x2_d3),
    StableHlo.nary ![main_v87, main_v79, main_v95] main_v98 (fun u => concatenate S4x6x64x132x2 3 [⟨S4x6x64x2x2, u 0⟩, ⟨S4x6x64x128x2, u 1⟩, ⟨S4x6x64x2x2, u 2⟩] concatenates_S4x6x64x2x2_S4x6x64x128x2_S4x6x64x2x2_S4x6x64x132x2_d3),
    StableHlo.nary ![main_v97, main_v96, main_v98] main_v99 (fun u => concatenate S4x6x64x132x132 4 [⟨S4x6x64x132x2, u 0⟩, ⟨S4x6x64x132x128, u 1⟩, ⟨S4x6x64x132x2, u 2⟩] concatenates_S4x6x64x132x2_S4x6x64x132x128_S4x6x64x132x2_S4x6x64x132x132_d4) ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nary_bufs_sub .., nary_bufs_sub .., nary_bufs_sub .., nary_bufs_sub ..⟩

set_option maxRecDepth 8192 in
set_option maxHeartbeats 40000000 in
/-- From any memory with zero counters every weakly fair execution terminates with every buffer at the fold of the
    operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RegionBits.lean ====
/-
  The launch of the assembly kernel of `Kernel`, at any float instance.

  The region is entered after the hundred host operations that cut the border strips out of the six faces; what every
  TensorCore buffer holds there is `V`. At grid point (b, f) the body receives the blocks (b, f) of the faces `x`, of the
  top and bottom rows (2 x 132, corners included) and of the left and right strips laid out 2 x 128, and fills its
  132 x 132 output block by five stores: rows 0..1 from the top rows, rows 130..131 from the bottom rows, the inner
  128 x 128 square from the face, and columns 0..1 and 130..131 of rows 2..129 from the two strips transposed. The five
  rectangles partition the block, so the block after the body is a function of the five input blocks alone (`blockOut`),
  whatever the buffer held before; the words the body loads from the output buffer are never used. From this: the
  run of the whole program, every output block written back where the grid point says, and the argument array unchanged.
-/
import proofs.«155738_j69243462746691_2_alg».proof.Proof.Gen.Kernel.Launch
import proofs.«155738_j69243462746691_2_alg».proof.Proof.Gen.Kernel.Skeleton
import proofs.«155738_j69243462746691_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the host operations. -/
abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The five rectangles of the output block, and the whole input blocks -/

abbrev rTop : Rect S1x1x64x132x132 := Rect.unit (s := S1x1x64x132x132) ![0, 0, 0, 0, 0] S1x1x64x2x132.size inb_S1x1x64x132x132_S1x1x64x2x132_0_0_0_0_0
abbrev rBot : Rect S1x1x64x132x132 := Rect.unit (s := S1x1x64x132x132) ![0, 0, 0, 130, 0] S1x1x64x2x132.size inb_S1x1x64x132x132_S1x1x64x2x132_0_0_0_130_0
abbrev rMid : Rect S1x1x64x132x132 := Rect.unit (s := S1x1x64x132x132) ![0, 0, 0, 2, 2] S1x1x64x128x128.size inb_S1x1x64x132x132_S1x1x64x128x128_0_0_0_2_2
abbrev rLft : Rect S1x1x64x132x132 := Rect.unit (s := S1x1x64x132x132) ![0, 0, 0, 2, 0] S1x1x64x128x2.size inb_S1x1x64x132x132_S1x1x64x128x2_0_0_0_2_0
abbrev rRgt : Rect S1x1x64x132x132 := Rect.unit (s := S1x1x64x132x132) ![0, 0, 0, 2, 130] S1x1x64x128x2.size inb_S1x1x64x132x132_S1x1x64x128x2_0_0_0_2_130
abbrev rFace : Rect S1x1x64x128x128 := Rect.unit (s := S1x1x64x128x128) ![0, 0, 0, 0, 0] S1x1x64x128x128.size inb_S1x1x64x128x128_S1x1x64x128x128_0_0_0_0_0
abbrev rRow : Rect S1x1x64x2x132 := Rect.unit (s := S1x1x64x2x132) ![0, 0, 0, 0, 0] S1x1x64x2x132.size inb_S1x1x64x2x132_S1x1x64x2x132_0_0_0_0_0
abbrev rStrip : Rect S1x1x64x2x128 := Rect.unit (s := S1x1x64x2x128) ![0, 0, 0, 0, 0] S1x1x64x2x128.size inb_S1x1x64x2x128_S1x1x64x2x128_0_0_0_0_0

/-- The output block after the body, from the five input blocks: its five stores, the last one first. -/
def blockOut (x0 : Vec F S1x1x64x128x128 .f32) (x1 x2 : Vec F S1x1x64x2x132 .f32) (x3 x4 : Vec F S1x1x64x2x128 .f32) : Vec F S1x1x64x132x132 .f32 :=
  View.canon [⟨rRgt, k0_pay2 (View.ld x4 rStrip)⟩, ⟨rLft, k0_pay1 (k0_pay6 (View.ld x3 rStrip))⟩, ⟨rMid, k0_pay5 (View.ld x0 rFace)⟩,
    ⟨rBot, k0_pay4 (View.ld x2 rRow)⟩, ⟨rTop, k0_pay3 (View.ld x1 rRow)⟩]

/-- Every position of the block lies in one of the five rectangles: rows 0..1, rows 130..131, and rows 2..129 cut at
    columns 2 and 130. -/
theorem cover (p5 p4 : Vec F S1x1x64x128x2 .f32) (p3 : Vec F S1x1x64x128x128 .f32) (p2 p1 : Vec F S1x1x64x2x132 .f32) (y : S1x1x64x132x132.Idx) :
    ∃ pc ∈ ([⟨rRgt, p5⟩, ⟨rLft, p4⟩, ⟨rMid, p3⟩, ⟨rBot, p2⟩, ⟨rTop, p1⟩] : List (View.Piece (Elt F) S1x1x64x132x132 .f32)), y ∈ pc.1.set := by
  have h0 : (y 0).val < 1 := (y 0).isLt
  have h1 : (y 1).val < 1 := (y 1).isLt
  have h2 : (y 2).val < 64 := (y 2).isLt
  have h3 : (y 3).val < 132 := (y 3).isLt
  have h4 : (y 4).val < 132 := (y 4).isLt
  have key : ∀ (off size : Fin 5 → Nat) (inb), off 0 = 0 → size 0 = 1 → off 1 = 0 → size 1 = 1 → off 2 = 0 → size 2 = 64 →
      off 3 ≤ (y 3).val → (y 3).val < off 3 + size 3 → off 4 ≤ (y 4).val → (y 4).val < off 4 + size 4 →
      y ∈ (Rect.unit (s := S1x1x64x132x132) off size inb).set := by
    intro off size inb o0 s0 o1 s1 o2 s2 l3 u3 l4 u4
    rw [Rect.mem_set_unit]
    intro a
    match a with
    | ⟨0, _⟩ => show off 0 ≤ (y 0).val ∧ (y 0).val < off 0 + size 0; omega
    | ⟨1, _⟩ => show off 1 ≤ (y 1).val ∧ (y 1).val < off 1 + size 1; omega
    | ⟨2, _⟩ => show off 2 ≤ (y 2).val ∧ (y 2).val < off 2 + size 2; omega
    | ⟨3, _⟩ => exact ⟨l3, u3⟩
    | ⟨4, _⟩ => exact ⟨l4, u4⟩
  by_cases hr0 : (y 3).val < 2
  · exact ⟨⟨rTop, p1⟩, by simp, key ![0, 0, 0, 0, 0] S1x1x64x2x132.size inb_S1x1x64x132x132_S1x1x64x2x132_0_0_0_0_0 rfl rfl rfl rfl rfl rfl (by show 0 ≤ (y 3).val; omega) (by show (y 3).val < 0 + 2; omega)
      (by show 0 ≤ (y 4).val; omega) (by show (y 4).val < 0 + 132; omega)⟩
  by_cases hr1 : 130 ≤ (y 3).val
  · exact ⟨⟨rBot, p2⟩, by simp, key ![0, 0, 0, 130, 0] S1x1x64x2x132.size inb_S1x1x64x132x132_S1x1x64x2x132_0_0_0_130_0 rfl rfl rfl rfl rfl rfl (by show 130 ≤ (y 3).val; omega) (by show (y 3).val < 130 + 2; omega)
      (by show 0 ≤ (y 4).val; omega) (by show (y 4).val < 0 + 132; omega)⟩
  by_cases hc0 : (y 4).val < 2
  · exact ⟨⟨rLft, p4⟩, by simp, key ![0, 0, 0, 2, 0] S1x1x64x128x2.size inb_S1x1x64x132x132_S1x1x64x128x2_0_0_0_2_0 rfl rfl rfl rfl rfl rfl (by show 2 ≤ (y 3).val; omega) (by show (y 3).val < 2 + 128; omega)
      (by show 0 ≤ (y 4).val; omega) (by show (y 4).val < 0 + 2; omega)⟩
  by_cases hc1 : 130 ≤ (y 4).val
  · exact ⟨⟨rRgt, p5⟩, by simp, key ![0, 0, 0, 2, 130] S1x1x64x128x2.size inb_S1x1x64x132x132_S1x1x64x128x2_0_0_0_2_130 rfl rfl rfl rfl rfl rfl (by show 2 ≤ (y 3).val; omega) (by show (y 3).val < 2 + 128; omega)
      (by show 130 ≤ (y 4).val; omega) (by show (y 4).val < 130 + 2; omega)⟩
  · exact ⟨⟨rMid, p3⟩, by simp, key ![0, 0, 0, 2, 2] S1x1x64x128x128.size inb_S1x1x64x132x132_S1x1x64x128x128_0_0_0_2_2 rfl rfl rfl rfl rfl rfl (by show 2 ≤ (y 3).val; omega) (by show (y 3).val < 2 + 128; omega)
      (by show 2 ≤ (y 4).val; omega) (by show (y 4).val < 2 + 128; omega)⟩

/-! ## The body's triple -/

set_option maxHeartbeats 4000000 in
/-- The body on whole staging buffers, the five inputs at contents `x0 … x4` and the output at anything, leaves the
    inputs as they were and the output at `blockOut` of them. -/
theorem sound_kernel (c : Dev nD) (E : Set ℕ) (i : grid0.Coords)
    (arg2 : Memref sig .tc .vmem S1x1x64x128x128 .f32) (harg2 : arg2.IsWhole) (arg3 : Memref sig .tc .vmem S1x1x64x2x132 .f32) (harg3 : arg3.IsWhole)
    (arg4 : Memref sig .tc .vmem S1x1x64x2x132 .f32) (harg4 : arg4.IsWhole) (arg5 : Memref sig .tc .vmem S1x1x64x2x128 .f32) (harg5 : arg5.IsWhole)
    (arg6 : Memref sig .tc .vmem S1x1x64x2x128 .f32) (harg6 : arg6.IsWhole) (arg7 : Memref sig .tc .vmem S1x1x64x132x132 .f32) (harg7 : arg7.IsWhole)
    (x0 : Vec F S1x1x64x128x128 .f32) (x1 x2 : Vec F S1x1x64x2x132 .f32) (x3 x4 : Vec F S1x1x64x2x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (blockOut x0 x1 x2 x3 x4)) -∗ K ⟨⟩))
      ⊢ wp frame (wpE (defs₀ (F := F)) Variants.none c none) E (cc0__assemble_kernel i arg2 harg2 arg3 harg3 arg4 harg4 arg5 harg5 arg6 harg6 arg7 harg7) K := by
  simp only [cc0__assemble_kernel_eq_skeleton]; unfold cc0__assemble_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _ _ _ _)

/-! ## The proof data of the launch -/

/-- After the body at point `t`: each input buffer still at its block, the output buffer at `blockOut` of the five blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = blockOut (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, nothing faulting, with every array of the launch at what the
    write-backs of the proof data leave and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument array ends as launched: it is an input of the launch, and no host operation writes it. -/
theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- The frame: the program runs to the end and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

end Cert.Kernel.Region

end
-- ==== Proof.RegionIdeal.lean ====
/-
  The launch of the assembly kernel of `KernelIdeal`, at any float instance.

  The region is entered after the hundred host operations that cut the border strips out of the six faces; what every
  TensorCore buffer holds there is `V`. At grid point (b, f) the body receives the blocks (b, f) of the faces `x`, of the
  top and bottom rows (2 x 132, corners included) and of the left and right strips laid out 2 x 128, and fills its
  132 x 132 output block by five stores: rows 0..1 from the top rows, rows 130..131 from the bottom rows, the inner
  128 x 128 square from the face, and columns 0..1 and 130..131 of rows 2..129 from the two strips transposed. The five
  rectangles partition the block, so the block after the body is a function of the five input blocks alone (`blockOut`),
  whatever the buffer held before; the words the body loads from the output buffer are never used. From this: the
  run of the whole program, every output block written back where the grid point says, and the argument array unchanged.
-/
import proofs.«155738_j69243462746691_2_alg».proof.Proof.Gen.KernelIdeal.Launch
import proofs.«155738_j69243462746691_2_alg».proof.Proof.Gen.KernelIdeal.Skeleton
import proofs.«155738_j69243462746691_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the host operations. -/
abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The five rectangles of the output block, and the whole input blocks -/

abbrev rTop : Rect S1x1x64x132x132 := Rect.unit (s := S1x1x64x132x132) ![0, 0, 0, 0, 0] S1x1x64x2x132.size inb_S1x1x64x132x132_S1x1x64x2x132_0_0_0_0_0
abbrev rBot : Rect S1x1x64x132x132 := Rect.unit (s := S1x1x64x132x132) ![0, 0, 0, 130, 0] S1x1x64x2x132.size inb_S1x1x64x132x132_S1x1x64x2x132_0_0_0_130_0
abbrev rMid : Rect S1x1x64x132x132 := Rect.unit (s := S1x1x64x132x132) ![0, 0, 0, 2, 2] S1x1x64x128x128.size inb_S1x1x64x132x132_S1x1x64x128x128_0_0_0_2_2
abbrev rLft : Rect S1x1x64x132x132 := Rect.unit (s := S1x1x64x132x132) ![0, 0, 0, 2, 0] S1x1x64x128x2.size inb_S1x1x64x132x132_S1x1x64x128x2_0_0_0_2_0
abbrev rRgt : Rect S1x1x64x132x132 := Rect.unit (s := S1x1x64x132x132) ![0, 0, 0, 2, 130] S1x1x64x128x2.size inb_S1x1x64x132x132_S1x1x64x128x2_0_0_0_2_130
abbrev rFace : Rect S1x1x64x128x128 := Rect.unit (s := S1x1x64x128x128) ![0, 0, 0, 0, 0] S1x1x64x128x128.size inb_S1x1x64x128x128_S1x1x64x128x128_0_0_0_0_0
abbrev rRow : Rect S1x1x64x2x132 := Rect.unit (s := S1x1x64x2x132) ![0, 0, 0, 0, 0] S1x1x64x2x132.size inb_S1x1x64x2x132_S1x1x64x2x132_0_0_0_0_0
abbrev rStrip : Rect S1x1x64x2x128 := Rect.unit (s := S1x1x64x2x128) ![0, 0, 0, 0, 0] S1x1x64x2x128.size inb_S1x1x64x2x128_S1x1x64x2x128_0_0_0_0_0

/-- The output block after the body, from the five input blocks: its five stores, the last one first. -/
def blockOut (x0 : Vec F S1x1x64x128x128 .f32) (x1 x2 : Vec F S1x1x64x2x132 .f32) (x3 x4 : Vec F S1x1x64x2x128 .f32) : Vec F S1x1x64x132x132 .f32 :=
  View.canon [⟨rRgt, k0_pay2 (View.ld x4 rStrip)⟩, ⟨rLft, k0_pay1 (k0_pay6 (View.ld x3 rStrip))⟩, ⟨rMid, k0_pay5 (View.ld x0 rFace)⟩,
    ⟨rBot, k0_pay4 (View.ld x2 rRow)⟩, ⟨rTop, k0_pay3 (View.ld x1 rRow)⟩]

/-- Every position of the block lies in one of the five rectangles: rows 0..1, rows 130..131, and rows 2..129 cut at
    columns 2 and 130. -/
theorem cover (p5 p4 : Vec F S1x1x64x128x2 .f32) (p3 : Vec F S1x1x64x128x128 .f32) (p2 p1 : Vec F S1x1x64x2x132 .f32) (y : S1x1x64x132x132.Idx) :
    ∃ pc ∈ ([⟨rRgt, p5⟩, ⟨rLft, p4⟩, ⟨rMid, p3⟩, ⟨rBot, p2⟩, ⟨rTop, p1⟩] : List (View.Piece (Elt F) S1x1x64x132x132 .f32)), y ∈ pc.1.set := by
  have h0 : (y 0).val < 1 := (y 0).isLt
  have h1 : (y 1).val < 1 := (y 1).isLt
  have h2 : (y 2).val < 64 := (y 2).isLt
  have h3 : (y 3).val < 132 := (y 3).isLt
  have h4 : (y 4).val < 132 := (y 4).isLt
  have key : ∀ (off size : Fin 5 → Nat) (inb), off 0 = 0 → size 0 = 1 → off 1 = 0 → size 1 = 1 → off 2 = 0 → size 2 = 64 →
      off 3 ≤ (y 3).val → (y 3).val < off 3 + size 3 → off 4 ≤ (y 4).val → (y 4).val < off 4 + size 4 →
      y ∈ (Rect.unit (s := S1x1x64x132x132) off size inb).set := by
    intro off size inb o0 s0 o1 s1 o2 s2 l3 u3 l4 u4
    rw [Rect.mem_set_unit]
    intro a
    match a with
    | ⟨0, _⟩ => show off 0 ≤ (y 0).val ∧ (y 0).val < off 0 + size 0; omega
    | ⟨1, _⟩ => show off 1 ≤ (y 1).val ∧ (y 1).val < off 1 + size 1; omega
    | ⟨2, _⟩ => show off 2 ≤ (y 2).val ∧ (y 2).val < off 2 + size 2; omega
    | ⟨3, _⟩ => exact ⟨l3, u3⟩
    | ⟨4, _⟩ => exact ⟨l4, u4⟩
  by_cases hr0 : (y 3).val < 2
  · exact ⟨⟨rTop, p1⟩, by simp, key ![0, 0, 0, 0, 0] S1x1x64x2x132.size inb_S1x1x64x132x132_S1x1x64x2x132_0_0_0_0_0 rfl rfl rfl rfl rfl rfl (by show 0 ≤ (y 3).val; omega) (by show (y 3).val < 0 + 2; omega)
      (by show 0 ≤ (y 4).val; omega) (by show (y 4).val < 0 + 132; omega)⟩
  by_cases hr1 : 130 ≤ (y 3).val
  · exact ⟨⟨rBot, p2⟩, by simp, key ![0, 0, 0, 130, 0] S1x1x64x2x132.size inb_S1x1x64x132x132_S1x1x64x2x132_0_0_0_130_0 rfl rfl rfl rfl rfl rfl (by show 130 ≤ (y 3).val; omega) (by show (y 3).val < 130 + 2; omega)
      (by show 0 ≤ (y 4).val; omega) (by show (y 4).val < 0 + 132; omega)⟩
  by_cases hc0 : (y 4).val < 2
  · exact ⟨⟨rLft, p4⟩, by simp, key ![0, 0, 0, 2, 0] S1x1x64x128x2.size inb_S1x1x64x132x132_S1x1x64x128x2_0_0_0_2_0 rfl rfl rfl rfl rfl rfl (by show 2 ≤ (y 3).val; omega) (by show (y 3).val < 2 + 128; omega)
      (by show 0 ≤ (y 4).val; omega) (by show (y 4).val < 0 + 2; omega)⟩
  by_cases hc1 : 130 ≤ (y 4).val
  · exact ⟨⟨rRgt, p5⟩, by simp, key ![0, 0, 0, 2, 130] S1x1x64x128x2.size inb_S1x1x64x132x132_S1x1x64x128x2_0_0_0_2_130 rfl rfl rfl rfl rfl rfl (by show 2 ≤ (y 3).val; omega) (by show (y 3).val < 2 + 128; omega)
      (by show 130 ≤ (y 4).val; omega) (by show (y 4).val < 130 + 2; omega)⟩
  · exact ⟨⟨rMid, p3⟩, by simp, key ![0, 0, 0, 2, 2] S1x1x64x128x128.size inb_S1x1x64x132x132_S1x1x64x128x128_0_0_0_2_2 rfl rfl rfl rfl rfl rfl (by show 2 ≤ (y 3).val; omega) (by show (y 3).val < 2 + 128; omega)
      (by show 2 ≤ (y 4).val; omega) (by show (y 4).val < 2 + 128; omega)⟩

/-! ## The body's triple -/

set_option maxHeartbeats 4000000 in
/-- The body on whole staging buffers, the five inputs at contents `x0 … x4` and the output at anything, leaves the
    inputs as they were and the output at `blockOut` of them. -/
theorem sound_kernel (c : Dev nD) (E : Set ℕ) (i : grid0.Coords)
    (arg2 : Memref sig .tc .vmem S1x1x64x128x128 .f32) (harg2 : arg2.IsWhole) (arg3 : Memref sig .tc .vmem S1x1x64x2x132 .f32) (harg3 : arg3.IsWhole)
    (arg4 : Memref sig .tc .vmem S1x1x64x2x132 .f32) (harg4 : arg4.IsWhole) (arg5 : Memref sig .tc .vmem S1x1x64x2x128 .f32) (harg5 : arg5.IsWhole)
    (arg6 : Memref sig .tc .vmem S1x1x64x2x128 .f32) (harg6 : arg6.IsWhole) (arg7 : Memref sig .tc .vmem S1x1x64x132x132 .f32) (harg7 : arg7.IsWhole)
    (x0 : Vec F S1x1x64x128x128 .f32) (x1 x2 : Vec F S1x1x64x2x132 .f32) (x3 x4 : Vec F S1x1x64x2x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (blockOut x0 x1 x2 x3 x4)) -∗ K ⟨⟩))
      ⊢ wp frame (wpE (defs₀ (F := F)) Variants.none c none) E (cc0__assemble_kernel i arg2 harg2 arg3 harg3 arg4 harg4 arg5 harg5 arg6 harg6 arg7 harg7) K := by
  simp only [cc0__assemble_kernel_eq_skeleton]; unfold cc0__assemble_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _ _ _ _)

/-! ## The proof data of the launch -/

/-- After the body at point `t`: each input buffer still at its block, the output buffer at `blockOut` of the five blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = blockOut (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, nothing faulting, with every array of the launch at what the
    write-backs of the proof data leave and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument array ends as launched: it is an input of the launch, and no host operation writes it. -/
theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- The frame: the program runs to the end and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

end Cert.KernelIdeal.Region

end
-- ==== Proof.Assemble.lean ====
/-
  Padding the six faces of a cube map by two pixels, as two arrangements of the same pieces.

  All arrays are [nb, nf, 64, h, w] (batch, face, channel, rows, columns). Given the faces `x` (128 x 128), the strips
  `top`, `bot` (2 x 128) and `lft`, `rgt` (128 x 2) and the four corner tiles (2 x 2), the padded faces (132 x 132) are

      [ p_tl | top | p_tr ]
      [ lft  |  x  | rgt  ]
      [ p_dl | bot | p_dr ]

  The reference joins the three COLUMNS of this picture (each a stack of three pieces along the rows) along the
  columns. The kernel first joins the top ROW and the bottom ROW along the columns, keeps the side strips transposed
  (2 x 128), and then fills every 132 x 132 face from those four arrays and `x`: rows 0..1 from the top row, rows
  130..131 from the bottom row, and in between columns 0..1 from the left strip, 130..131 from the right strip and the
  rest from `x` (`assemble`). Read at any position the two agree, since both read the same piece at the same place:
  `assemble_eq`. No arithmetic on the elements is involved, so the element type is arbitrary.
-/
import Idealize.ShloMosaic.Lib.Pipeline.Value
import Idealize.ShloMosaic.Lib.ValueIdx

namespace Cert.CubePad

open Idealize.ShloMosaic Idealize.ShloMosaic.ValueIdx

variable {α : Type} {nb nf : Nat}

/-- The arrays' shape with `h` rows and `w` columns per face and channel. -/
abbrev Sh (nb nf h w : Nat) : Shape := ⟨5, ![nb, nf, 64, h, w]⟩

/-- A number reduced into `Fin n` (used only below `n`, where it is the number itself). -/
def fm (n : Nat) (hn : 0 < n) (v : Nat) : Fin n := ⟨v % n, Nat.mod_lt _ hn⟩

theorem fm_val {n : Nat} (hn : 0 < n) {v : Nat} (h : v < n) : (fm n hn v).val = v := Nat.mod_eq_of_lt h

/-! ## Three pieces joined along the columns, read at a position -/

section Columns
variable {h a b c n : Nat} (A : (Sh nb nf h a).Idx → α) (B : (Sh nb nf h b).Idx → α) (C : (Sh nb nf h c).Idx → α)
  (hc : Shape.Concatenates [Sh nb nf h a, Sh nb nf h b, Sh nb nf h c] (Sh nb nf h n) (4 : Fin 5)) (j : (Sh nb nf h n).Idx)

theorem catW_first (i : (Sh nb nf h a).Idx) (e0 : (i 0).val = (j 0).val) (e1 : (i 1).val = (j 1).val) (e2 : (i 2).val = (j 2).val)
    (e3 : (i 3).val = (j 3).val) (e4 : (i 4).val = (j 4).val) :
    concatenate (Sh nb nf h n) 4 [⟨Sh nb nf h a, A⟩, ⟨Sh nb nf h b, B⟩, ⟨Sh nb nf h c, C⟩] hc j = A i :=
  concatenate_apply_piece 4 [⟨Sh nb nf h a, A⟩, ⟨Sh nb nf h b, B⟩, ⟨Sh nb nf h c, C⟩] hc j 0 (by show 0 < 3; omega) (Sh nb nf h a) A rfl rfl 0 rfl i
    (fun d hd => by
      match d with
      | ⟨0, _⟩ => exact e0
      | ⟨1, _⟩ => exact e1
      | ⟨2, _⟩ => exact e2
      | ⟨3, _⟩ => exact e3
      | ⟨4, _⟩ => exact absurd rfl hd)
    (by show 0 + (i 4).val = (j 4).val; omega)

theorem catW_second (i : (Sh nb nf h b).Idx) (e0 : (i 0).val = (j 0).val) (e1 : (i 1).val = (j 1).val) (e2 : (i 2).val = (j 2).val)
    (e3 : (i 3).val = (j 3).val) (e4 : a + (i 4).val = (j 4).val) :
    concatenate (Sh nb nf h n) 4 [⟨Sh nb nf h a, A⟩, ⟨Sh nb nf h b, B⟩, ⟨Sh nb nf h c, C⟩] hc j = B i :=
  concatenate_apply_piece 4 [⟨Sh nb nf h a, A⟩, ⟨Sh nb nf h b, B⟩, ⟨Sh nb nf h c, C⟩] hc j 1 (by show 1 < 3; omega) (Sh nb nf h b) B rfl rfl a rfl i
    (fun d hd => by
      match d with
      | ⟨0, _⟩ => exact e0
      | ⟨1, _⟩ => exact e1
      | ⟨2, _⟩ => exact e2
      | ⟨3, _⟩ => exact e3
      | ⟨4, _⟩ => exact absurd rfl hd)
    e4

theorem catW_third (i : (Sh nb nf h c).Idx) (e0 : (i 0).val = (j 0).val) (e1 : (i 1).val = (j 1).val) (e2 : (i 2).val = (j 2).val)
    (e3 : (i 3).val = (j 3).val) (e4 : a + b + (i 4).val = (j 4).val) :
    concatenate (Sh nb nf h n) 4 [⟨Sh nb nf h a, A⟩, ⟨Sh nb nf h b, B⟩, ⟨Sh nb nf h c, C⟩] hc j = C i :=
  concatenate_apply_piece 4 [⟨Sh nb nf h a, A⟩, ⟨Sh nb nf h b, B⟩, ⟨Sh nb nf h c, C⟩] hc j 2 (by show 2 < 3; omega) (Sh nb nf h c) C rfl rfl (a + b) rfl i
    (fun d hd => by
      match d with
      | ⟨0, _⟩ => exact e0
      | ⟨1, _⟩ => exact e1
      | ⟨2, _⟩ => exact e2
      | ⟨3, _⟩ => exact e3
      | ⟨4, _⟩ => exact absurd rfl hd)
    e4

end Columns

/-! ## Three pieces stacked along the rows, read at a position -/

section RowsStack
variable {w a b c n : Nat} (A : (Sh nb nf a w).Idx → α) (B : (Sh nb nf b w).Idx → α) (C : (Sh nb nf c w).Idx → α)
  (hc : Shape.Concatenates [Sh nb nf a w, Sh nb nf b w, Sh nb nf c w] (Sh nb nf n w) (3 : Fin 5)) (j : (Sh nb nf n w).Idx)

theorem catH_first (i : (Sh nb nf a w).Idx) (e0 : (i 0).val = (j 0).val) (e1 : (i 1).val = (j 1).val) (e2 : (i 2).val = (j 2).val)
    (e3 : (i 3).val = (j 3).val) (e4 : (i 4).val = (j 4).val) :
    concatenate (Sh nb nf n w) 3 [⟨Sh nb nf a w, A⟩, ⟨Sh nb nf b w, B⟩, ⟨Sh nb nf c w, C⟩] hc j = A i :=
  concatenate_apply_piece 3 [⟨Sh nb nf a w, A⟩, ⟨Sh nb nf b w, B⟩, ⟨Sh nb nf c w, C⟩] hc j 0 (by show 0 < 3; omega) (Sh nb nf a w) A rfl rfl 0 rfl i
    (fun d hd => by
      match d with
      | ⟨0, _⟩ => exact e0
      | ⟨1, _⟩ => exact e1
      | ⟨2, _⟩ => exact e2
      | ⟨3, _⟩ => exact absurd rfl hd
      | ⟨4, _⟩ => exact e4)
    (by show 0 + (i 3).val = (j 3).val; omega)

theorem catH_second (i : (Sh nb nf b w).Idx) (e0 : (i 0).val = (j 0).val) (e1 : (i 1).val = (j 1).val) (e2 : (i 2).val = (j 2).val)
    (e3 : a + (i 3).val = (j 3).val) (e4 : (i 4).val = (j 4).val) :
    concatenate (Sh nb nf n w) 3 [⟨Sh nb nf a w, A⟩, ⟨Sh nb nf b w, B⟩, ⟨Sh nb nf c w, C⟩] hc j = B i :=
  concatenate_apply_piece 3 [⟨Sh nb nf a w, A⟩, ⟨Sh nb nf b w, B⟩, ⟨Sh nb nf c w, C⟩] hc j 1 (by show 1 < 3; omega) (Sh nb nf b w) B rfl rfl a rfl i
    (fun d hd => by
      match d with
      | ⟨0, _⟩ => exact e0
      | ⟨1, _⟩ => exact e1
      | ⟨2, _⟩ => exact e2
      | ⟨3, _⟩ => exact absurd rfl hd
      | ⟨4, _⟩ => exact e4)
    e3

theorem catH_third (i : (Sh nb nf c w).Idx) (e0 : (i 0).val = (j 0).val) (e1 : (i 1).val = (j 1).val) (e2 : (i 2).val = (j 2).val)
    (e3 : a + b + (i 3).val = (j 3).val) (e4 : (i 4).val = (j 4).val) :
    concatenate (Sh nb nf n w) 3 [⟨Sh nb nf a w, A⟩, ⟨Sh nb nf b w, B⟩, ⟨Sh nb nf c w, C⟩] hc j = C i :=
  concatenate_apply_piece 3 [⟨Sh nb nf a w, A⟩, ⟨Sh nb nf b w, B⟩, ⟨Sh nb nf c w, C⟩] hc j 2 (by show 2 < 3; omega) (Sh nb nf c w) C rfl rfl (a + b) rfl i
    (fun d hd => by
      match d with
      | ⟨0, _⟩ => exact e0
      | ⟨1, _⟩ => exact e1
      | ⟨2, _⟩ => exact e2
      | ⟨3, _⟩ => exact absurd rfl hd
      | ⟨4, _⟩ => exact e4)
    e3

end RowsStack

/-- Rows and columns exchanged, read at a position: the operand at the position with the two exchanged. -/
theorem swapHW_apply {h w : Nat} (x : (Sh nb nf h w).Idx → α) (ht : (Sh nb nf h w).Transposes [0, 1, 2, 4, 3] (Sh nb nf w h))
    (j : (Sh nb nf w h).Idx) (k : (Sh nb nf h w).Idx) (e0 : (k 0).val = (j 0).val) (e1 : (k 1).val = (j 1).val) (e2 : (k 2).val = (j 2).val)
    (e3 : (k 4).val = (j 3).val) (e4 : (k 3).val = (j 4).val) :
    transpose (Sh nb nf w h) [0, 1, 2, 4, 3] x ht j = x k :=
  transpose_apply _ x ht j k fun d => by
    match d with
    | ⟨0, _⟩ => exact e0
    | ⟨1, _⟩ => exact e1
    | ⟨2, _⟩ => exact e2
    | ⟨3, _⟩ => exact e3
    | ⟨4, _⟩ => exact e4

/-! ## The kernel's arrangement -/

/-- A padded face filled from the top row, the bottom row, the two side strips laid out 2 x 128, and the face. -/
def assemble (x : (Sh nb nf 128 128).Idx → α) (topRow botRow : (Sh nb nf 2 132).Idx → α) (lftT rgtT : (Sh nb nf 2 128).Idx → α) :
    (Sh nb nf 132 132).Idx → α := fun i =>
  if (i 3).val < 2 then topRow (ix5 (i 0) (i 1) (i 2) (fm 2 (by decide) (i 3).val) (i 4))
  else if 130 ≤ (i 3).val then botRow (ix5 (i 0) (i 1) (i 2) (fm 2 (by decide) ((i 3).val - 130)) (i 4))
  else if (i 4).val < 2 then lftT (ix5 (i 0) (i 1) (i 2) (fm 2 (by decide) (i 4).val) (fm 128 (by decide) ((i 3).val - 2)))
  else if 130 ≤ (i 4).val then rgtT (ix5 (i 0) (i 1) (i 2) (fm 2 (by decide) ((i 4).val - 130)) (fm 128 (by decide) ((i 3).val - 2)))
  else x (ix5 (i 0) (i 1) (i 2) (fm 128 (by decide) ((i 3).val - 2)) (fm 128 (by decide) ((i 4).val - 2)))

theorem fm_add {n : Nat} (hn : 0 < n) {v k : Nat} (h : k ≤ v) (h' : v - k < n) : k + (fm n hn (v - k)).val = v := by
  rw [fm_val hn h']; omega

/-! ## The two arrangements agree -/

theorem assemble_eq (x : (Sh nb nf 128 128).Idx → α) (top bot : (Sh nb nf 2 128).Idx → α) (lft rgt : (Sh nb nf 128 2).Idx → α)
    (ptl ptr pdl pdr : (Sh nb nf 2 2).Idx → α)
    (hRow : Shape.Concatenates [Sh nb nf 2 2, Sh nb nf 2 128, Sh nb nf 2 2] (Sh nb nf 2 132) (4 : Fin 5))
    (hT : (Sh nb nf 128 2).Transposes [0, 1, 2, 4, 3] (Sh nb nf 2 128))
    (hMid : Shape.Concatenates [Sh nb nf 2 128, Sh nb nf 128 128, Sh nb nf 2 128] (Sh nb nf 132 128) (3 : Fin 5))
    (hSide : Shape.Concatenates [Sh nb nf 2 2, Sh nb nf 128 2, Sh nb nf 2 2] (Sh nb nf 132 2) (3 : Fin 5))
    (hOut : Shape.Concatenates [Sh nb nf 132 2, Sh nb nf 132 128, Sh nb nf 132 2] (Sh nb nf 132 132) (4 : Fin 5)) :
    assemble x (concatenate (Sh nb nf 2 132) 4 [⟨Sh nb nf 2 2, ptl⟩, ⟨Sh nb nf 2 128, top⟩, ⟨Sh nb nf 2 2, ptr⟩] hRow)
        (concatenate (Sh nb nf 2 132) 4 [⟨Sh nb nf 2 2, pdl⟩, ⟨Sh nb nf 2 128, bot⟩, ⟨Sh nb nf 2 2, pdr⟩] hRow)
        (transpose (Sh nb nf 2 128) [0, 1, 2, 4, 3] lft hT) (transpose (Sh nb nf 2 128) [0, 1, 2, 4, 3] rgt hT)
      = concatenate (Sh nb nf 132 132) 4
          [⟨Sh nb nf 132 2, concatenate (Sh nb nf 132 2) 3 [⟨Sh nb nf 2 2, ptl⟩, ⟨Sh nb nf 128 2, lft⟩, ⟨Sh nb nf 2 2, pdl⟩] hSide⟩,
           ⟨Sh nb nf 132 128, concatenate (Sh nb nf 132 128) 3 [⟨Sh nb nf 2 128, top⟩, ⟨Sh nb nf 128 128, x⟩, ⟨Sh nb nf 2 128, bot⟩] hMid⟩,
           ⟨Sh nb nf 132 2, concatenate (Sh nb nf 132 2) 3 [⟨Sh nb nf 2 2, ptr⟩, ⟨Sh nb nf 128 2, rgt⟩, ⟨Sh nb nf 2 2, pdr⟩] hSide⟩] hOut := by
  funext i
  have h3 : (i 3).val < 132 := (i 3).isLt
  have h4 : (i 4).val < 132 := (i 4).isLt
  have d2 : 0 < 2 := by decide
  have d128 : 0 < 128 := by decide
  unfold assemble
  by_cases r0 : (i 3).val < 2
  · rw [if_pos r0]
    by_cases c0 : (i 4).val < 2
    · -- the top left corner
      refine (catW_first ptl top ptr hRow (ix5 (i 0) (i 1) (i 2) (fm 2 d2 (i 3).val) (i 4)) (ix5 (i 0) (i 1) (i 2) (fm 2 d2 (i 3).val) (fm 2 d2 (i 4).val)) rfl rfl rfl rfl (fm_val d2 c0)).trans ?_
      refine ((catW_first _ _ _ hOut i (ix5 (i 0) (i 1) (i 2) (i 3) (fm 2 d2 (i 4).val)) rfl rfl rfl rfl (fm_val d2 c0)).trans ?_).symm
      exact catH_first ptl lft pdl hSide _ (ix5 (i 0) (i 1) (i 2) (fm 2 d2 (i 3).val) (fm 2 d2 (i 4).val)) rfl rfl rfl (fm_val d2 r0) rfl
    by_cases c1 : 130 ≤ (i 4).val
    · -- the top right corner
      refine (catW_third ptl top ptr hRow (ix5 (i 0) (i 1) (i 2) (fm 2 d2 (i 3).val) (i 4)) (ix5 (i 0) (i 1) (i 2) (fm 2 d2 (i 3).val) (fm 2 d2 ((i 4).val - 130))) rfl rfl rfl rfl (fm_add d2 c1 (by omega))).trans ?_
      refine ((catW_third _ _ _ hOut i (ix5 (i 0) (i 1) (i 2) (i 3) (fm 2 d2 ((i 4).val - 130))) rfl rfl rfl rfl (fm_add d2 c1 (by omega))).trans ?_).symm
      exact catH_first ptr rgt pdr hSide _ (ix5 (i 0) (i 1) (i 2) (fm 2 d2 (i 3).val) (fm 2 d2 ((i 4).val - 130))) rfl rfl rfl (fm_val d2 r0) rfl
    · -- the top strip
      refine (catW_second ptl top ptr hRow (ix5 (i 0) (i 1) (i 2) (fm 2 d2 (i 3).val) (i 4)) (ix5 (i 0) (i 1) (i 2) (fm 2 d2 (i 3).val) (fm 128 d128 ((i 4).val - 2))) rfl rfl rfl rfl (fm_add d128 (by omega) (by omega))).trans ?_
      refine ((catW_second _ _ _ hOut i (ix5 (i 0) (i 1) (i 2) (i 3) (fm 128 d128 ((i 4).val - 2))) rfl rfl rfl rfl (fm_add d128 (by omega) (by omega))).trans ?_).symm
      exact catH_first top x bot hMid _ (ix5 (i 0) (i 1) (i 2) (fm 2 d2 (i 3).val) (fm 128 d128 ((i 4).val - 2))) rfl rfl rfl (fm_val d2 r0) rfl
  rw [if_neg r0]
  by_cases r1 : 130 ≤ (i 3).val
  · rw [if_pos r1]
    by_cases c0 : (i 4).val < 2
    · -- the bottom left corner
      refine (catW_first pdl bot pdr hRow (ix5 (i 0) (i 1) (i 2) (fm 2 d2 ((i 3).val - 130)) (i 4)) (ix5 (i 0) (i 1) (i 2) (fm 2 d2 ((i 3).val - 130)) (fm 2 d2 (i 4).val)) rfl rfl rfl rfl (fm_val d2 c0)).trans ?_
      refine ((catW_first _ _ _ hOut i (ix5 (i 0) (i 1) (i 2) (i 3) (fm 2 d2 (i 4).val)) rfl rfl rfl rfl (fm_val d2 c0)).trans ?_).symm
      exact catH_third ptl lft pdl hSide _ (ix5 (i 0) (i 1) (i 2) (fm 2 d2 ((i 3).val - 130)) (fm 2 d2 (i 4).val)) rfl rfl rfl (fm_add d2 r1 (by omega)) rfl
    by_cases c1 : 130 ≤ (i 4).val
    · -- the bottom right corner
      refine (catW_third pdl bot pdr hRow (ix5 (i 0) (i 1) (i 2) (fm 2 d2 ((i 3).val - 130)) (i 4)) (ix5 (i 0) (i 1) (i 2) (fm 2 d2 ((i 3).val - 130)) (fm 2 d2 ((i 4).val - 130))) rfl rfl rfl rfl (fm_add d2 c1 (by omega))).trans ?_
      refine ((catW_third _ _ _ hOut i (ix5 (i 0) (i 1) (i 2) (i 3) (fm 2 d2 ((i 4).val - 130))) rfl rfl rfl rfl (fm_add d2 c1 (by omega))).trans ?_).symm
      exact catH_third ptr rgt pdr hSide _ (ix5 (i 0) (i 1) (i 2) (fm 2 d2 ((i 3).val - 130)) (fm 2 d2 ((i 4).val - 130))) rfl rfl rfl (fm_add d2 r1 (by omega)) rfl
    · -- the bottom strip
      refine (catW_second pdl bot pdr hRow (ix5 (i 0) (i 1) (i 2) (fm 2 d2 ((i 3).val - 130)) (i 4)) (ix5 (i 0) (i 1) (i 2) (fm 2 d2 ((i 3).val - 130)) (fm 128 d128 ((i 4).val - 2))) rfl rfl rfl rfl (fm_add d128 (by omega) (by omega))).trans ?_
      refine ((catW_second _ _ _ hOut i (ix5 (i 0) (i 1) (i 2) (i 3) (fm 128 d128 ((i 4).val - 2))) rfl rfl rfl rfl (fm_add d128 (by omega) (by omega))).trans ?_).symm
      exact catH_third top x bot hMid _ (ix5 (i 0) (i 1) (i 2) (fm 2 d2 ((i 3).val - 130)) (fm 128 d128 ((i 4).val - 2))) rfl rfl rfl (fm_add d2 r1 (by omega)) rfl
  rw [if_neg r1]
  by_cases c0 : (i 4).val < 2
  · -- the left strip
    rw [if_pos c0]
    refine (swapHW_apply lft hT _ (ix5 (i 0) (i 1) (i 2) (fm 128 d128 ((i 3).val - 2)) (fm 2 d2 (i 4).val)) rfl rfl rfl rfl rfl).trans ?_
    refine ((catW_first _ _ _ hOut i (ix5 (i 0) (i 1) (i 2) (i 3) (fm 2 d2 (i 4).val)) rfl rfl rfl rfl (fm_val d2 c0)).trans ?_).symm
    exact catH_second ptl lft pdl hSide _ (ix5 (i 0) (i 1) (i 2) (fm 128 d128 ((i 3).val - 2)) (fm 2 d2 (i 4).val)) rfl rfl rfl (fm_add d128 (by omega) (by omega)) rfl
  rw [if_neg c0]
  by_cases c1 : 130 ≤ (i 4).val
  · -- the right strip
    rw [if_pos c1]
    refine (swapHW_apply rgt hT _ (ix5 (i 0) (i 1) (i 2) (fm 128 d128 ((i 3).val - 2)) (fm 2 d2 ((i 4).val - 130))) rfl rfl rfl rfl rfl).trans ?_
    refine ((catW_third _ _ _ hOut i (ix5 (i 0) (i 1) (i 2) (i 3) (fm 2 d2 ((i 4).val - 130))) rfl rfl rfl rfl (fm_add d2 c1 (by omega))).trans ?_).symm
    exact catH_second ptr rgt pdr hSide _ (ix5 (i 0) (i 1) (i 2) (fm 128 d128 ((i 3).val - 2)) (fm 2 d2 ((i 4).val - 130))) rfl rfl rfl (fm_add d128 (by omega) (by omega)) rfl
  · -- the face itself
    rw [if_neg c1]
    refine ((catW_second _ _ _ hOut i (ix5 (i 0) (i 1) (i 2) (i 3) (fm 128 d128 ((i 4).val - 2))) rfl rfl rfl rfl (fm_add d128 (by omega) (by omega))).trans ?_).symm
    exact catH_second top x bot hMid _ (ix5 (i 0) (i 1) (i 2) (fm 128 d128 ((i 3).val - 2)) (fm 128 d128 ((i 4).val - 2))) rfl rfl rfl (fm_add d128 (by omega) (by omega)) rfl

end Cert.CubePad
-- ==== Proof.LibLeadUnit5.lean ====
/-
  Two leading unit axes at rank 5, read at an index: a [1, 1, a, b, c] array recast to [a, b, c] reads, at (p, q, r),
  the operand at (0, 0, p, q, r); an [a, b, c] array recast to [1, 1, a, b, c] reads, at (u, v, p, q, r), the operand
  at (p, q, r). For any sizes and any element type.
-/
import Idealize.ShloMosaic.Lib.Pipeline.Value
import Idealize.ShloMosaic.Lib.ValueIdx

namespace Idealize.ShloMosaic.ValueIdx

variable {α : Type}

/-- Dropping two leading unit axes: position (p, q, r) holds the operand's element at (0, 0, p, q, r). -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (p : Fin a) (q : Fin b) (r : Fin c) :
    shapeCast ⟨3, ![a, b, c]⟩ x h (ix3 p q r) = x (ix5 (0 : Fin 1) (0 : Fin 1) p q r) :=
  shapeCast_apply x h _ _ (by
    rw [Shape.rowMajor_val_five, Shape.rowMajor_val_three]
    show (((0 * 1 + 0) * a + p.val) * b + q.val) * c + r.val = (p.val * b + q.val) * c + r.val
    simp only [Nat.zero_mul, Nat.zero_add, Nat.mul_one])

/-- Adding two leading unit axes: position (u, v, p, q, r) holds the operand's element at (p, q, r). -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (p : Fin a) (q : Fin b) (r : Fin c) :
    shapeCast ⟨5, ![1, 1, a, b, c]⟩ x h (ix5 u v p q r) = x (ix3 p q r) :=
  shapeCast_apply x h _ _ (by
    have hu : u.val = 0 := by omega
    have hv : v.val = 0 := by omega
    rw [Shape.rowMajor_val_five, Shape.rowMajor_val_three]
    show (p.val * b + q.val) * c + r.val = (((u.val * 1 + v.val) * a + p.val) * b + q.val) * c + r.val
    simp only [hu, hv, Nat.zero_mul, Nat.zero_add, Nat.mul_one])

end Idealize.ShloMosaic.ValueIdx
-- ==== Proof.BlockIdeal.lean ====
/-
  What the assembly kernel leaves in its result array, from the arrays the region found.

  One grid point. The five stores of the body fill the 132 x 132 block from the five input blocks; read at any position
  of the block this is `assemble` (at one batch and one face) of the input blocks: the two row payloads and the face
  payload are the loaded blocks themselves (a recast and its inverse), and a side strip's payload at (row, column) is
  the loaded 2 x 128 block at (column, row).

  The whole array. Every window's block at grid point (b, f) is the slab (b, f) of its array, so `assemble` of the
  blocks at a position of the block is `assemble` of the whole arrays at that position of the slab; the 24 slabs
  cover the result array, which therefore ends at `assemble` of the argument and the four operand arrays as the
  region found them.
-/
import proofs.«155738_j69243462746691_2_alg».proof.Proof.RegionIdeal
import proofs.«155738_j69243462746691_2_alg».proof.Proof.Assemble
import proofs.«155738_j69243462746691_2_alg».proof.Proof.LibLeadUnit5
import Idealize.ShloMosaic.Lib.ValueLayout

set_option maxRecDepth 16384

noncomputable section

namespace Cert.KernelIdeal.Padded

open Cert.KernelIdeal Cert.KernelIdeal.Gen Cert.KernelIdeal.Region Cert.CubePad
open Idealize.ShloMosaic Idealize.ShloMosaic.TcCoe Idealize.ShloMosaic.ValueIdx Idealize.SL.Sem
open Idealize.ShloMosaic.Pipeline (Dat)

variable {F : FTy → Type} [FloatOps F]

/-! ## The body's payloads, read at a position -/

theorem hz5 : (![0, 0, 0, 0, 0] : Fin 5 → Nat) = fun _ => 0 := funext fun a => by fin_cases a <;> rfl

theorem payTop (X : Vec F S1x1x64x2x132 .f32) : k0_pay3 (View.ld X rRow) = X := by
  show shapeCast _ (shapeCast _ (View.ld X rRow) _) _ = X
  rw [shapeCast_shapeCast]; exact View.ld_unit_zero hz5 _ X

theorem payBot (X : Vec F S1x1x64x2x132 .f32) : k0_pay4 (View.ld X rRow) = X := by
  show shapeCast _ (shapeCast _ (View.ld X rRow) _) _ = X
  rw [shapeCast_shapeCast]; exact View.ld_unit_zero hz5 _ X

theorem payFace (X : Vec F S1x1x64x128x128 .f32) : k0_pay5 (View.ld X rFace) = X := by
  show shapeCast _ (shapeCast _ (View.ld X rFace) _) _ = X
  rw [shapeCast_shapeCast]; exact View.ld_unit_zero hz5 _ X

/-- A side strip's payload at (channel, row, column) is the loaded 2 x 128 block at (channel, column, row). -/
theorem paySwap (X : Vec F S1x1x64x2x128 .f32) (u v : Fin 1) (p : Fin 64) (q : Fin 128) (r : Fin 2) :
    shapeCast S1x1x64x128x2 (transpose S64x128x2 [0, 2, 1] (shapeCast S64x2x128 (View.ld X rStrip) shapeCasts_S1x1x64x2x128_S64x2x128)
        transposes_S64x2x128_p0_2_1_S64x128x2) shapeCasts_S64x128x2_S1x1x64x128x2 (ix5 u v p q r)
      = X (ix5 u v p r q) := by
  obtain rfl : u = 0 := Subsingleton.elim _ _
  obtain rfl : v = 0 := Subsingleton.elim _ _
  rw [shapeCast_abc_11abc_apply, transpose_ix3_021_apply, shapeCast_11abc_abc_apply, View.ld_unit_zero hz5]

theorem payLft (X : Vec F S1x1x64x2x128 .f32) (u v : Fin 1) (p : Fin 64) (q : Fin 128) (r : Fin 2) :
    k0_pay1 (k0_pay6 (View.ld X rStrip)) (ix5 u v p q r) = X (ix5 u v p r q) := paySwap X u v p q r

theorem payRgt (X : Vec F S1x1x64x2x128 .f32) (u v : Fin 1) (p : Fin 64) (q : Fin 128) (r : Fin 2) :
    k0_pay2 (View.ld X rStrip) (ix5 u v p q r) = X (ix5 u v p r q) := paySwap X u v p q r

/-! ## One block: the five stores together -/

section Pieces
variable (X0 : Vec F S1x1x64x128x128 .f32) (X1 X2 : Vec F S1x1x64x2x132 .f32) (X3 X4 : Vec F S1x1x64x2x128 .f32)

local notation "GB" => assemble (nb := 1) (nf := 1) X0 X1 X2 X3 X4

theorem piece_top (x : S1x1x64x2x132.Idx) : k0_pay3 (View.ld X1 rRow) x = GB (rTop.emb x) := by
  have b3 : (x 3).val < 2 := (x 3).isLt
  rw [payTop]
  unfold assemble
  rw [if_pos (show ((rTop.emb x) 3).val < 2 by show 0 + 1 * (x 3).val < 2; omega)]
  refine congrArg X1 (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 3).val = (0 + 1 * (x 3).val) % 2; omega
  | ⟨4, _⟩ => show (x 4).val = 0 + 1 * (x 4).val; omega

theorem piece_bot (x : S1x1x64x2x132.Idx) : k0_pay4 (View.ld X2 rRow) x = GB (rBot.emb x) := by
  have b3 : (x 3).val < 2 := (x 3).isLt
  rw [payBot]
  unfold assemble
  rw [if_neg (show ¬ ((rBot.emb x) 3).val < 2 by show ¬ 130 + 1 * (x 3).val < 2; omega),
    if_pos (show 130 ≤ ((rBot.emb x) 3).val by show 130 ≤ 130 + 1 * (x 3).val; omega)]
  refine congrArg X2 (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 3).val = (130 + 1 * (x 3).val - 130) % 2; omega
  | ⟨4, _⟩ => show (x 4).val = 0 + 1 * (x 4).val; omega

theorem piece_face (x : S1x1x64x128x128.Idx) : k0_pay5 (View.ld X0 rFace) x = GB (rMid.emb x) := by
  have b3 : (x 3).val < 128 := (x 3).isLt
  have b4 : (x 4).val < 128 := (x 4).isLt
  rw [payFace]
  unfold assemble
  rw [if_neg (show ¬ ((rMid.emb x) 3).val < 2 by show ¬ 2 + 1 * (x 3).val < 2; omega),
    if_neg (show ¬ 130 ≤ ((rMid.emb x) 3).val by show ¬ 130 ≤ 2 + 1 * (x 3).val; omega),
    if_neg (show ¬ ((rMid.emb x) 4).val < 2 by show ¬ 2 + 1 * (x 4).val < 2; omega),
    if_neg (show ¬ 130 ≤ ((rMid.emb x) 4).val by show ¬ 130 ≤ 2 + 1 * (x 4).val; omega)]
  refine congrArg X0 (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 3).val = (2 + 1 * (x 3).val - 2) % 128; omega
  | ⟨4, _⟩ => show (x 4).val = (2 + 1 * (x 4).val - 2) % 128; omega

theorem piece_lft (x : S1x1x64x128x2.Idx) : k0_pay1 (k0_pay6 (View.ld X3 rStrip)) x = GB (rLft.emb x) := by
  have b3 : (x 3).val < 128 := (x 3).isLt
  have b4 : (x 4).val < 2 := (x 4).isLt
  have e : k0_pay1 (k0_pay6 (View.ld X3 rStrip)) x = X3 (ix5 (x 0) (x 1) (x 2) (x 4) (x 3)) :=
    (congrArg (k0_pay1 (k0_pay6 (View.ld X3 rStrip))) (eq_ix5 (n0 := 1) (n1 := 1) (n2 := 64) (n3 := 128) (n4 := 2) x)).trans
      (payLft X3 (x 0) (x 1) (x 2) (x 3) (x 4))
  rw [e]
  unfold assemble
  rw [if_neg (show ¬ ((rLft.emb x) 3).val < 2 by show ¬ 2 + 1 * (x 3).val < 2; omega),
    if_neg (show ¬ 130 ≤ ((rLft.emb x) 3).val by show ¬ 130 ≤ 2 + 1 * (x 3).val; omega),
    if_pos (show ((rLft.emb x) 4).val < 2 by show 0 + 1 * (x 4).val < 2; omega)]
  refine congrArg X3 (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 4).val = (0 + 1 * (x 4).val) % 2; omega
  | ⟨4, _⟩ => show (x 3).val = (2 + 1 * (x 3).val - 2) % 128; omega

theorem piece_rgt (x : S1x1x64x128x2.Idx) : k0_pay2 (View.ld X4 rStrip) x = GB (rRgt.emb x) := by
  have b3 : (x 3).val < 128 := (x 3).isLt
  have b4 : (x 4).val < 2 := (x 4).isLt
  have e : k0_pay2 (View.ld X4 rStrip) x = X4 (ix5 (x 0) (x 1) (x 2) (x 4) (x 3)) :=
    (congrArg (k0_pay2 (View.ld X4 rStrip)) (eq_ix5 (n0 := 1) (n1 := 1) (n2 := 64) (n3 := 128) (n4 := 2) x)).trans
      (payRgt X4 (x 0) (x 1) (x 2) (x 3) (x 4))
  rw [e]
  unfold assemble
  rw [if_neg (show ¬ ((rRgt.emb x) 3).val < 2 by show ¬ 2 + 1 * (x 3).val < 2; omega),
    if_neg (show ¬ 130 ≤ ((rRgt.emb x) 3).val by show ¬ 130 ≤ 2 + 1 * (x 3).val; omega),
    if_neg (show ¬ ((rRgt.emb x) 4).val < 2 by show ¬ 130 + 1 * (x 4).val < 2; omega),
    if_pos (show 130 ≤ ((rRgt.emb x) 4).val by show 130 ≤ 130 + 1 * (x 4).val; omega)]
  refine congrArg X4 (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 4).val = (130 + 1 * (x 4).val - 130) % 2; omega
  | ⟨4, _⟩ => show (x 3).val = (2 + 1 * (x 3).val - 2) % 128; omega

/-- The block after the body is `assemble` of the five input blocks. -/
theorem blockOut_eq : blockOut X0 X1 X2 X3 X4 = GB := by
  funext y
  unfold blockOut
  refine View.canon_apply_of_pieces (assemble (nb := 1) (nf := 1) X0 X1 X2 X3 X4) _ ?_ y (cover _ _ _ _ _ y)
  intro p hp x
  simp only [List.mem_cons, List.not_mem_nil, or_false] at hp
  rcases hp with rfl | rfl | rfl | rfl | rfl
  · exact piece_rgt X0 X1 X2 X3 X4 x
  · exact piece_lft X0 X1 X2 X3 X4 x
  · exact piece_face X0 X1 X2 X3 X4 x
  · exact piece_bot X0 X1 X2 X3 X4 x
  · exact piece_top X0 X1 X2 X3 X4 x

end Pieces

/-! ## From the blocks to the arrays -/

section Arrays
variable (m : (ℓ : Loc nD τ sig) → Buf (Elt F) ℓ) (ρ : Dev nD → PrngReg)

/-- The result array after the run, from the arrays the region found. -/
def padded (c : Dev nD) : S4x6x64x132x132.Idx → Elt F .f32 :=
  assemble (nb := 4) (nf := 6) (V m c main_arg0) (V m c main_v96) (V m c main_v97) (V m c main_v98) (V m c main_v99)

/-- At every grid point every window's block index is (b, f, 0, 0, 0), with the same (b, f) for all six. -/
theorem idx_facts : ∀ t : Fin cfg0.N,
    (win0_0.index t (0 : Fin 5) = win0_5.index t (0 : Fin 5) ∧ win0_0.index t (1 : Fin 5) = win0_5.index t (1 : Fin 5)
      ∧ win0_0.index t (2 : Fin 5) = 0 ∧ win0_0.index t (3 : Fin 5) = 0 ∧ win0_0.index t (4 : Fin 5) = 0) ∧
    (win0_1.index t (0 : Fin 5) = win0_5.index t (0 : Fin 5) ∧ win0_1.index t (1 : Fin 5) = win0_5.index t (1 : Fin 5)
      ∧ win0_1.index t (2 : Fin 5) = 0 ∧ win0_1.index t (3 : Fin 5) = 0 ∧ win0_1.index t (4 : Fin 5) = 0) ∧
    (win0_2.index t (0 : Fin 5) = win0_5.index t (0 : Fin 5) ∧ win0_2.index t (1 : Fin 5) = win0_5.index t (1 : Fin 5)
      ∧ win0_2.index t (2 : Fin 5) = 0 ∧ win0_2.index t (3 : Fin 5) = 0 ∧ win0_2.index t (4 : Fin 5) = 0) ∧
    (win0_3.index t (0 : Fin 5) = win0_5.index t (0 : Fin 5) ∧ win0_3.index t (1 : Fin 5) = win0_5.index t (1 : Fin 5)
      ∧ win0_3.index t (2 : Fin 5) = 0 ∧ win0_3.index t (3 : Fin 5) = 0 ∧ win0_3.index t (4 : Fin 5) = 0) ∧
    (win0_4.index t (0 : Fin 5) = win0_5.index t (0 : Fin 5) ∧ win0_4.index t (1 : Fin 5) = win0_5.index t (1 : Fin 5)
      ∧ win0_4.index t (2 : Fin 5) = 0 ∧ win0_4.index t (3 : Fin 5) = 0 ∧ win0_4.index t (4 : Fin 5) = 0) ∧
    (win0_5.index t (2 : Fin 5) = 0 ∧ win0_5.index t (3 : Fin 5) = 0 ∧ win0_5.index t (4 : Fin 5) = 0) :=
  (by decide +kernel : ∀ t : Fin grid0.N, _)

set_option maxHeartbeats 4000000 in
/-- `assemble` of the blocks at a position of the block is `assemble` of the arrays at that position of the slab. -/
theorem slab_eq (A0 : S4x6x64x128x128.Idx → Elt F .f32) (A1 A2 : S4x6x64x2x132.Idx → Elt F .f32)
    (A3 A4 : S4x6x64x2x128.Idx → Elt F .f32) (t : Fin cfg0.N) (j : S1x1x64x132x132.Idx) :
    assemble (nb := 1) (nf := 1) (fun y => A0 (((cfg0.win 0).blk t).view.emb y)) (fun y => A1 (((cfg0.win 1).blk t).view.emb y))
        (fun y => A2 (((cfg0.win 2).blk t).view.emb y)) (fun y => A3 (((cfg0.win 3).blk t).view.emb y))
        (fun y => A4 (((cfg0.win 4).blk t).view.emb y)) j
      = assemble (nb := 4) (nf := 6) A0 A1 A2 A3 A4 (((cfg0.win 5).blk t).view.emb j) := by
  obtain ⟨⟨a00, a01, a02, a03, a04⟩, ⟨a10, a11, a12, a13, a14⟩, ⟨a20, a21, a22, a23, a24⟩, ⟨a30, a31, a32, a33, a34⟩,
    ⟨a40, a41, a42, a43, a44⟩, ⟨a52, a53, a54⟩⟩ := idx_facts t
  have E3 : ((((cfg0.win 5).blk t).view.emb j) 3).val = (j 3).val := by
    show win0_5.index t (3 : Fin 5) * 132 + 1 * (j 3).val = (j 3).val; omega
  have E4 : ((((cfg0.win 5).blk t).view.emb j) 4).val = (j 4).val := by
    show win0_5.index t (4 : Fin 5) * 132 + 1 * (j 4).val = (j 4).val; omega
  unfold assemble
  simp only [E3, E4]
  split_ifs with r0 r1 c0 c1
  · -- rows 0..1: the top rows
    refine congrArg A1 (funext fun a => Fin.ext ?_)
    match a with
    | ⟨0, _⟩ => show win0_1.index t (0 : Fin 5) * 1 + 1 * (j 0).val = win0_5.index t (0 : Fin 5) * 1 + 1 * (j 0).val; omega
    | ⟨1, _⟩ => show win0_1.index t (1 : Fin 5) * 1 + 1 * (j 1).val = win0_5.index t (1 : Fin 5) * 1 + 1 * (j 1).val; omega
    | ⟨2, _⟩ => show win0_1.index t (2 : Fin 5) * 64 + 1 * (j 2).val = win0_5.index t (2 : Fin 5) * 64 + 1 * (j 2).val; omega
    | ⟨3, _⟩ => show win0_1.index t (3 : Fin 5) * 2 + 1 * ((j 3).val % 2) = (j 3).val % 2; omega
    | ⟨4, _⟩ => show win0_1.index t (4 : Fin 5) * 132 + 1 * ((j 4).val) = win0_5.index t (4 : Fin 5) * 132 + 1 * (j 4).val; omega
  · -- rows 130..131: the bottom rows
    refine congrArg A2 (funext fun a => Fin.ext ?_)
    match a with
    | ⟨0, _⟩ => show win0_2.index t (0 : Fin 5) * 1 + 1 * (j 0).val = win0_5.index t (0 : Fin 5) * 1 + 1 * (j 0).val; omega
    | ⟨1, _⟩ => show win0_2.index t (1 : Fin 5) * 1 + 1 * (j 1).val = win0_5.index t (1 : Fin 5) * 1 + 1 * (j 1).val; omega
    | ⟨2, _⟩ => show win0_2.index t (2 : Fin 5) * 64 + 1 * (j 2).val = win0_5.index t (2 : Fin 5) * 64 + 1 * (j 2).val; omega
    | ⟨3, _⟩ => show win0_2.index t (3 : Fin 5) * 2 + 1 * (((j 3).val - 130) % 2) = ((j 3).val - 130) % 2; omega
    | ⟨4, _⟩ => show win0_2.index t (4 : Fin 5) * 132 + 1 * ((j 4).val) = win0_5.index t (4 : Fin 5) * 132 + 1 * (j 4).val; omega
  · -- columns 0..1: the left strip
    refine congrArg A3 (funext fun a => Fin.ext ?_)
    match a with
    | ⟨0, _⟩ => show win0_3.index t (0 : Fin 5) * 1 + 1 * (j 0).val = win0_5.index t (0 : Fin 5) * 1 + 1 * (j 0).val; omega
    | ⟨1, _⟩ => show win0_3.index t (1 : Fin 5) * 1 + 1 * (j 1).val = win0_5.index t (1 : Fin 5) * 1 + 1 * (j 1).val; omega
    | ⟨2, _⟩ => show win0_3.index t (2 : Fin 5) * 64 + 1 * (j 2).val = win0_5.index t (2 : Fin 5) * 64 + 1 * (j 2).val; omega
    | ⟨3, _⟩ => show win0_3.index t (3 : Fin 5) * 2 + 1 * ((j 4).val % 2) = (j 4).val % 2; omega
    | ⟨4, _⟩ => show win0_3.index t (4 : Fin 5) * 128 + 1 * (((j 3).val - 2) % 128) = ((j 3).val - 2) % 128; omega
  · -- columns 130..131: the right strip
    refine congrArg A4 (funext fun a => Fin.ext ?_)
    match a with
    | ⟨0, _⟩ => show win0_4.index t (0 : Fin 5) * 1 + 1 * (j 0).val = win0_5.index t (0 : Fin 5) * 1 + 1 * (j 0).val; omega
    | ⟨1, _⟩ => show win0_4.index t (1 : Fin 5) * 1 + 1 * (j 1).val = win0_5.index t (1 : Fin 5) * 1 + 1 * (j 1).val; omega
    | ⟨2, _⟩ => show win0_4.index t (2 : Fin 5) * 64 + 1 * (j 2).val = win0_5.index t (2 : Fin 5) * 64 + 1 * (j 2).val; omega
    | ⟨3, _⟩ => show win0_4.index t (3 : Fin 5) * 2 + 1 * (((j 4).val - 130) % 2) = ((j 4).val - 130) % 2; omega
    | ⟨4, _⟩ => show win0_4.index t (4 : Fin 5) * 128 + 1 * (((j 3).val - 2) % 128) = ((j 3).val - 2) % 128; omega
  · -- the face
    refine congrArg A0 (funext fun a => Fin.ext ?_)
    match a with
    | ⟨0, _⟩ => show win0_0.index t (0 : Fin 5) * 1 + 1 * (j 0).val = win0_5.index t (0 : Fin 5) * 1 + 1 * (j 0).val; omega
    | ⟨1, _⟩ => show win0_0.index t (1 : Fin 5) * 1 + 1 * (j 1).val = win0_5.index t (1 : Fin 5) * 1 + 1 * (j 1).val; omega
    | ⟨2, _⟩ => show win0_0.index t (2 : Fin 5) * 64 + 1 * (j 2).val = win0_5.index t (2 : Fin 5) * 64 + 1 * (j 2).val; omega
    | ⟨3, _⟩ => show win0_0.index t (3 : Fin 5) * 128 + 1 * (((j 3).val - 2) % 128) = ((j 3).val - 2) % 128; omega
    | ⟨4, _⟩ => show win0_0.index t (4 : Fin 5) * 128 + 1 * (((j 4).val - 2) % 128) = ((j 4).val - 2) % 128; omega

set_option allowUnsafeReducibility true in
attribute [local irreducible] Cert.KernelIdeal.Region.V in
/-- The same for the blocks the launch stages: each is its window's slab of the array the region found. -/
theorem block_eq (c : Dev nD) (t : Fin cfg0.N) (j : S1x1x64x132x132.Idx) :
    assemble (nb := 1) (nf := 1) (iblk m c 0 t) (iblk m c 1 t) (iblk m c 2 t) (iblk m c 3 t) (iblk m c 4 t) j
      = padded m c (((cfg0.win 5).blk t).view.emb j) :=
  slab_eq (V m c main_arg0) (V m c main_v96) (V m c main_v97) (V m c main_v98) (V m c main_v99) t j

/-- What grid point `t` writes back is its slab of `padded`. -/
theorem flushed_eq (c : Dev nD) (t : Fin cfg0.N) :
    (dats m 0 c).flushed 5 t = ((cfg0.win 5).blk t).view.read (Elt F) (padded m c) := by
  show (cfg0.win 5).cut (grid0.coords t) ((dats m 0 c).after 5 t) = _
  rw [after5, blockOut_eq]
  funext j
  exact block_eq m c t j

/-- Every (batch, face) pair is some grid point's. -/
theorem idx_onto : ∀ (q0 : Fin 4) (q1 : Fin 6), ∃ t : Fin cfg0.N, win0_5.index t = ![q0.val, q1.val, 0, 0, 0] :=
  (by decide +kernel : ∀ (q0 : Fin 4) (q1 : Fin 6), ∃ t : Fin grid0.N, win0_5.index t = ![q0.val, q1.val, 0, 0, 0])

theorem mem_blk (t : Fin cfg0.N) (i : S4x6x64x132x132.Idx) :
    i ∈ ((cfg0.win 5).blk t).view.set ↔ ∀ a : Fin 5, win0_5.index t a * S1x1x64x132x132.size a ≤ (i a).val
      ∧ (i a).val < win0_5.index t a * S1x1x64x132x132.size a + S1x1x64x132x132.size a := by
  show i ∈ ((View.whole main_v100).slice (win0_5.rect t)).set ↔ _
  rw [View.set_slice_whole, Rect.mem_set_unit]
  exact Iff.rfl

/-- The 24 slabs cover the result array. -/
theorem covered (i : S4x6x64x132x132.Idx) :
    ∃ t : Fin cfg0.N, (cfg0.win 5).flush t = true ∧ i ∈ ((cfg0.win 5).blk t).view.set := by
  have i0 : (i 0).val < 4 := (i 0).isLt
  have i1 : (i 1).val < 6 := (i 1).isLt
  have i2 : (i 2).val < 64 := (i 2).isLt
  have i3 : (i 3).val < 132 := (i 3).isLt
  have i4 : (i 4).val < 132 := (i 4).isLt
  obtain ⟨t, ht⟩ := idx_onto ⟨(i 0).val, i0⟩ ⟨(i 1).val, i1⟩
  have q0 : win0_5.index t (0 : Fin 5) = (i 0).val := congrFun ht 0
  have q1 : win0_5.index t (1 : Fin 5) = (i 1).val := congrFun ht 1
  have q2 : win0_5.index t (2 : Fin 5) = 0 := congrFun ht 2
  have q3 : win0_5.index t (3 : Fin 5) = 0 := congrFun ht 3
  have q4 : win0_5.index t (4 : Fin 5) = 0 := congrFun ht 4
  refine ⟨t, flush0_5 t, ?_⟩
  rw [mem_blk]
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 1 ≤ (i 1).val ∧ (i 1).val < win0_5.index t (1 : Fin 5) * 1 + 1; omega
  | ⟨2, _⟩ => show win0_5.index t (2 : Fin 5) * 64 ≤ (i 2).val ∧ (i 2).val < win0_5.index t (2 : Fin 5) * 64 + 64; omega
  | ⟨3, _⟩ => show win0_5.index t (3 : Fin 5) * 132 ≤ (i 3).val ∧ (i 3).val < win0_5.index t (3 : Fin 5) * 132 + 132; omega
  | ⟨4, _⟩ => show win0_5.index t (4 : Fin 5) * 132 ≤ (i 4).val ∧ (i 4).val < win0_5.index t (4 : Fin 5) * 132 + 132; omega

/-- The result array after every write-back. -/
theorem final (c : Dev nD) : (dats m 0 c).arrAt 5 cfg0.N = padded m c :=
  (dats m 0 c).arrAt_eq_of_cover 5 (padded m c) (fun t _ => flushed_eq m c t) covered

/-- The run, read: the result array ends at `padded`, the argument as launched. -/
theorem run : θ_run defs (onTc (τ := τ) (main (F := F))) ⟨m, fun _ => 0, ρ⟩ fun r => ∀ c : Dev nD,
      r.2.mem ((c.tc : Thread nD τ).loc main_v100) = padded m c
      ∧ r.2.mem ((c.tc : Thread nD τ).loc main_arg0) = m ((c.tc : Thread nD τ).loc main_arg0) :=
  (θ_run defs _ _).mono (fun r h c => ⟨((h c).1 5).trans (final m c), kept_arg0 m r h c⟩) (run_main m ρ)

end Arrays

end Cert.KernelIdeal.Padded

end
-- ==== Proof.Joins.lean ====
/-
  The joins of the two host programs, read back.

  Each program joins six face strips into one array (four times) and three arrays along the rows or the columns (the
  kernel twice, the reference four times). After such an operation its result buffer holds the join of what its operand
  buffers held. With these, what a buffer holds after a stretch of either program — slices, reversals, transposes,
  broadcasts, recasts and joins — is computed in one rewriting pass that visits every shared intermediate once.
-/
import proofs.«155738_j69243462746691_2_alg».proof.Proof.Gen.KernelIdeal.Launch
import proofs.«155738_j69243462746691_2_alg».proof.Proof.RefRun

noncomputable section

namespace Cert.CubePad

open Idealize.ShloMosaic Idealize.ShloMosaic.TcCoe Idealize.SL.Sem Idealize.ShloMosaic.StableHlo

variable {F' : FTy → Type} [FloatOps F']

/-- A join of arrays depends only on the list of arrays joined (its side condition is carried along): the rule that lets
    a rewriting pass go on inside the arrays of a join. -/
@[congr] theorem concatenate_congr_list {α : Type} (t : Shape) (a : Fin t.rank) (xs ys : List ((s : Shape) × (s.Idx → α)))
    (hx : Shape.Concatenates (xs.map (·.1)) t a) (e : xs = ys) :
    concatenate t a xs hx = concatenate t a ys (e ▸ hx) := by subst e; rfl

theorem joinK_v29 (F : Valuation Cert.KernelIdeal.τ Cert.KernelIdeal.sig (Elt F')) :
    (StableHlo.nary ![Cert.KernelIdeal.main_v23, Cert.KernelIdeal.main_v24, Cert.KernelIdeal.main_v25, Cert.KernelIdeal.main_v26, Cert.KernelIdeal.main_v27, Cert.KernelIdeal.main_v28] Cert.KernelIdeal.main_v29 (fun u => concatenate Cert.KernelIdeal.S4x6x64x2x128 1 [⟨Cert.KernelIdeal.S4x1x64x2x128, u 0⟩, ⟨Cert.KernelIdeal.S4x1x64x2x128, u 1⟩, ⟨Cert.KernelIdeal.S4x1x64x2x128, u 2⟩, ⟨Cert.KernelIdeal.S4x1x64x2x128, u 3⟩, ⟨Cert.KernelIdeal.S4x1x64x2x128, u 4⟩, ⟨Cert.KernelIdeal.S4x1x64x2x128, u 5⟩] Cert.KernelIdeal.Facts₀.concatenates_S4x1x64x2x128_S4x1x64x2x128_S4x1x64x2x128_S4x1x64x2x128_S4x1x64x2x128_S4x1x64x2x128_S4x6x64x2x128_d1) : HloOp Cert.KernelIdeal.τ Cert.KernelIdeal.sig (Elt F')).result F (no_index (Proc.devRef .tc Cert.KernelIdeal.main_v29))
      = concatenate Cert.KernelIdeal.S4x6x64x2x128 1 [⟨Cert.KernelIdeal.S4x1x64x2x128, F (Proc.devRef .tc Cert.KernelIdeal.main_v23)⟩, ⟨Cert.KernelIdeal.S4x1x64x2x128, F (Proc.devRef .tc Cert.KernelIdeal.main_v24)⟩, ⟨Cert.KernelIdeal.S4x1x64x2x128, F (Proc.devRef .tc Cert.KernelIdeal.main_v25)⟩, ⟨Cert.KernelIdeal.S4x1x64x2x128, F (Proc.devRef .tc Cert.KernelIdeal.main_v26)⟩, ⟨Cert.KernelIdeal.S4x1x64x2x128, F (Proc.devRef .tc Cert.KernelIdeal.main_v27)⟩, ⟨Cert.KernelIdeal.S4x1x64x2x128, F (Proc.devRef .tc Cert.KernelIdeal.main_v28)⟩] Cert.KernelIdeal.Facts₀.concatenates_S4x1x64x2x128_S4x1x64x2x128_S4x1x64x2x128_S4x1x64x2x128_S4x1x64x2x128_S4x1x64x2x128_S4x6x64x2x128_d1 := by
  rw [nary_result]; rfl

theorem joinK_v47 (F : Valuation Cert.KernelIdeal.τ Cert.KernelIdeal.sig (Elt F')) :
    (StableHlo.nary ![Cert.KernelIdeal.main_v41, Cert.KernelIdeal.main_v42, Cert.KernelIdeal.main_v43, Cert.KernelIdeal.main_v44, Cert.KernelIdeal.main_v45, Cert.KernelIdeal.main_v46] Cert.KernelIdeal.main_v47 (fun u => concatenate Cert.KernelIdeal.S4x6x64x2x128 1 [⟨Cert.KernelIdeal.S4x1x64x2x128, u 0⟩, ⟨Cert.KernelIdeal.S4x1x64x2x128, u 1⟩, ⟨Cert.KernelIdeal.S4x1x64x2x128, u 2⟩, ⟨Cert.KernelIdeal.S4x1x64x2x128, u 3⟩, ⟨Cert.KernelIdeal.S4x1x64x2x128, u 4⟩, ⟨Cert.KernelIdeal.S4x1x64x2x128, u 5⟩] Cert.KernelIdeal.Facts₀.concatenates_S4x1x64x2x128_S4x1x64x2x128_S4x1x64x2x128_S4x1x64x2x128_S4x1x64x2x128_S4x1x64x2x128_S4x6x64x2x128_d1) : HloOp Cert.KernelIdeal.τ Cert.KernelIdeal.sig (Elt F')).result F (no_index (Proc.devRef .tc Cert.KernelIdeal.main_v47))
      = concatenate Cert.KernelIdeal.S4x6x64x2x128 1 [⟨Cert.KernelIdeal.S4x1x64x2x128, F (Proc.devRef .tc Cert.KernelIdeal.main_v41)⟩, ⟨Cert.KernelIdeal.S4x1x64x2x128, F (Proc.devRef .tc Cert.KernelIdeal.main_v42)⟩, ⟨Cert.KernelIdeal.S4x1x64x2x128, F (Proc.devRef .tc Cert.KernelIdeal.main_v43)⟩, ⟨Cert.KernelIdeal.S4x1x64x2x128, F (Proc.devRef .tc Cert.KernelIdeal.main_v44)⟩, ⟨Cert.KernelIdeal.S4x1x64x2x128, F (Proc.devRef .tc Cert.KernelIdeal.main_v45)⟩, ⟨Cert.KernelIdeal.S4x1x64x2x128, F (Proc.devRef .tc Cert.KernelIdeal.main_v46)⟩] Cert.KernelIdeal.Facts₀.concatenates_S4x1x64x2x128_S4x1x64x2x128_S4x1x64x2x128_S4x1x64x2x128_S4x1x64x2x128_S4x1x64x2x128_S4x6x64x2x128_d1 := by
  rw [nary_result]; rfl

theorem joinK_v63 (F : Valuation Cert.KernelIdeal.τ Cert.KernelIdeal.sig (Elt F')) :
    (StableHlo.nary ![Cert.KernelIdeal.main_v57, Cert.KernelIdeal.main_v58, Cert.KernelIdeal.main_v59, Cert.KernelIdeal.main_v60, Cert.KernelIdeal.main_v61, Cert.KernelIdeal.main_v62] Cert.KernelIdeal.main_v63 (fun u => concatenate Cert.KernelIdeal.S4x6x64x128x2 1 [⟨Cert.KernelIdeal.S4x1x64x128x2, u 0⟩, ⟨Cert.KernelIdeal.S4x1x64x128x2, u 1⟩, ⟨Cert.KernelIdeal.S4x1x64x128x2, u 2⟩, ⟨Cert.KernelIdeal.S4x1x64x128x2, u 3⟩, ⟨Cert.KernelIdeal.S4x1x64x128x2, u 4⟩, ⟨Cert.KernelIdeal.S4x1x64x128x2, u 5⟩] Cert.KernelIdeal.Facts₀.concatenates_S4x1x64x128x2_S4x1x64x128x2_S4x1x64x128x2_S4x1x64x128x2_S4x1x64x128x2_S4x1x64x128x2_S4x6x64x128x2_d1) : HloOp Cert.KernelIdeal.τ Cert.KernelIdeal.sig (Elt F')).result F (no_index (Proc.devRef .tc Cert.KernelIdeal.main_v63))
      = concatenate Cert.KernelIdeal.S4x6x64x128x2 1 [⟨Cert.KernelIdeal.S4x1x64x128x2, F (Proc.devRef .tc Cert.KernelIdeal.main_v57)⟩, ⟨Cert.KernelIdeal.S4x1x64x128x2, F (Proc.devRef .tc Cert.KernelIdeal.main_v58)⟩, ⟨Cert.KernelIdeal.S4x1x64x128x2, F (Proc.devRef .tc Cert.KernelIdeal.main_v59)⟩, ⟨Cert.KernelIdeal.S4x1x64x128x2, F (Proc.devRef .tc Cert.KernelIdeal.main_v60)⟩, ⟨Cert.KernelIdeal.S4x1x64x128x2, F (Proc.devRef .tc Cert.KernelIdeal.main_v61)⟩, ⟨Cert.KernelIdeal.S4x1x64x128x2, F (Proc.devRef .tc Cert.KernelIdeal.main_v62)⟩] Cert.KernelIdeal.Facts₀.concatenates_S4x1x64x128x2_S4x1x64x128x2_S4x1x64x128x2_S4x1x64x128x2_S4x1x64x128x2_S4x1x64x128x2_S4x6x64x128x2_d1 := by
  rw [nary_result]; rfl

theorem joinK_v79 (F : Valuation Cert.KernelIdeal.τ Cert.KernelIdeal.sig (Elt F')) :
    (StableHlo.nary ![Cert.KernelIdeal.main_v73, Cert.KernelIdeal.main_v74, Cert.KernelIdeal.main_v75, Cert.KernelIdeal.main_v76, Cert.KernelIdeal.main_v77, Cert.KernelIdeal.main_v78] Cert.KernelIdeal.main_v79 (fun u => concatenate Cert.KernelIdeal.S4x6x64x128x2 1 [⟨Cert.KernelIdeal.S4x1x64x128x2, u 0⟩, ⟨Cert.KernelIdeal.S4x1x64x128x2, u 1⟩, ⟨Cert.KernelIdeal.S4x1x64x128x2, u 2⟩, ⟨Cert.KernelIdeal.S4x1x64x128x2, u 3⟩, ⟨Cert.KernelIdeal.S4x1x64x128x2, u 4⟩, ⟨Cert.KernelIdeal.S4x1x64x128x2, u 5⟩] Cert.KernelIdeal.Facts₀.concatenates_S4x1x64x128x2_S4x1x64x128x2_S4x1x64x128x2_S4x1x64x128x2_S4x1x64x128x2_S4x1x64x128x2_S4x6x64x128x2_d1) : HloOp Cert.KernelIdeal.τ Cert.KernelIdeal.sig (Elt F')).result F (no_index (Proc.devRef .tc Cert.KernelIdeal.main_v79))
      = concatenate Cert.KernelIdeal.S4x6x64x128x2 1 [⟨Cert.KernelIdeal.S4x1x64x128x2, F (Proc.devRef .tc Cert.KernelIdeal.main_v73)⟩, ⟨Cert.KernelIdeal.S4x1x64x128x2, F (Proc.devRef .tc Cert.KernelIdeal.main_v74)⟩, ⟨Cert.KernelIdeal.S4x1x64x128x2, F (Proc.devRef .tc Cert.KernelIdeal.main_v75)⟩, ⟨Cert.KernelIdeal.S4x1x64x128x2, F (Proc.devRef .tc Cert.KernelIdeal.main_v76)⟩, ⟨Cert.KernelIdeal.S4x1x64x128x2, F (Proc.devRef .tc Cert.KernelIdeal.main_v77)⟩, ⟨Cert.KernelIdeal.S4x1x64x128x2, F (Proc.devRef .tc Cert.KernelIdeal.main_v78)⟩] Cert.KernelIdeal.Facts₀.concatenates_S4x1x64x128x2_S4x1x64x128x2_S4x1x64x128x2_S4x1x64x128x2_S4x1x64x128x2_S4x1x64x128x2_S4x6x64x128x2_d1 := by
  rw [nary_result]; rfl

theorem joinK_v96 (F : Valuation Cert.KernelIdeal.τ Cert.KernelIdeal.sig (Elt F')) :
    (StableHlo.nary ![Cert.KernelIdeal.main_v83, Cert.KernelIdeal.main_v29, Cert.KernelIdeal.main_v87] Cert.KernelIdeal.main_v96 (fun u => concatenate Cert.KernelIdeal.S4x6x64x2x132 4 [⟨Cert.KernelIdeal.S4x6x64x2x2, u 0⟩, ⟨Cert.KernelIdeal.S4x6x64x2x128, u 1⟩, ⟨Cert.KernelIdeal.S4x6x64x2x2, u 2⟩] Cert.KernelIdeal.Facts₀.concatenates_S4x6x64x2x2_S4x6x64x2x128_S4x6x64x2x2_S4x6x64x2x132_d4) : HloOp Cert.KernelIdeal.τ Cert.KernelIdeal.sig (Elt F')).result F (no_index (Proc.devRef .tc Cert.KernelIdeal.main_v96))
      = concatenate Cert.KernelIdeal.S4x6x64x2x132 4 [⟨Cert.KernelIdeal.S4x6x64x2x2, F (Proc.devRef .tc Cert.KernelIdeal.main_v83)⟩, ⟨Cert.KernelIdeal.S4x6x64x2x128, F (Proc.devRef .tc Cert.KernelIdeal.main_v29)⟩, ⟨Cert.KernelIdeal.S4x6x64x2x2, F (Proc.devRef .tc Cert.KernelIdeal.main_v87)⟩] Cert.KernelIdeal.Facts₀.concatenates_S4x6x64x2x2_S4x6x64x2x128_S4x6x64x2x2_S4x6x64x2x132_d4 := by
  rw [nary_result]; rfl

theorem joinK_v97 (F : Valuation Cert.KernelIdeal.τ Cert.KernelIdeal.sig (Elt F')) :
    (StableHlo.nary ![Cert.KernelIdeal.main_v91, Cert.KernelIdeal.main_v47, Cert.KernelIdeal.main_v95] Cert.KernelIdeal.main_v97 (fun u => concatenate Cert.KernelIdeal.S4x6x64x2x132 4 [⟨Cert.KernelIdeal.S4x6x64x2x2, u 0⟩, ⟨Cert.KernelIdeal.S4x6x64x2x128, u 1⟩, ⟨Cert.KernelIdeal.S4x6x64x2x2, u 2⟩] Cert.KernelIdeal.Facts₀.concatenates_S4x6x64x2x2_S4x6x64x2x128_S4x6x64x2x2_S4x6x64x2x132_d4) : HloOp Cert.KernelIdeal.τ Cert.KernelIdeal.sig (Elt F')).result F (no_index (Proc.devRef .tc Cert.KernelIdeal.main_v97))
      = concatenate Cert.KernelIdeal.S4x6x64x2x132 4 [⟨Cert.KernelIdeal.S4x6x64x2x2, F (Proc.devRef .tc Cert.KernelIdeal.main_v91)⟩, ⟨Cert.KernelIdeal.S4x6x64x2x128, F (Proc.devRef .tc Cert.KernelIdeal.main_v47)⟩, ⟨Cert.KernelIdeal.S4x6x64x2x2, F (Proc.devRef .tc Cert.KernelIdeal.main_v95)⟩] Cert.KernelIdeal.Facts₀.concatenates_S4x6x64x2x2_S4x6x64x2x128_S4x6x64x2x2_S4x6x64x2x132_d4 := by
  rw [nary_result]; rfl

theorem joinR_v29 (F : Valuation Cert.ReferenceIdeal.τ Cert.ReferenceIdeal.sig (Elt F')) :
    (StableHlo.nary ![Cert.ReferenceIdeal.main_v23, Cert.ReferenceIdeal.main_v24, Cert.ReferenceIdeal.main_v25, Cert.ReferenceIdeal.main_v26, Cert.ReferenceIdeal.main_v27, Cert.ReferenceIdeal.main_v28] Cert.ReferenceIdeal.main_v29 (fun u => concatenate Cert.ReferenceIdeal.S4x6x64x2x128 1 [⟨Cert.ReferenceIdeal.S4x1x64x2x128, u 0⟩, ⟨Cert.ReferenceIdeal.S4x1x64x2x128, u 1⟩, ⟨Cert.ReferenceIdeal.S4x1x64x2x128, u 2⟩, ⟨Cert.ReferenceIdeal.S4x1x64x2x128, u 3⟩, ⟨Cert.ReferenceIdeal.S4x1x64x2x128, u 4⟩, ⟨Cert.ReferenceIdeal.S4x1x64x2x128, u 5⟩] Cert.ReferenceIdeal.Facts₀.concatenates_S4x1x64x2x128_S4x1x64x2x128_S4x1x64x2x128_S4x1x64x2x128_S4x1x64x2x128_S4x1x64x2x128_S4x6x64x2x128_d1) : HloOp Cert.ReferenceIdeal.τ Cert.ReferenceIdeal.sig (Elt F')).result F (no_index (Proc.devRef .tc Cert.ReferenceIdeal.main_v29))
      = concatenate Cert.ReferenceIdeal.S4x6x64x2x128 1 [⟨Cert.ReferenceIdeal.S4x1x64x2x128, F (Proc.devRef .tc Cert.ReferenceIdeal.main_v23)⟩, ⟨Cert.ReferenceIdeal.S4x1x64x2x128, F (Proc.devRef .tc Cert.ReferenceIdeal.main_v24)⟩, ⟨Cert.ReferenceIdeal.S4x1x64x2x128, F (Proc.devRef .tc Cert.ReferenceIdeal.main_v25)⟩, ⟨Cert.ReferenceIdeal.S4x1x64x2x128, F (Proc.devRef .tc Cert.ReferenceIdeal.main_v26)⟩, ⟨Cert.ReferenceIdeal.S4x1x64x2x128, F (Proc.devRef .tc Cert.ReferenceIdeal.main_v27)⟩, ⟨Cert.ReferenceIdeal.S4x1x64x2x128, F (Proc.devRef .tc Cert.ReferenceIdeal.main_v28)⟩] Cert.ReferenceIdeal.Facts₀.concatenates_S4x1x64x2x128_S4x1x64x2x128_S4x1x64x2x128_S4x1x64x2x128_S4x1x64x2x128_S4x1x64x2x128_S4x6x64x2x128_d1 := by
  rw [nary_result]; rfl

theorem joinR_v47 (F : Valuation Cert.ReferenceIdeal.τ Cert.ReferenceIdeal.sig (Elt F')) :
    (StableHlo.nary ![Cert.ReferenceIdeal.main_v41, Cert.ReferenceIdeal.main_v42, Cert.ReferenceIdeal.main_v43, Cert.ReferenceIdeal.main_v44, Cert.ReferenceIdeal.main_v45, Cert.ReferenceIdeal.main_v46] Cert.ReferenceIdeal.main_v47 (fun u => concatenate Cert.ReferenceIdeal.S4x6x64x2x128 1 [⟨Cert.ReferenceIdeal.S4x1x64x2x128, u 0⟩, ⟨Cert.ReferenceIdeal.S4x1x64x2x128, u 1⟩, ⟨Cert.ReferenceIdeal.S4x1x64x2x128, u 2⟩, ⟨Cert.ReferenceIdeal.S4x1x64x2x128, u 3⟩, ⟨Cert.ReferenceIdeal.S4x1x64x2x128, u 4⟩, ⟨Cert.ReferenceIdeal.S4x1x64x2x128, u 5⟩] Cert.ReferenceIdeal.Facts₀.concatenates_S4x1x64x2x128_S4x1x64x2x128_S4x1x64x2x128_S4x1x64x2x128_S4x1x64x2x128_S4x1x64x2x128_S4x6x64x2x128_d1) : HloOp Cert.ReferenceIdeal.τ Cert.ReferenceIdeal.sig (Elt F')).result F (no_index (Proc.devRef .tc Cert.ReferenceIdeal.main_v47))
      = concatenate Cert.ReferenceIdeal.S4x6x64x2x128 1 [⟨Cert.ReferenceIdeal.S4x1x64x2x128, F (Proc.devRef .tc Cert.ReferenceIdeal.main_v41)⟩, ⟨Cert.ReferenceIdeal.S4x1x64x2x128, F (Proc.devRef .tc Cert.ReferenceIdeal.main_v42)⟩, ⟨Cert.ReferenceIdeal.S4x1x64x2x128, F (Proc.devRef .tc Cert.ReferenceIdeal.main_v43)⟩, ⟨Cert.ReferenceIdeal.S4x1x64x2x128, F (Proc.devRef .tc Cert.ReferenceIdeal.main_v44)⟩, ⟨Cert.ReferenceIdeal.S4x1x64x2x128, F (Proc.devRef .tc Cert.ReferenceIdeal.main_v45)⟩, ⟨Cert.ReferenceIdeal.S4x1x64x2x128, F (Proc.devRef .tc Cert.ReferenceIdeal.main_v46)⟩] Cert.ReferenceIdeal.Facts₀.concatenates_S4x1x64x2x128_S4x1x64x2x128_S4x1x64x2x128_S4x1x64x2x128_S4x1x64x2x128_S4x1x64x2x128_S4x6x64x2x128_d1 := by
  rw [nary_result]; rfl

theorem joinR_v63 (F : Valuation Cert.ReferenceIdeal.τ Cert.ReferenceIdeal.sig (Elt F')) :
    (StableHlo.nary ![Cert.ReferenceIdeal.main_v57, Cert.ReferenceIdeal.main_v58, Cert.ReferenceIdeal.main_v59, Cert.ReferenceIdeal.main_v60, Cert.ReferenceIdeal.main_v61, Cert.ReferenceIdeal.main_v62] Cert.ReferenceIdeal.main_v63 (fun u => concatenate Cert.ReferenceIdeal.S4x6x64x128x2 1 [⟨Cert.ReferenceIdeal.S4x1x64x128x2, u 0⟩, ⟨Cert.ReferenceIdeal.S4x1x64x128x2, u 1⟩, ⟨Cert.ReferenceIdeal.S4x1x64x128x2, u 2⟩, ⟨Cert.ReferenceIdeal.S4x1x64x128x2, u 3⟩, ⟨Cert.ReferenceIdeal.S4x1x64x128x2, u 4⟩, ⟨Cert.ReferenceIdeal.S4x1x64x128x2, u 5⟩] Cert.ReferenceIdeal.Facts₀.concatenates_S4x1x64x128x2_S4x1x64x128x2_S4x1x64x128x2_S4x1x64x128x2_S4x1x64x128x2_S4x1x64x128x2_S4x6x64x128x2_d1) : HloOp Cert.ReferenceIdeal.τ Cert.ReferenceIdeal.sig (Elt F')).result F (no_index (Proc.devRef .tc Cert.ReferenceIdeal.main_v63))
      = concatenate Cert.ReferenceIdeal.S4x6x64x128x2 1 [⟨Cert.ReferenceIdeal.S4x1x64x128x2, F (Proc.devRef .tc Cert.ReferenceIdeal.main_v57)⟩, ⟨Cert.ReferenceIdeal.S4x1x64x128x2, F (Proc.devRef .tc Cert.ReferenceIdeal.main_v58)⟩, ⟨Cert.ReferenceIdeal.S4x1x64x128x2, F (Proc.devRef .tc Cert.ReferenceIdeal.main_v59)⟩, ⟨Cert.ReferenceIdeal.S4x1x64x128x2, F (Proc.devRef .tc Cert.ReferenceIdeal.main_v60)⟩, ⟨Cert.ReferenceIdeal.S4x1x64x128x2, F (Proc.devRef .tc Cert.ReferenceIdeal.main_v61)⟩, ⟨Cert.ReferenceIdeal.S4x1x64x128x2, F (Proc.devRef .tc Cert.ReferenceIdeal.main_v62)⟩] Cert.ReferenceIdeal.Facts₀.concatenates_S4x1x64x128x2_S4x1x64x128x2_S4x1x64x128x2_S4x1x64x128x2_S4x1x64x128x2_S4x1x64x128x2_S4x6x64x128x2_d1 := by
  rw [nary_result]; rfl

theorem joinR_v79 (F : Valuation Cert.ReferenceIdeal.τ Cert.ReferenceIdeal.sig (Elt F')) :
    (StableHlo.nary ![Cert.ReferenceIdeal.main_v73, Cert.ReferenceIdeal.main_v74, Cert.ReferenceIdeal.main_v75, Cert.ReferenceIdeal.main_v76, Cert.ReferenceIdeal.main_v77, Cert.ReferenceIdeal.main_v78] Cert.ReferenceIdeal.main_v79 (fun u => concatenate Cert.ReferenceIdeal.S4x6x64x128x2 1 [⟨Cert.ReferenceIdeal.S4x1x64x128x2, u 0⟩, ⟨Cert.ReferenceIdeal.S4x1x64x128x2, u 1⟩, ⟨Cert.ReferenceIdeal.S4x1x64x128x2, u 2⟩, ⟨Cert.ReferenceIdeal.S4x1x64x128x2, u 3⟩, ⟨Cert.ReferenceIdeal.S4x1x64x128x2, u 4⟩, ⟨Cert.ReferenceIdeal.S4x1x64x128x2, u 5⟩] Cert.ReferenceIdeal.Facts₀.concatenates_S4x1x64x128x2_S4x1x64x128x2_S4x1x64x128x2_S4x1x64x128x2_S4x1x64x128x2_S4x1x64x128x2_S4x6x64x128x2_d1) : HloOp Cert.ReferenceIdeal.τ Cert.ReferenceIdeal.sig (Elt F')).result F (no_index (Proc.devRef .tc Cert.ReferenceIdeal.main_v79))
      = concatenate Cert.ReferenceIdeal.S4x6x64x128x2 1 [⟨Cert.ReferenceIdeal.S4x1x64x128x2, F (Proc.devRef .tc Cert.ReferenceIdeal.main_v73)⟩, ⟨Cert.ReferenceIdeal.S4x1x64x128x2, F (Proc.devRef .tc Cert.ReferenceIdeal.main_v74)⟩, ⟨Cert.ReferenceIdeal.S4x1x64x128x2, F (Proc.devRef .tc Cert.ReferenceIdeal.main_v75)⟩, ⟨Cert.ReferenceIdeal.S4x1x64x128x2, F (Proc.devRef .tc Cert.ReferenceIdeal.main_v76)⟩, ⟨Cert.ReferenceIdeal.S4x1x64x128x2, F (Proc.devRef .tc Cert.ReferenceIdeal.main_v77)⟩, ⟨Cert.ReferenceIdeal.S4x1x64x128x2, F (Proc.devRef .tc Cert.ReferenceIdeal.main_v78)⟩] Cert.ReferenceIdeal.Facts₀.concatenates_S4x1x64x128x2_S4x1x64x128x2_S4x1x64x128x2_S4x1x64x128x2_S4x1x64x128x2_S4x1x64x128x2_S4x6x64x128x2_d1 := by
  rw [nary_result]; rfl

theorem joinR_v96 (F : Valuation Cert.ReferenceIdeal.τ Cert.ReferenceIdeal.sig (Elt F')) :
    (StableHlo.nary ![Cert.ReferenceIdeal.main_v29, Cert.ReferenceIdeal.main_arg0, Cert.ReferenceIdeal.main_v47] Cert.ReferenceIdeal.main_v96 (fun u => concatenate Cert.ReferenceIdeal.S4x6x64x132x128 3 [⟨Cert.ReferenceIdeal.S4x6x64x2x128, u 0⟩, ⟨Cert.ReferenceIdeal.S4x6x64x128x128, u 1⟩, ⟨Cert.ReferenceIdeal.S4x6x64x2x128, u 2⟩] Cert.ReferenceIdeal.Facts₀.concatenates_S4x6x64x2x128_S4x6x64x128x128_S4x6x64x2x128_S4x6x64x132x128_d3) : HloOp Cert.ReferenceIdeal.τ Cert.ReferenceIdeal.sig (Elt F')).result F (no_index (Proc.devRef .tc Cert.ReferenceIdeal.main_v96))
      = concatenate Cert.ReferenceIdeal.S4x6x64x132x128 3 [⟨Cert.ReferenceIdeal.S4x6x64x2x128, F (Proc.devRef .tc Cert.ReferenceIdeal.main_v29)⟩, ⟨Cert.ReferenceIdeal.S4x6x64x128x128, F (Proc.devRef .tc Cert.ReferenceIdeal.main_arg0)⟩, ⟨Cert.ReferenceIdeal.S4x6x64x2x128, F (Proc.devRef .tc Cert.ReferenceIdeal.main_v47)⟩] Cert.ReferenceIdeal.Facts₀.concatenates_S4x6x64x2x128_S4x6x64x128x128_S4x6x64x2x128_S4x6x64x132x128_d3 := by
  rw [nary_result]; rfl

theorem joinR_v97 (F : Valuation Cert.ReferenceIdeal.τ Cert.ReferenceIdeal.sig (Elt F')) :
    (StableHlo.nary ![Cert.ReferenceIdeal.main_v83, Cert.ReferenceIdeal.main_v63, Cert.ReferenceIdeal.main_v91] Cert.ReferenceIdeal.main_v97 (fun u => concatenate Cert.ReferenceIdeal.S4x6x64x132x2 3 [⟨Cert.ReferenceIdeal.S4x6x64x2x2, u 0⟩, ⟨Cert.ReferenceIdeal.S4x6x64x128x2, u 1⟩, ⟨Cert.ReferenceIdeal.S4x6x64x2x2, u 2⟩] Cert.ReferenceIdeal.Facts₀.concatenates_S4x6x64x2x2_S4x6x64x128x2_S4x6x64x2x2_S4x6x64x132x2_d3) : HloOp Cert.ReferenceIdeal.τ Cert.ReferenceIdeal.sig (Elt F')).result F (no_index (Proc.devRef .tc Cert.ReferenceIdeal.main_v97))
      = concatenate Cert.ReferenceIdeal.S4x6x64x132x2 3 [⟨Cert.ReferenceIdeal.S4x6x64x2x2, F (Proc.devRef .tc Cert.ReferenceIdeal.main_v83)⟩, ⟨Cert.ReferenceIdeal.S4x6x64x128x2, F (Proc.devRef .tc Cert.ReferenceIdeal.main_v63)⟩, ⟨Cert.ReferenceIdeal.S4x6x64x2x2, F (Proc.devRef .tc Cert.ReferenceIdeal.main_v91)⟩] Cert.ReferenceIdeal.Facts₀.concatenates_S4x6x64x2x2_S4x6x64x128x2_S4x6x64x2x2_S4x6x64x132x2_d3 := by
  rw [nary_result]; rfl

theorem joinR_v98 (F : Valuation Cert.ReferenceIdeal.τ Cert.ReferenceIdeal.sig (Elt F')) :
    (StableHlo.nary ![Cert.ReferenceIdeal.main_v87, Cert.ReferenceIdeal.main_v79, Cert.ReferenceIdeal.main_v95] Cert.ReferenceIdeal.main_v98 (fun u => concatenate Cert.ReferenceIdeal.S4x6x64x132x2 3 [⟨Cert.ReferenceIdeal.S4x6x64x2x2, u 0⟩, ⟨Cert.ReferenceIdeal.S4x6x64x128x2, u 1⟩, ⟨Cert.ReferenceIdeal.S4x6x64x2x2, u 2⟩] Cert.ReferenceIdeal.Facts₀.concatenates_S4x6x64x2x2_S4x6x64x128x2_S4x6x64x2x2_S4x6x64x132x2_d3) : HloOp Cert.ReferenceIdeal.τ Cert.ReferenceIdeal.sig (Elt F')).result F (no_index (Proc.devRef .tc Cert.ReferenceIdeal.main_v98))
      = concatenate Cert.ReferenceIdeal.S4x6x64x132x2 3 [⟨Cert.ReferenceIdeal.S4x6x64x2x2, F (Proc.devRef .tc Cert.ReferenceIdeal.main_v87)⟩, ⟨Cert.ReferenceIdeal.S4x6x64x128x2, F (Proc.devRef .tc Cert.ReferenceIdeal.main_v79)⟩, ⟨Cert.ReferenceIdeal.S4x6x64x2x2, F (Proc.devRef .tc Cert.ReferenceIdeal.main_v95)⟩] Cert.ReferenceIdeal.Facts₀.concatenates_S4x6x64x2x2_S4x6x64x128x2_S4x6x64x2x2_S4x6x64x132x2_d3 := by
  rw [nary_result]; rfl

theorem joinR_v99 (F : Valuation Cert.ReferenceIdeal.τ Cert.ReferenceIdeal.sig (Elt F')) :
    (StableHlo.nary ![Cert.ReferenceIdeal.main_v97, Cert.ReferenceIdeal.main_v96, Cert.ReferenceIdeal.main_v98] Cert.ReferenceIdeal.main_v99 (fun u => concatenate Cert.ReferenceIdeal.S4x6x64x132x132 4 [⟨Cert.ReferenceIdeal.S4x6x64x132x2, u 0⟩, ⟨Cert.ReferenceIdeal.S4x6x64x132x128, u 1⟩, ⟨Cert.ReferenceIdeal.S4x6x64x132x2, u 2⟩] Cert.ReferenceIdeal.Facts₀.concatenates_S4x6x64x132x2_S4x6x64x132x128_S4x6x64x132x2_S4x6x64x132x132_d4) : HloOp Cert.ReferenceIdeal.τ Cert.ReferenceIdeal.sig (Elt F')).result F (no_index (Proc.devRef .tc Cert.ReferenceIdeal.main_v99))
      = concatenate Cert.ReferenceIdeal.S4x6x64x132x132 4 [⟨Cert.ReferenceIdeal.S4x6x64x132x2, F (Proc.devRef .tc Cert.ReferenceIdeal.main_v97)⟩, ⟨Cert.ReferenceIdeal.S4x6x64x132x128, F (Proc.devRef .tc Cert.ReferenceIdeal.main_v96)⟩, ⟨Cert.ReferenceIdeal.S4x6x64x132x2, F (Proc.devRef .tc Cert.ReferenceIdeal.main_v98)⟩] Cert.ReferenceIdeal.Facts₀.concatenates_S4x6x64x132x2_S4x6x64x132x128_S4x6x64x132x2_S4x6x64x132x132_d4 := by
  rw [nary_result]; rfl

/-- What buffers hold after a stretch of either program: each operation's result at its own buffer, the buffer's earlier
    contents at any other, in one pass. -/
macro "after_results_joins" : tactic =>
  `(tactic| (simp (disch := decide) only [after_cons, after_nil, unary_result', reshape_result',
      joinK_v29, joinK_v47, joinK_v63, joinK_v79, joinK_v96, joinK_v97, joinR_v29, joinR_v47, joinR_v63, joinR_v79, joinR_v96, joinR_v97, joinR_v98, joinR_v99,
      unary_result_ne', reshape_result_ne', nary_result_ne']))

end Cert.CubePad

end
-- ==== Proof.Windows.lean ====
/-
  The two programs side by side, in two stretches.

  Each program's host operations are cut after the sixtieth. Up to their last four operations the kernel's host
  program and the reference are the same slices, reversals, transposes, broadcasts and joins of the argument; so from
  memories that agree on the argument the first stretch leaves the same contents in the buffers the second stretch
  reads (`shared0`), and from buffers that agree there the second stretch builds the same side strips `lft`, `rgt` and
  corner tiles (`shared1`; the strips `top`, `bot` come from the first stretch). The kernel's program then joins
  [p_tl | top | p_tr] and [p_dl | bot | p_dr] along the columns and exchanges rows and columns of `lft` and `rgt`
  (`kernel_tail`); the reference joins the three columns of the padded picture (`reference_tail`).
-/
import proofs.«155738_j69243462746691_2_alg».proof.Proof.Gen.KernelIdeal.Launch
import proofs.«155738_j69243462746691_2_alg».proof.Proof.RefRun
import proofs.«155738_j69243462746691_2_alg».proof.Proof.Joins
import proofs.«155738_j69243462746691_2_alg».proof.Proof.Assemble

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's first sixty operations. -/
abbrev ops0 : List (HloOp τ sig (Elt F)) :=
  [ StableHlo.unary main_arg0 main_v0 ((extractStridedSlice S4x1x64x128x128 ![0, 0, 0, 0, 0] · slices_S4x6x64x128x128_S4x1x64x128x128_0_0_0_0_0) : (⟨S4x6x64x128x128, .f32⟩ : BufTy).Contents (Elt F) → (⟨S4x1x64x128x128, .f32⟩ : BufTy).Contents (Elt F)),
    StableHlo.reshape main_v0 main_v1 rfl shapeCasts_S4x1x64x128x128_S4x64x128x128,
    StableHlo.unary main_arg0 main_v2 ((extractStridedSlice S4x1x64x128x128 ![0, 1, 0, 0, 0] · slices_S4x6x64x128x128_S4x1x64x128x128_0_1_0_0_0) : (⟨S4x6x64x128x128, .f32⟩ : BufTy).Contents (Elt F) → (⟨S4x1x64x128x128, .f32⟩ : BufTy).Contents (Elt F)),
    StableHlo.reshape main_v2 main_v3 rfl shapeCasts_S4x1x64x128x128_S4x64x128x128,
    StableHlo.unary main_arg0 main_v4 ((extractStridedSlice S4x1x64x128x128 ![0, 2, 0, 0, 0] · slices_S4x6x64x128x128_S4x1x64x128x128_0_2_0_0_0) : (⟨S4x6x64x128x128, .f32⟩ : BufTy).Contents (Elt F) → (⟨S4x1x64x128x128, .f32⟩ : BufTy).Contents (Elt F)),
    StableHlo.reshape main_v4 main_v5 rfl shapeCasts_S4x1x64x128x128_S4x64x128x128,
    StableHlo.unary main_arg0 main_v6 ((extractStridedSlice S4x1x64x128x128 ![0, 3, 0, 0, 0] · slices_S4x6x64x128x128_S4x1x64x128x128_0_3_0_0_0) : (⟨S4x6x64x128x128, .f32⟩ : BufTy).Contents (Elt F) → (⟨S4x1x64x128x128, .f32⟩ : BufTy).Contents (Elt F)),
    StableHlo.reshape main_v6 main_v7 rfl shapeCasts_S4x1x64x128x128_S4x64x128x128,
    StableHlo.unary main_arg0 main_v8 ((extractStridedSlice S4x1x64x128x128 ![0, 4, 0, 0, 0] · slices_S4x6x64x128x128_S4x1x64x128x128_0_4_0_0_0) : (⟨S4x6x64x128x128, .f32⟩ : BufTy).Contents (Elt F) → (⟨S4x1x64x128x128, .f32⟩ : BufTy).Contents (Elt F)),
    StableHlo.reshape main_v8 main_v9 rfl shapeCasts_S4x1x64x128x128_S4x64x128x128,
    StableHlo.unary main_arg0 main_v10 ((extractStridedSlice S4x1x64x128x128 ![0, 5, 0, 0, 0] · slices_S4x6x64x128x128_S4x1x64x128x128_0_5_0_0_0) : (⟨S4x6x64x128x128, .f32⟩ : BufTy).Contents (Elt F) → (⟨S4x1x64x128x128, .f32⟩ : BufTy).Contents (Elt F)),
    StableHlo.reshape main_v10 main_v11 rfl shapeCasts_S4x1x64x128x128_S4x64x128x128,
    StableHlo.unary main_v11 main_v12 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v12 main_v13 (Host.reverse [2] : (⟨S4x64x2x128, .f32⟩ : BufTy).Contents (Elt F) → (⟨S4x64x2x128, .f32⟩ : BufTy).Contents (Elt F)),
    StableHlo.unary main_v5 main_v14 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v11 main_v15 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v11 main_v16 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v16 main_v17 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v11 main_v18 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v18 main_v19 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v19 main_v20 (Host.reverse [2] : (⟨S4x64x2x128, .f32⟩ : BufTy).Contents (Elt F) → (⟨S4x64x2x128, .f32⟩ : BufTy).Contents (Elt F)),
    StableHlo.unary main_v1 main_v21 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v21 main_v22 (Host.reverse [2] : (⟨S4x64x2x128, .f32⟩ : BufTy).Contents (Elt F) → (⟨S4x64x2x128, .f32⟩ : BufTy).Contents (Elt F)),
    StableHlo.unary main_v13 main_v23 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v14 main_v24 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v15 main_v25 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v17 main_v26 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v20 main_v27 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v22 main_v28 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.nary ![main_v23, main_v24, main_v25, main_v26, main_v27, main_v28] main_v29 (fun u => concatenate S4x6x64x2x128 1 [⟨S4x1x64x2x128, u 0⟩, ⟨S4x1x64x2x128, u 1⟩, ⟨S4x1x64x2x128, u 2⟩, ⟨S4x1x64x2x128, u 3⟩, ⟨S4x1x64x2x128, u 4⟩, ⟨S4x1x64x2x128, u 5⟩] concatenates_S4x1x64x2x128_S4x1x64x2x128_S4x1x64x2x128_S4x1x64x2x128_S4x1x64x2x128_S4x1x64x2x128_S4x6x64x2x128_d1),
    StableHlo.unary main_v3 main_v30 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v30 main_v31 (Host.reverse [2] : (⟨S4x64x2x128, .f32⟩ : BufTy).Contents (Elt F) → (⟨S4x64x2x128, .f32⟩ : BufTy).Contents (Elt F)),
    StableHlo.unary main_v1 main_v32 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v32 main_v33 (Host.reverse [2] : (⟨S4x64x2x128, .f32⟩ : BufTy).Contents (Elt F) → (⟨S4x64x2x128, .f32⟩ : BufTy).Contents (Elt F)),
    StableHlo.unary main_v3 main_v34 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v3 main_v35 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v35 main_v36 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v36 main_v37 (Host.reverse [2] : (⟨S4x64x2x128, .f32⟩ : BufTy).Contents (Elt F) → (⟨S4x64x2x128, .f32⟩ : BufTy).Contents (Elt F)),
    StableHlo.unary main_v3 main_v38 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v38 main_v39 ((transpose S4x64x2x128 [0, 1, 3, 2] · transposes_S4x64x128x2_S4x64x2x128_0_1_3_2) : (⟨S4x64x128x2, .f32⟩ : BufTy).Contents (Elt F) → (⟨S4x64x2x128, .f32⟩ : BufTy).Contents (Elt F)),
    StableHlo.unary main_v5 main_v40 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v31 main_v41 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v33 main_v42 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v34 main_v43 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v37 main_v44 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v39 main_v45 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.unary main_v40 main_v46 (broadcastInDim S4x1x64x2x128 ![0, 2, 3, 4] bcast_S4x64x2x128_S4x1x64x2x128_0_2_3_4 : (⟨S4x64x2x128, .f32⟩ : BufTy).Contents (Elt F) → (⟨S4x1x64x2x128, .f32⟩ : BufTy).Contents (Elt F)),
    StableHlo.nary ![main_v41, main_v42, main_v43, main_v44, main_v45, main_v46] main_v47 (fun u => concatenate S4x6x64x2x128 1 [⟨S4x1x64x2x128, u 0⟩, ⟨S4x1x64x2x128, u 1⟩, ⟨S4x1x64x2x128, u 2⟩, ⟨S4x1x64x2x128, u 3⟩, ⟨S4x1x64x2x128, u 4⟩, ⟨S4x1x64x2x128, u 5⟩] concatenates_S4x1x64x2x128_S4x1x64x2x128_S4x1x64x2x128_S4x1x64x2x128_S4x1x64x2x128_S4x1x64x2x128_S4x6x64x2x128_d1),
    StableHlo.unary main_v9 main_v48 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v7 main_v49 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v49 main_v50 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v50 main_v51 (Host.reverse [3] : (⟨S4x64x128x2, .f32⟩ : BufTy).Contents (Elt F) → (⟨S4x64x128x2, .f32⟩ : BufTy).Contents (Elt F)),
    StableHlo.unary main_v7 main_v52 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v1 main_v53 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v5 main_v54 ((extractStridedSlice S4x64x128x2 ![0, 0, 0, 126] · slices_S4x64x128x128_S4x64x128x2_0_0_0_126) : (⟨S4x64x128x128, .f32⟩ : BufTy).Contents (Elt F) → (⟨S4x64x128x2, .f32⟩ : BufTy).Contents (Elt F)),
    StableHlo.unary main_v7 main_v55 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v55 main_v56 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v48 main_v57 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v51 main_v58 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v52 main_v59 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)) ]

/-- Its last forty. -/
abbrev ops1 : List (HloOp τ sig (Elt F)) :=
  [ StableHlo.unary main_v53 main_v60 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v54 main_v61 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v56 main_v62 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.nary ![main_v57, main_v58, main_v59, main_v60, main_v61, main_v62] main_v63 (fun u => concatenate S4x6x64x128x2 1 [⟨S4x1x64x128x2, u 0⟩, ⟨S4x1x64x128x2, u 1⟩, ⟨S4x1x64x128x2, u 2⟩, ⟨S4x1x64x128x2, u 3⟩, ⟨S4x1x64x128x2, u 4⟩, ⟨S4x1x64x128x2, u 5⟩] concatenates_S4x1x64x128x2_S4x1x64x128x2_S4x1x64x128x2_S4x1x64x128x2_S4x1x64x128x2_S4x1x64x128x2_S4x6x64x128x2_d1),
    StableHlo.unary main_v7 main_v64 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v9 main_v65 ((extractStridedSlice S4x64x2x128 ![0, 0, 126, 0] · slices_S4x64x128x128_S4x64x2x128_0_0_126_0) : (⟨S4x64x128x128, .f32⟩ : BufTy).Contents (Elt F) → (⟨S4x64x2x128, .f32⟩ : BufTy).Contents (Elt F)),
    StableHlo.unary main_v65 main_v66 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v9 main_v67 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v5 main_v68 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v1 main_v69 ((extractStridedSlice S4x64x128x2 ![0, 0, 0, 0] · slices_S4x64x128x128_S4x64x128x2_0_0_0_0) : (⟨S4x64x128x128, .f32⟩ : BufTy).Contents (Elt F) → (⟨S4x64x128x2, .f32⟩ : BufTy).Contents (Elt F)),
    StableHlo.unary main_v9 main_v70 ((extractStridedSlice S4x64x2x128 ![0, 0, 0, 0] · slices_S4x64x128x128_S4x64x2x128_0_0_0_0) : (⟨S4x64x128x128, .f32⟩ : BufTy).Contents (Elt F) → (⟨S4x64x2x128, .f32⟩ : BufTy).Contents (Elt F)),
    StableHlo.unary main_v70 main_v71 ((transpose S4x64x128x2 [0, 1, 3, 2] · transposes_S4x64x2x128_S4x64x128x2_0_1_3_2) : (⟨S4x64x2x128, .f32⟩ : BufTy).Contents (Elt F) → (⟨S4x64x128x2, .f32⟩ : BufTy).Contents (Elt F)),
    StableHlo.unary main_v71 main_v72 (Host.reverse [3] : (⟨S4x64x128x2, .f32⟩ : BufTy).Contents (Elt F) → (⟨S4x64x128x2, .f32⟩ : BufTy).Contents (Elt F)),
    StableHlo.unary main_v64 main_v73 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v66 main_v74 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v67 main_v75 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v68 main_v76 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v69 main_v77 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.unary main_v72 main_v78 (broadcastInDim S4x1x64x128x2 ![0, 2, 3, 4] bcast_S4x64x128x2_S4x1x64x128x2_0_2_3_4 : (⟨S4x64x128x2, .f32⟩ : BufTy).Contents (Elt F) → (⟨S4x1x64x128x2, .f32⟩ : BufTy).Contents (Elt F)),
    StableHlo.nary ![main_v73, main_v74, main_v75, main_v76, main_v77, main_v78] main_v79 (fun u => concatenate S4x6x64x128x2 1 [⟨S4x1x64x128x2, u 0⟩, ⟨S4x1x64x128x2, u 1⟩, ⟨S4x1x64x128x2, u 2⟩, ⟨S4x1x64x128x2, u 3⟩, ⟨S4x1x64x128x2, u 4⟩, ⟨S4x1x64x128x2, u 5⟩] concatenates_S4x1x64x128x2_S4x1x64x128x2_S4x1x64x128x2_S4x1x64x128x2_S4x1x64x128x2_S4x1x64x128x2_S4x6x64x128x2_d1),
    StableHlo.unary main_v29 main_v80 ((extractStridedSlice S4x6x64x2x1 ![0, 0, 0, 0, 0] · slices_S4x6x64x2x128_S4x6x64x2x1_0_0_0_0_0) : (⟨S4x6x64x2x128, .f32⟩ : BufTy).Contents (Elt F) → (⟨S4x6x64x2x1, .f32⟩ : BufTy).Contents (Elt F)),
    StableHlo.reshape main_v80 main_v81 rfl shapeCasts_S4x6x64x2x1_S1x4x1x6x1x64x1x2x1x1,
    StableHlo.unary main_v81 main_v82 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v82 main_v83 rfl shapeCasts_S1x4x1x6x1x64x1x2x2x1_S4x6x64x2x2,
    StableHlo.unary main_v29 main_v84 ((extractStridedSlice S4x6x64x2x1 ![0, 0, 0, 0, 127] · slices_S4x6x64x2x128_S4x6x64x2x1_0_0_0_0_127) : (⟨S4x6x64x2x128, .f32⟩ : BufTy).Contents (Elt F) → (⟨S4x6x64x2x1, .f32⟩ : BufTy).Contents (Elt F)),
    StableHlo.reshape main_v84 main_v85 rfl shapeCasts_S4x6x64x2x1_S1x4x1x6x1x64x1x2x1x1,
    StableHlo.unary main_v85 main_v86 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v86 main_v87 rfl shapeCasts_S1x4x1x6x1x64x1x2x2x1_S4x6x64x2x2,
    StableHlo.unary main_v47 main_v88 ((extractStridedSlice S4x6x64x2x1 ![0, 0, 0, 0, 0] · slices_S4x6x64x2x128_S4x6x64x2x1_0_0_0_0_0) : (⟨S4x6x64x2x128, .f32⟩ : BufTy).Contents (Elt F) → (⟨S4x6x64x2x1, .f32⟩ : BufTy).Contents (Elt F)),
    StableHlo.reshape main_v88 main_v89 rfl shapeCasts_S4x6x64x2x1_S1x4x1x6x1x64x1x2x1x1,
    StableHlo.unary main_v89 main_v90 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v90 main_v91 rfl shapeCasts_S1x4x1x6x1x64x1x2x2x1_S4x6x64x2x2,
    StableHlo.unary main_v47 main_v92 ((extractStridedSlice S4x6x64x2x1 ![0, 0, 0, 0, 127] · slices_S4x6x64x2x128_S4x6x64x2x1_0_0_0_0_127) : (⟨S4x6x64x2x128, .f32⟩ : BufTy).Contents (Elt F) → (⟨S4x6x64x2x1, .f32⟩ : BufTy).Contents (Elt F)),
    StableHlo.reshape main_v92 main_v93 rfl shapeCasts_S4x6x64x2x1_S1x4x1x6x1x64x1x2x1x1,
    StableHlo.unary main_v93 main_v94 (broadcastInDim S1x4x1x6x1x64x1x2x2x1 ![0, 1, 2, 3, 4, 5, 6, 7, 8, 9] bcast_S1x4x1x6x1x64x1x2x1x1_S1x4x1x6x1x64x1x2x2x1_0_1_2_3_4_5_6_7_8_9 : (⟨S1x4x1x6x1x64x1x2x1x1, .f32⟩ : BufTy).Contents (Elt F) → (⟨S1x4x1x6x1x64x1x2x2x1, .f32⟩ : BufTy).Contents (Elt F)),
    StableHlo.reshape main_v94 main_v95 rfl shapeCasts_S1x4x1x6x1x64x1x2x2x1_S4x6x64x2x2,
    StableHlo.nary ![main_v29, main_arg0, main_v47] main_v96 (fun u => concatenate S4x6x64x132x128 3 [⟨S4x6x64x2x128, u 0⟩, ⟨S4x6x64x128x128, u 1⟩, ⟨S4x6x64x2x128, u 2⟩] concatenates_S4x6x64x2x128_S4x6x64x128x128_S4x6x64x2x128_S4x6x64x132x128_d3),
    StableHlo.nary ![main_v83, main_v63, main_v91] main_v97 (fun u => concatenate S4x6x64x132x2 3 [⟨S4x6x64x2x2, u 0⟩, ⟨S4x6x64x128x2, u 1⟩, ⟨S4x6x64x2x2, u 2⟩] concatenates_S4x6x64x2x2_S4x6x64x128x2_S4x6x64x2x2_S4x6x64x132x2_d3),
    StableHlo.nary ![main_v87, main_v79, main_v95] main_v98 (fun u => concatenate S4x6x64x132x2 3 [⟨S4x6x64x2x2, u 0⟩, ⟨S4x6x64x128x2, u 1⟩, ⟨S4x6x64x2x2, u 2⟩] concatenates_S4x6x64x2x2_S4x6x64x128x2_S4x6x64x2x2_S4x6x64x132x2_d3),
    StableHlo.nary ![main_v97, main_v96, main_v98] main_v99 (fun u => concatenate S4x6x64x132x132 4 [⟨S4x6x64x132x2, u 0⟩, ⟨S4x6x64x132x128, u 1⟩, ⟨S4x6x64x132x2, u 2⟩] concatenates_S4x6x64x132x2_S4x6x64x132x128_S4x6x64x132x2_S4x6x64x132x132_d4) ]

set_option maxRecDepth 16384 in
theorem ops_split : (ops : List (HloOp τ sig (Elt F))) = ops0 ++ ops1 := rfl

end Cert.ReferenceIdeal.Hand

namespace Cert.CubePad

open Idealize.ShloMosaic Idealize.ShloMosaic.TcCoe Idealize.SL.Sem Idealize.ShloMosaic.StableHlo

variable {F : FTy → Type} [FloatOps F]

set_option maxRecDepth 16384 in
theorem kernel_split : (Cert.KernelIdeal.Gen.hostOps0 : List (HloOp Cert.KernelIdeal.τ Cert.KernelIdeal.sig (Elt F))) = Cert.KernelIdeal.Gen.main_part0_ops0 ++ Cert.KernelIdeal.Gen.main_part1_ops0 := rfl

set_option maxRecDepth 16384 in
set_option maxHeartbeats 40000000 in
/-- What the kernel's last four host operations leave, over the strips and tiles before them; the second stretch writes
    neither the argument nor `top`, `bot`. -/
theorem kernel_tail (W : Valuation Cert.KernelIdeal.τ Cert.KernelIdeal.sig (Elt F)) :
    (after (τ := Cert.KernelIdeal.τ) Cert.KernelIdeal.Gen.main_part1_ops0 W (Proc.devRef .tc Cert.KernelIdeal.main_v96) : (Sh 4 6 2 132).Idx → Elt F .f32)
      = concatenate (Sh 4 6 2 132) 4 [⟨Sh 4 6 2 2, after (τ := Cert.KernelIdeal.τ) Cert.KernelIdeal.Gen.main_part1_ops0 W (Proc.devRef .tc Cert.KernelIdeal.main_v83)⟩, ⟨Sh 4 6 2 128, W (Proc.devRef .tc Cert.KernelIdeal.main_v29)⟩, ⟨Sh 4 6 2 2, after (τ := Cert.KernelIdeal.τ) Cert.KernelIdeal.Gen.main_part1_ops0 W (Proc.devRef .tc Cert.KernelIdeal.main_v87)⟩]
          Cert.KernelIdeal.Facts₀.concatenates_S4x6x64x2x2_S4x6x64x2x128_S4x6x64x2x2_S4x6x64x2x132_d4
    ∧ (after (τ := Cert.KernelIdeal.τ) Cert.KernelIdeal.Gen.main_part1_ops0 W (Proc.devRef .tc Cert.KernelIdeal.main_v97) : (Sh 4 6 2 132).Idx → Elt F .f32)
      = concatenate (Sh 4 6 2 132) 4 [⟨Sh 4 6 2 2, after (τ := Cert.KernelIdeal.τ) Cert.KernelIdeal.Gen.main_part1_ops0 W (Proc.devRef .tc Cert.KernelIdeal.main_v91)⟩, ⟨Sh 4 6 2 128, W (Proc.devRef .tc Cert.KernelIdeal.main_v47)⟩, ⟨Sh 4 6 2 2, after (τ := Cert.KernelIdeal.τ) Cert.KernelIdeal.Gen.main_part1_ops0 W (Proc.devRef .tc Cert.KernelIdeal.main_v95)⟩]
          Cert.KernelIdeal.Facts₀.concatenates_S4x6x64x2x2_S4x6x64x2x128_S4x6x64x2x2_S4x6x64x2x132_d4
    ∧ (after (τ := Cert.KernelIdeal.τ) Cert.KernelIdeal.Gen.main_part1_ops0 W (Proc.devRef .tc Cert.KernelIdeal.main_v98) : (Sh 4 6 2 128).Idx → Elt F .f32)
      = transpose (Sh 4 6 2 128) [0, 1, 2, 4, 3] (after (τ := Cert.KernelIdeal.τ) Cert.KernelIdeal.Gen.main_part1_ops0 W (Proc.devRef .tc Cert.KernelIdeal.main_v63)) Cert.KernelIdeal.Facts₀.transposes_S4x6x64x128x2_S4x6x64x2x128_0_1_2_4_3
    ∧ (after (τ := Cert.KernelIdeal.τ) Cert.KernelIdeal.Gen.main_part1_ops0 W (Proc.devRef .tc Cert.KernelIdeal.main_v99) : (Sh 4 6 2 128).Idx → Elt F .f32)
      = transpose (Sh 4 6 2 128) [0, 1, 2, 4, 3] (after (τ := Cert.KernelIdeal.τ) Cert.KernelIdeal.Gen.main_part1_ops0 W (Proc.devRef .tc Cert.KernelIdeal.main_v79)) Cert.KernelIdeal.Facts₀.transposes_S4x6x64x128x2_S4x6x64x2x128_0_1_2_4_3
    ∧ after (τ := Cert.KernelIdeal.τ) Cert.KernelIdeal.Gen.main_part1_ops0 W (Proc.devRef .tc Cert.KernelIdeal.main_arg0) = W (Proc.devRef .tc Cert.KernelIdeal.main_arg0) := by
  after_results_joins
  all_goals (repeat' apply And.intro)
  all_goals first | trivial | rfl

set_option maxRecDepth 16384 in
set_option maxHeartbeats 40000000 in
/-- What the reference's last four operations leave: the three columns of the padded picture joined. -/
theorem reference_tail (W' : Valuation Cert.ReferenceIdeal.τ Cert.ReferenceIdeal.sig (Elt F)) :
    (after (τ := Cert.ReferenceIdeal.τ) Cert.ReferenceIdeal.Hand.ops1 W' (Proc.devRef .tc Cert.ReferenceIdeal.main_v99) : (Sh 4 6 132 132).Idx → Elt F .f32)
      = concatenate (Sh 4 6 132 132) 4
          [⟨Sh 4 6 132 2, concatenate (Sh 4 6 132 2) 3 [⟨Sh 4 6 2 2, after (τ := Cert.ReferenceIdeal.τ) Cert.ReferenceIdeal.Hand.ops1 W' (Proc.devRef .tc Cert.ReferenceIdeal.main_v83)⟩, ⟨Sh 4 6 128 2, after (τ := Cert.ReferenceIdeal.τ) Cert.ReferenceIdeal.Hand.ops1 W' (Proc.devRef .tc Cert.ReferenceIdeal.main_v63)⟩, ⟨Sh 4 6 2 2, after (τ := Cert.ReferenceIdeal.τ) Cert.ReferenceIdeal.Hand.ops1 W' (Proc.devRef .tc Cert.ReferenceIdeal.main_v91)⟩]
              Cert.ReferenceIdeal.Facts₀.concatenates_S4x6x64x2x2_S4x6x64x128x2_S4x6x64x2x2_S4x6x64x132x2_d3⟩,
           ⟨Sh 4 6 132 128, concatenate (Sh 4 6 132 128) 3 [⟨Sh 4 6 2 128, W' (Proc.devRef .tc Cert.ReferenceIdeal.main_v29)⟩, ⟨Sh 4 6 128 128, W' (Proc.devRef .tc Cert.ReferenceIdeal.main_arg0)⟩, ⟨Sh 4 6 2 128, W' (Proc.devRef .tc Cert.ReferenceIdeal.main_v47)⟩]
              Cert.ReferenceIdeal.Facts₀.concatenates_S4x6x64x2x128_S4x6x64x128x128_S4x6x64x2x128_S4x6x64x132x128_d3⟩,
           ⟨Sh 4 6 132 2, concatenate (Sh 4 6 132 2) 3 [⟨Sh 4 6 2 2, after (τ := Cert.ReferenceIdeal.τ) Cert.ReferenceIdeal.Hand.ops1 W' (Proc.devRef .tc Cert.ReferenceIdeal.main_v87)⟩, ⟨Sh 4 6 128 2, after (τ := Cert.ReferenceIdeal.τ) Cert.ReferenceIdeal.Hand.ops1 W' (Proc.devRef .tc Cert.ReferenceIdeal.main_v79)⟩, ⟨Sh 4 6 2 2, after (τ := Cert.ReferenceIdeal.τ) Cert.ReferenceIdeal.Hand.ops1 W' (Proc.devRef .tc Cert.ReferenceIdeal.main_v95)⟩]
              Cert.ReferenceIdeal.Facts₀.concatenates_S4x6x64x2x2_S4x6x64x128x2_S4x6x64x2x2_S4x6x64x132x2_d3⟩]
          Cert.ReferenceIdeal.Facts₀.concatenates_S4x6x64x132x2_S4x6x64x132x128_S4x6x64x132x2_S4x6x64x132x132_d4
    ∧ after (τ := Cert.ReferenceIdeal.τ) Cert.ReferenceIdeal.Hand.ops1 W' (Proc.devRef .tc Cert.ReferenceIdeal.main_arg0) = W' (Proc.devRef .tc Cert.ReferenceIdeal.main_arg0) := by
  after_results_joins
  all_goals (repeat' apply And.intro)
  all_goals first | trivial | rfl

set_option maxRecDepth 16384 in
set_option maxHeartbeats 40000000 in
/-- The second stretches build the same side strips and corner tiles from buffers that agree where they read. -/
theorem shared1 (W : Valuation Cert.KernelIdeal.τ Cert.KernelIdeal.sig (Elt F)) (W' : Valuation Cert.ReferenceIdeal.τ Cert.ReferenceIdeal.sig (Elt F))
    (h0 : (W' (Proc.devRef .tc Cert.ReferenceIdeal.main_v1) : (Cert.KernelIdeal.S4x64x128x128).Idx → Elt F .f32) = W (Proc.devRef .tc Cert.KernelIdeal.main_v1))
    (h1 : (W' (Proc.devRef .tc Cert.ReferenceIdeal.main_v5) : (Cert.KernelIdeal.S4x64x128x128).Idx → Elt F .f32) = W (Proc.devRef .tc Cert.KernelIdeal.main_v5))
    (h2 : (W' (Proc.devRef .tc Cert.ReferenceIdeal.main_v7) : (Cert.KernelIdeal.S4x64x128x128).Idx → Elt F .f32) = W (Proc.devRef .tc Cert.KernelIdeal.main_v7))
    (h3 : (W' (Proc.devRef .tc Cert.ReferenceIdeal.main_v9) : (Cert.KernelIdeal.S4x64x128x128).Idx → Elt F .f32) = W (Proc.devRef .tc Cert.KernelIdeal.main_v9))
    (h4 : (W' (Proc.devRef .tc Cert.ReferenceIdeal.main_v29) : (Cert.KernelIdeal.S4x6x64x2x128).Idx → Elt F .f32) = W (Proc.devRef .tc Cert.KernelIdeal.main_v29))
    (h5 : (W' (Proc.devRef .tc Cert.ReferenceIdeal.main_v47) : (Cert.KernelIdeal.S4x6x64x2x128).Idx → Elt F .f32) = W (Proc.devRef .tc Cert.KernelIdeal.main_v47))
    (h6 : (W' (Proc.devRef .tc Cert.ReferenceIdeal.main_v53) : (Cert.KernelIdeal.S4x64x128x2).Idx → Elt F .f32) = W (Proc.devRef .tc Cert.KernelIdeal.main_v53))
    (h7 : (W' (Proc.devRef .tc Cert.ReferenceIdeal.main_v54) : (Cert.KernelIdeal.S4x64x128x2).Idx → Elt F .f32) = W (Proc.devRef .tc Cert.KernelIdeal.main_v54))
    (h8 : (W' (Proc.devRef .tc Cert.ReferenceIdeal.main_v56) : (Cert.KernelIdeal.S4x64x128x2).Idx → Elt F .f32) = W (Proc.devRef .tc Cert.KernelIdeal.main_v56))
    (h9 : (W' (Proc.devRef .tc Cert.ReferenceIdeal.main_v57) : (Cert.KernelIdeal.S4x1x64x128x2).Idx → Elt F .f32) = W (Proc.devRef .tc Cert.KernelIdeal.main_v57))
    (h10 : (W' (Proc.devRef .tc Cert.ReferenceIdeal.main_v58) : (Cert.KernelIdeal.S4x1x64x128x2).Idx → Elt F .f32) = W (Proc.devRef .tc Cert.KernelIdeal.main_v58))
    (h11 : (W' (Proc.devRef .tc Cert.ReferenceIdeal.main_v59) : (Cert.KernelIdeal.S4x1x64x128x2).Idx → Elt F .f32) = W (Proc.devRef .tc Cert.KernelIdeal.main_v59)) :
    (after (τ := Cert.KernelIdeal.τ) Cert.KernelIdeal.Gen.main_part1_ops0 W (Proc.devRef .tc Cert.KernelIdeal.main_v63) : (Cert.KernelIdeal.S4x6x64x128x2).Idx → Elt F .f32) = after (τ := Cert.ReferenceIdeal.τ) Cert.ReferenceIdeal.Hand.ops1 W' (Proc.devRef .tc Cert.ReferenceIdeal.main_v63) ∧
    (after (τ := Cert.KernelIdeal.τ) Cert.KernelIdeal.Gen.main_part1_ops0 W (Proc.devRef .tc Cert.KernelIdeal.main_v79) : (Cert.KernelIdeal.S4x6x64x128x2).Idx → Elt F .f32) = after (τ := Cert.ReferenceIdeal.τ) Cert.ReferenceIdeal.Hand.ops1 W' (Proc.devRef .tc Cert.ReferenceIdeal.main_v79) ∧
    (after (τ := Cert.KernelIdeal.τ) Cert.KernelIdeal.Gen.main_part1_ops0 W (Proc.devRef .tc Cert.KernelIdeal.main_v83) : (Cert.KernelIdeal.S4x6x64x2x2).Idx → Elt F .f32) = after (τ := Cert.ReferenceIdeal.τ) Cert.ReferenceIdeal.Hand.ops1 W' (Proc.devRef .tc Cert.ReferenceIdeal.main_v83) ∧
    (after (τ := Cert.KernelIdeal.τ) Cert.KernelIdeal.Gen.main_part1_ops0 W (Proc.devRef .tc Cert.KernelIdeal.main_v87) : (Cert.KernelIdeal.S4x6x64x2x2).Idx → Elt F .f32) = after (τ := Cert.ReferenceIdeal.τ) Cert.ReferenceIdeal.Hand.ops1 W' (Proc.devRef .tc Cert.ReferenceIdeal.main_v87) ∧
    (after (τ := Cert.KernelIdeal.τ) Cert.KernelIdeal.Gen.main_part1_ops0 W (Proc.devRef .tc Cert.KernelIdeal.main_v91) : (Cert.KernelIdeal.S4x6x64x2x2).Idx → Elt F .f32) = after (τ := Cert.ReferenceIdeal.τ) Cert.ReferenceIdeal.Hand.ops1 W' (Proc.devRef .tc Cert.ReferenceIdeal.main_v91) ∧
    (after (τ := Cert.KernelIdeal.τ) Cert.KernelIdeal.Gen.main_part1_ops0 W (Proc.devRef .tc Cert.KernelIdeal.main_v95) : (Cert.KernelIdeal.S4x6x64x2x2).Idx → Elt F .f32) = after (τ := Cert.ReferenceIdeal.τ) Cert.ReferenceIdeal.Hand.ops1 W' (Proc.devRef .tc Cert.ReferenceIdeal.main_v95) := by
  after_results_joins
  all_goals (try simp only [h0, h1, h2, h3, h4, h5, h6, h7, h8, h9, h10, h11])
  all_goals (repeat' apply And.intro)
  all_goals first | trivial | rfl

set_option maxRecDepth 16384 in
set_option maxHeartbeats 40000000 in
/-- From memories agreeing on the argument the first stretches leave the same contents in every buffer the second
    stretches read; neither writes the argument. -/
theorem shared0 (M : Valuation Cert.KernelIdeal.τ Cert.KernelIdeal.sig (Elt F)) (M' : Valuation Cert.ReferenceIdeal.τ Cert.ReferenceIdeal.sig (Elt F))
    (h : (M' (Proc.devRef .tc Cert.ReferenceIdeal.main_arg0) : (Cert.KernelIdeal.S4x6x64x128x128).Idx → Elt F .f32) = M (Proc.devRef .tc Cert.KernelIdeal.main_arg0)) :
    ((after (τ := Cert.ReferenceIdeal.τ) Cert.ReferenceIdeal.Hand.ops0 M' (Proc.devRef .tc Cert.ReferenceIdeal.main_v1) : (Cert.KernelIdeal.S4x64x128x128).Idx → Elt F .f32) = after (τ := Cert.KernelIdeal.τ) Cert.KernelIdeal.Gen.main_part0_ops0 M (Proc.devRef .tc Cert.KernelIdeal.main_v1)) ∧
    ((after (τ := Cert.ReferenceIdeal.τ) Cert.ReferenceIdeal.Hand.ops0 M' (Proc.devRef .tc Cert.ReferenceIdeal.main_v5) : (Cert.KernelIdeal.S4x64x128x128).Idx → Elt F .f32) = after (τ := Cert.KernelIdeal.τ) Cert.KernelIdeal.Gen.main_part0_ops0 M (Proc.devRef .tc Cert.KernelIdeal.main_v5)) ∧
    ((after (τ := Cert.ReferenceIdeal.τ) Cert.ReferenceIdeal.Hand.ops0 M' (Proc.devRef .tc Cert.ReferenceIdeal.main_v7) : (Cert.KernelIdeal.S4x64x128x128).Idx → Elt F .f32) = after (τ := Cert.KernelIdeal.τ) Cert.KernelIdeal.Gen.main_part0_ops0 M (Proc.devRef .tc Cert.KernelIdeal.main_v7)) ∧
    ((after (τ := Cert.ReferenceIdeal.τ) Cert.ReferenceIdeal.Hand.ops0 M' (Proc.devRef .tc Cert.ReferenceIdeal.main_v9) : (Cert.KernelIdeal.S4x64x128x128).Idx → Elt F .f32) = after (τ := Cert.KernelIdeal.τ) Cert.KernelIdeal.Gen.main_part0_ops0 M (Proc.devRef .tc Cert.KernelIdeal.main_v9)) ∧
    ((after (τ := Cert.ReferenceIdeal.τ) Cert.ReferenceIdeal.Hand.ops0 M' (Proc.devRef .tc Cert.ReferenceIdeal.main_v29) : (Cert.KernelIdeal.S4x6x64x2x128).Idx → Elt F .f32) = after (τ := Cert.KernelIdeal.τ) Cert.KernelIdeal.Gen.main_part0_ops0 M (Proc.devRef .tc Cert.KernelIdeal.main_v29)) ∧
    ((after (τ := Cert.ReferenceIdeal.τ) Cert.ReferenceIdeal.Hand.ops0 M' (Proc.devRef .tc Cert.ReferenceIdeal.main_v47) : (Cert.KernelIdeal.S4x6x64x2x128).Idx → Elt F .f32) = after (τ := Cert.KernelIdeal.τ) Cert.KernelIdeal.Gen.main_part0_ops0 M (Proc.devRef .tc Cert.KernelIdeal.main_v47)) ∧
    ((after (τ := Cert.ReferenceIdeal.τ) Cert.ReferenceIdeal.Hand.ops0 M' (Proc.devRef .tc Cert.ReferenceIdeal.main_v53) : (Cert.KernelIdeal.S4x64x128x2).Idx → Elt F .f32) = after (τ := Cert.KernelIdeal.τ) Cert.KernelIdeal.Gen.main_part0_ops0 M (Proc.devRef .tc Cert.KernelIdeal.main_v53)) ∧
    ((after (τ := Cert.ReferenceIdeal.τ) Cert.ReferenceIdeal.Hand.ops0 M' (Proc.devRef .tc Cert.ReferenceIdeal.main_v54) : (Cert.KernelIdeal.S4x64x128x2).Idx → Elt F .f32) = after (τ := Cert.KernelIdeal.τ) Cert.KernelIdeal.Gen.main_part0_ops0 M (Proc.devRef .tc Cert.KernelIdeal.main_v54)) ∧
    ((after (τ := Cert.ReferenceIdeal.τ) Cert.ReferenceIdeal.Hand.ops0 M' (Proc.devRef .tc Cert.ReferenceIdeal.main_v56) : (Cert.KernelIdeal.S4x64x128x2).Idx → Elt F .f32) = after (τ := Cert.KernelIdeal.τ) Cert.KernelIdeal.Gen.main_part0_ops0 M (Proc.devRef .tc Cert.KernelIdeal.main_v56)) ∧
    ((after (τ := Cert.ReferenceIdeal.τ) Cert.ReferenceIdeal.Hand.ops0 M' (Proc.devRef .tc Cert.ReferenceIdeal.main_v57) : (Cert.KernelIdeal.S4x1x64x128x2).Idx → Elt F .f32) = after (τ := Cert.KernelIdeal.τ) Cert.KernelIdeal.Gen.main_part0_ops0 M (Proc.devRef .tc Cert.KernelIdeal.main_v57)) ∧
    ((after (τ := Cert.ReferenceIdeal.τ) Cert.ReferenceIdeal.Hand.ops0 M' (Proc.devRef .tc Cert.ReferenceIdeal.main_v58) : (Cert.KernelIdeal.S4x1x64x128x2).Idx → Elt F .f32) = after (τ := Cert.KernelIdeal.τ) Cert.KernelIdeal.Gen.main_part0_ops0 M (Proc.devRef .tc Cert.KernelIdeal.main_v58)) ∧
    ((after (τ := Cert.ReferenceIdeal.τ) Cert.ReferenceIdeal.Hand.ops0 M' (Proc.devRef .tc Cert.ReferenceIdeal.main_v59) : (Cert.KernelIdeal.S4x1x64x128x2).Idx → Elt F .f32) = after (τ := Cert.KernelIdeal.τ) Cert.KernelIdeal.Gen.main_part0_ops0 M (Proc.devRef .tc Cert.KernelIdeal.main_v59)) ∧
    after (τ := Cert.KernelIdeal.τ) Cert.KernelIdeal.Gen.main_part0_ops0 M (Proc.devRef .tc Cert.KernelIdeal.main_arg0) = M (Proc.devRef .tc Cert.KernelIdeal.main_arg0) ∧ after (τ := Cert.ReferenceIdeal.τ) Cert.ReferenceIdeal.Hand.ops0 M' (Proc.devRef .tc Cert.ReferenceIdeal.main_arg0) = M' (Proc.devRef .tc Cert.ReferenceIdeal.main_arg0) := by
  after_results_joins
  all_goals (try simp only [h])
  all_goals (repeat' apply And.intro)
  all_goals first | trivial | rfl

end Cert.CubePad

end
-- ==== Proof.BridgeIdeal.lean ====
/-
  The kernel's result array is the reference's.

  `padded` fills the result from the argument `x`, the top rows [p_tl | top | p_tr], the bottom rows
  [p_dl | bot | p_dr] and the two side strips transposed; the reference joins the columns [p_tl ; lft ; p_dl],
  [top ; x ; bot], [p_tr ; rgt ; p_dr]. The strips and corner tiles are the same in both programs when the memories
  agree on the argument, so the two arrangements of the same nine pieces agree at every position (`assemble_eq`).
-/
import proofs.«155738_j69243462746691_2_alg».proof.Proof.BlockIdeal
import proofs.«155738_j69243462746691_2_alg».proof.Proof.Windows

set_option maxRecDepth 16384

noncomputable section

namespace Cert.KernelIdeal.Padded

open Cert.KernelIdeal Cert.KernelIdeal.Gen Cert.KernelIdeal.Region Cert.CubePad
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 40000000 in
/-- No operation of the reference writes its argument. -/
theorem reference_arg_kept (M' : Valuation Cert.ReferenceIdeal.τ Cert.ReferenceIdeal.sig (Elt F)) :
    after (τ := Cert.ReferenceIdeal.τ) Cert.ReferenceIdeal.Hand.ops M' (Proc.devRef .tc Cert.ReferenceIdeal.main_arg0) = M' (Proc.devRef .tc Cert.ReferenceIdeal.main_arg0) := by
  after_results_joins

/-- A buffer as the region finds it, through the two stretches of host operations. -/
theorem V_split (c : Dev nD) (b : Ref sig .tc) :
    V m c b = after (τ := τ) main_part1_ops0 (after main_part0_ops0 (launchContents m c)) (Proc.devRef .tc b) := by
  show after (τ := τ) hostOps0 (launchContents m c) (Proc.devRef .tc b) = _
  rw [kernel_split, after_append]

set_option maxHeartbeats 4000000 in
/-- The kernel's result array is what the reference's operations leave in its result buffer, from memories agreeing on
    the argument. -/
theorem padded_eq_ref (m' : (ℓ : Loc Cert.ReferenceIdeal.nD Cert.ReferenceIdeal.τ Cert.ReferenceIdeal.sig) → Buf (Elt F) ℓ) (c : Dev nD)
    (h : m' ((c.tc : Thread Cert.ReferenceIdeal.nD Cert.ReferenceIdeal.τ).loc Cert.ReferenceIdeal.main_arg0) = m ((c.tc : Thread nD τ).loc main_arg0)) :
    padded m c = after (τ := Cert.ReferenceIdeal.τ) Cert.ReferenceIdeal.Hand.ops (launchContents m' c) (Proc.devRef .tc Cert.ReferenceIdeal.main_v99) := by
  obtain ⟨c0, c1, c2, c3, c4, c5, c6, c7, c8, c9, c10, c11, a0, a0'⟩ := shared0 (F := F) (launchContents m c) (launchContents m' c) h
  obtain ⟨k96, k97, k98, k99, k0⟩ := kernel_tail (F := F) (after main_part0_ops0 (launchContents m c))
  obtain ⟨r99, r0⟩ := reference_tail (F := F) (after Cert.ReferenceIdeal.Hand.ops0 (launchContents m' c))
  obtain ⟨s63, s79, s83, s87, s91, s95⟩ := shared1 (F := F) (after main_part0_ops0 (launchContents m c))
    (after Cert.ReferenceIdeal.Hand.ops0 (launchContents m' c)) c0 c1 c2 c3 c4 c5 c6 c7 c8 c9 c10 c11
  unfold padded
  rw [V_split m c main_arg0, V_split m c main_v96, V_split m c main_v97, V_split m c main_v98, V_split m c main_v99]
  refine (congr (congr (congr (congr (congrArg (assemble (nb := 4) (nf := 6)) (k0.trans a0)) k96) k97) k98) k99).trans ?_
  refine (assemble_eq (nb := 4) (nf := 6) _ _ _ _ _ _ _ _ _ _ _
    Cert.ReferenceIdeal.Facts₀.concatenates_S4x6x64x2x128_S4x6x64x128x128_S4x6x64x2x128_S4x6x64x132x128_d3
    Cert.ReferenceIdeal.Facts₀.concatenates_S4x6x64x2x2_S4x6x64x128x2_S4x6x64x2x2_S4x6x64x132x2_d3
    Cert.ReferenceIdeal.Facts₀.concatenates_S4x6x64x132x2_S4x6x64x132x128_S4x6x64x132x2_S4x6x64x132x132_d4).trans ?_
  rw [Cert.ReferenceIdeal.Hand.ops_split, after_append]
  refine Eq.trans ?_ r99.symm
  rw [s63, s79, s83, s87, s91, s95, c4, c5, a0',
    show launchContents m' c (Proc.devRef .tc Cert.ReferenceIdeal.main_arg0) = launchContents m c (Proc.devRef .tc main_arg0) from h]

end Cert.KernelIdeal.Padded

end
-- ==== Proof.lean ====
/-
  Two-pixel cube-map padding: the kernel against its reference, over the extended reals.

  Both programs cut the same border strips and corner tiles out of the six faces with the same host operations. The
  reference then joins, per face, the three columns [p_tl ; lft ; p_dl], [top ; x ; bot], [p_tr ; rgt ; p_dr] of the
  padded picture. The kernel joins the top and bottom rows on the host, transposes the side strips, and one launch over
  the 4 x 6 (batch, face) grid fills each 132 x 132 face by five stores that partition it. No element is computed
  with: both results hold, at every position, the same element of the argument, so they are equal whatever the
  argument holds, and the precondition is not used.

  The frames: the launch runs every grid point's body to the end through its staged blocks and writes each result
  block back once; the argument is only read. The reference has no launch; it is a list of host operations, none of which writes
  the argument. The ideal pass rewrote no operation of the kernel.
-/
import proofs.«155738_j69243462746691_2_alg».proof.Defs
import proofs.«155738_j69243462746691_2_alg».proof.Proof.Gen.Kernel
import proofs.«155738_j69243462746691_2_alg».proof.Proof.Gen.KernelIdeal
import proofs.«155738_j69243462746691_2_alg».proof.Proof.Gen.ReferenceIdeal
import proofs.«155738_j69243462746691_2_alg».proof.Proof.Gen.Pre_finite_inputs
import proofs.«155738_j69243462746691_2_alg».proof.Proof.RefRun
import proofs.«155738_j69243462746691_2_alg».proof.Proof.RegionBits
import proofs.«155738_j69243462746691_2_alg».proof.Proof.BridgeIdeal

noncomputable section

namespace Cert.Proof

open Idealize.ShloMosaic Idealize.SL.Sem

theorem frame_kernel : Cert.frame_Kernel := fun m ρ _ => Cert.Kernel.Region.frame m ρ

theorem frame_kernelIdeal : Cert.frame_KernelIdeal := fun m ρ _ => Cert.KernelIdeal.Region.frame m ρ

set_option maxHeartbeats 4000000 in
theorem frame_referenceIdeal : Cert.frame_ReferenceIdeal := fun m ρ _ =>
  (θ_run Cert.ReferenceIdeal.defs _ _).mono (fun _ h c => (h c Cert.ReferenceIdeal.main_arg0).trans (Cert.KernelIdeal.Padded.reference_arg_kept (F := Ideal) _))
    (Cert.ReferenceIdeal.Hand.run_after (F := Ideal) m ρ)

theorem preserves : Cert.preserves_Kernel_KernelIdeal := trivial

set_option maxHeartbeats 4000000 in
/-- From memories agreeing on the argument both programs end with the padded faces of that argument: the kernel's
    result array at `padded`, which is the reference's last stage of the argument. -/
theorem algebraic : Cert.algebraic_KernelIdeal_ReferenceIdeal := by
  intro m ρ m' ρ' _ hagree
  refine ⟨fun c => Cert.KernelIdeal.Padded.padded m c, Cert.KernelIdeal.Padded.run (F := Ideal) m ρ, ?_⟩
  refine (θ_run Cert.ReferenceIdeal.defs _ _).mono (fun _ h c => ⟨(h c Cert.ReferenceIdeal.main_v99).trans ?_,
      (h c Cert.ReferenceIdeal.main_arg0).trans (Cert.KernelIdeal.Padded.reference_arg_kept (F := Ideal) _)⟩)
    (Cert.ReferenceIdeal.Hand.run_after (F := Ideal) m' ρ')
  exact (Cert.KernelIdeal.Padded.padded_eq_ref (F := Ideal) m m' c (hagree c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
